-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "c_21_10" .f32 0x40066666#32 ((21 / 10 : ℝ) : EReal)
  ∧ IdealRules.named_const.Statement Cert.KernelIdeal.κ "c_21_10" .f32 0x40066666#32 ((21 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S1024x512 : Shape := ⟨2, ![1024, 512]⟩
abbrev S1024 : Shape := ⟨1, ![1024]⟩
abbrev S1024x1 : Shape := ⟨2, ![1024, 1]⟩
abbrev S8192x512 : Shape := ⟨2, ![8192, 512]⟩
abbrev S8192x1 : Shape := ⟨2, ![8192, 1]⟩
abbrev S2048x512 : Shape := ⟨2, ![2048, 512]⟩
abbrev S512x2048 : Shape := ⟨2, ![512, 2048]⟩
abbrev S1024x2048 : Shape := ⟨2, ![1024, 2048]⟩
abbrev S8192 : Shape := ⟨1, ![8192]⟩
abbrev S_ : Shape := ⟨0, ![]⟩
abbrev S4096 : Shape := ⟨1, ![4096]⟩

abbrev nBuf : Space → Nat
  | .hbm => 28
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x512, .f32⟩
  | .hbm, ⟨4, _⟩ => ⟨S4096x512, .bf16⟩
  | .hbm, ⟨5, _⟩ => ⟨S4096x512, .f32⟩
  | .hbm, ⟨6, _⟩ => ⟨S8192x512, .bf16⟩
  | .hbm, ⟨7, _⟩ => ⟨S8192x1, .f32⟩
  | .hbm, ⟨8, _⟩ => ⟨S8192, .f32⟩
  | .hbm, ⟨9, _⟩ => ⟨S4096x512, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_11 : BitVec 32 := 0#32
  let v23 : BitVec 1 := Scalar.cmpi .ne v22 c0_i32_11
  v23

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  concatenates_S4096x512_S4096x512_S8192x512_d0 : Shape.Concatenates [S4096x512, S4096x512] S8192x512 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  reduces_S1024x2048_S1024 : S1024x2048.Reduces [1] S1024
  shapeCasts_S8192x1_S8192 : S8192x1.ShapeCasts S8192
  reducesTo_S4096x512_S4096_d1 : S4096x512.ReducesTo [1] S4096
  h_S_ : 0 < S_.numel
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .bf16 = 32 ∨ (Rect.block (s := S4096x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x512.size a
  hwx1_1 : ∀ i : grid1.Coords, EltTy.bits .bf16 = 32 ∨ (Rect.block (s := S4096x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x512.size a
  hwx1_2 : ∀ i : grid1.Coords, EltTy.bits .f32 = 32 ∨ (Rect.block (s := S4096x512) S1024x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .bf16 = 32 ∨ (Rect.block (s := S8192x512) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S8192x512.size a
  hwx2_1 : ∀ i : grid2.Coords, EltTy.bits .bf16 = 32 ∨ (Rect.block (s := S8192x512) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1024x512.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S8192x8192 : Shape := ⟨2, ![8192, 8192]⟩
abbrev S4096 : Shape := ⟨1, ![4096]⟩
abbrev S8192x2 : Shape := ⟨2, ![8192, 2]⟩

abbrev nBuf : Space → Nat
  | .hbm => 60
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S512x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S4096, .i32⟩
  | .hbm, ⟨19, _⟩ => ⟨S4096, .i32⟩
  | .hbm, ⟨20, _⟩ => ⟨S8192, .i32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S8192x1, .i32⟩
  | .hbm, ⟨52, _⟩ => ⟨S8192x1, .i32⟩
  | .hbm, ⟨53, _⟩ => ⟨S8192x2, .i32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_call1_cst_0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_cst_1 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_2 : Ref sig .tc := ⟨.hbm, 44, rfl⟩
abbrev main_v20 : Ref sig .tc := ⟨.hbm, 45, rfl⟩
abbrev main_v21 : Ref sig .tc := ⟨.hbm, 46, rfl⟩
abbrev main_c_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩

abbrev nD : Nat := 1
abbrev τ : Topo := Topo.v7x

variable {F : FTy → Type} [FloatOps F]

class Facts₀ : Prop where
  concatenates_S4096x512_S4096x512_S8192x512_d0 : Shape.Concatenates [S4096x512, S4096x512] S8192x512 0
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  concatenates_S8192x1_S8192x1_S8192x2_d1 : Shape.Concatenates [S8192x1, S8192x1] S8192x2 1
  reducesTo_S8192_S_d0 : S8192.ReducesTo [0] S_
  dot_S8192x512_S512x8192_S8192x8192_1_0_0_1_n_n_wf : DotDims.WF S8192x512 S512x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.NormCallsB.lean ====
/-
  The two row-normalising calls of the kernel program, each as a pipeline over its grid of four row blocks.

  A call reads one [1024, 512] block of its argument per grid point and writes two blocks: the rows divided by the
  larger of their Euclidean norm and a floor, once in single precision and once narrowed to half precision.  For a
  parameter `V` — what the core's buffers hold when the call is entered — this module gives the block a window sees
  at a point, what the body leaves in each output buffer as a function of the input block, the body's triple, the
  pipeline's proof data and its body obligation at every point.
-/
import proofs.«163665_j75909251990177_2_alg».proof.Proof.Gen.Kernel.Launch
import proofs.«163665_j75909251990177_2_alg».proof.Proof.Gen.Kernel.Skeleton
import proofs.«163665_j75909251990177_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The normalize call 0 (pipeline 0), at the contents `V` the region is entered with -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole [1024, 512] block. -/
abbrev r0 : Rect S1024x512 := Rect.unit (s := S1024x512) ![0, 0] S1024x512.size inb_S1024x512_S1024x512_0_0

/-- What the body leaves in the half-precision output's buffer: the scaled rows, narrowed. -/
def out0_1 (x0 : Vec F S1024x512 .f32) : Vec F S1024x512 .bf16 :=
  View.canon [⟨r0, k0_pay2 (View.ld x0 r0)⟩]
/-- What the body leaves in the single-precision output's buffer: the scaled rows. -/
def out0_2 (x0 : Vec F S1024x512 .f32) : Vec F S1024x512 .f32 :=
  View.canon [⟨r0, k0_pay1 (View.ld x0 r0)⟩]

/-- The one store covers the whole buffer. -/
theorem cover0_1 (p0 : Vec F S1024x512 .bf16) (y : S1024x512.Idx) :
    ∃ pc ∈ ([⟨r0, p0⟩] : List (View.Piece (Elt F) S1024x512 .bf16)), y ∈ pc.1.set :=
  View.cover_of_tiled [⟨r0, p0⟩] S1024x512.size (by rfl) y
theorem cover0_2 (p0 : Vec F S1024x512 .f32) (y : S1024x512.Idx) :
    ∃ pc ∈ ([⟨r0, p0⟩] : List (View.Piece (Elt F) S1024x512 .f32)), y ∈ pc.1.set :=
  View.cover_of_tiled [⟨r0, p0⟩] S1024x512.size (by rfl) y

set_option maxHeartbeats 1000000 in
/-- The body on whole staging buffers, the input's at contents `x0` and the outputs' at anything, ends with the input's
    as it was and each output's at the scaled rows of `x0`. -/
theorem sound_kernel0 (c : Dev nD) (E : Set ℕ) (i : grid0.Coords) (arg1 : Memref sig .tc .vmem S1024x512 .f32) (harg1 : arg1.IsWhole)
    (arg2 : Memref sig .tc .vmem S1024x512 .bf16) (harg2 : arg2.IsWhole) (arg3 : Memref sig .tc .vmem S1024x512 .f32) (harg3 : arg3.IsWhole)
    (x0 : Vec F S1024x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The proof data of pipeline 0 on core `c`: the arrays as the region finds them; after the body at point `t` the
    input's buffer at its block and each output's at the scaled rows of that block; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # The normalize call 1 (pipeline 1), at the contents `V` the region is entered with -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body loads and stores through: the whole [1024, 512] block. -/
abbrev r1 : Rect S1024x512 := Rect.unit (s := S1024x512) ![0, 0] S1024x512.size inb_S1024x512_S1024x512_0_0

/-- What the body leaves in the half-precision output's buffer: the scaled rows, narrowed. -/
def out1_1 (x0 : Vec F S1024x512 .f32) : Vec F S1024x512 .bf16 :=
  View.canon [⟨r1, k1_pay2 (View.ld x0 r1)⟩]
/-- What the body leaves in the single-precision output's buffer: the scaled rows. -/
def out1_2 (x0 : Vec F S1024x512 .f32) : Vec F S1024x512 .f32 :=
  View.canon [⟨r1, k1_pay1 (View.ld x0 r1)⟩]

/-- The one store covers the whole buffer. -/
theorem cover1_1 (p0 : Vec F S1024x512 .bf16) (y : S1024x512.Idx) :
    ∃ pc ∈ ([⟨r1, p0⟩] : List (View.Piece (Elt F) S1024x512 .bf16)), y ∈ pc.1.set :=
  View.cover_of_tiled [⟨r1, p0⟩] S1024x512.size (by rfl) y
theorem cover1_2 (p0 : Vec F S1024x512 .f32) (y : S1024x512.Idx) :
    ∃ pc ∈ ([⟨r1, p0⟩] : List (View.Piece (Elt F) S1024x512 .f32)), y ∈ pc.1.set :=
  View.cover_of_tiled [⟨r1, p0⟩] S1024x512.size (by rfl) y

set_option maxHeartbeats 1000000 in
/-- The body on whole staging buffers, the input's at contents `x0` and the outputs' at anything, ends with the input's
    as it was and each output's at the scaled rows of `x0`. -/
theorem sound_kernel1 (c : Dev nD) (E : Set ℕ) (i : grid1.Coords) (arg1 : Memref sig .tc .vmem S1024x512 .f32) (harg1 : arg1.IsWhole)
    (arg2 : Memref sig .tc .vmem S1024x512 .bf16) (harg2 : arg2.IsWhole) (arg3 : Memref sig .tc .vmem S1024x512 .f32) (harg3 : arg3.IsWhole)
    (x0 : Vec F S1024x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0)
            ∗ owns (c : Thread nD τ) arg3 fullShare (out1_2 x0)) -∗ K ⟨⟩))
      ⊢ wp frame (wpE (defs₀ (F := F)) Variants.none c none) E (cc1__normalize_kernel i arg1 harg1 arg2 harg2 arg3 harg3) K := by
  simp only [cc1__normalize_kernel_eq_skeleton]; unfold cc1__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-- The proof data of pipeline 1 on core `c`: the arrays as the region finds them; after the body at point `t` the
    input's buffer at its block and each output's at the scaled rows of that block; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's buffer holds its block, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.LseRunsB.lean ====
/-
  The log-sum-exp call of the kernel program: its grid is 8 row blocks by 4 column blocks, the column axis innermost.

  At column block 0 the body clears a [1024, 1] scratch accumulator; at every column block it adds to the accumulator the
  row sums of exp (q kᵀ · 2 − shift) for the point's [1024, 512] row block q and [2048, 512] column block k; at column
  block 3 it stores shift + log of the accumulator into the output block.  So a grid point is in one of three cases —
  first column block, a middle one, the last one — decided by the point's position modulo 4.  This module decides the
  two branch conditions over the grid, says where the output window is idle, and runs the body once per case: the
  pieces each case leaves in the output buffer and in the scratch are found by the run itself.
-/
import proofs.«163665_j75909251990177_2_alg».proof.Proof.Gen.Kernel.Launch
import proofs.«163665_j75909251990177_2_alg».proof.Proof.Gen.Kernel.Skeleton
import proofs.«163665_j75909251990177_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first conditional (column block 0), as the body computes it from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)
/-- The second conditional (column block 3). -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At a first or middle column block the output window is idle (nothing is stored into it) and is not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At the last column block it is live. -/
theorem liveAt2_2_C : ∀ t : Fin cfg2.N, ¬cond2_0 (grid2.coords t) → cond2_1 (grid2.coords t) → cfg2.idle 2 (grid2.coords t) = false := by decide +kernel

/-! ## The memrefs the body is called with -/

abbrev VO2_2 : View sig .tc .vmem S1024x1 .f32 := (Memref.whole cc2_stg2_0 : Memref sig .tc .vmem S1024x1 .f32).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
/-- The scratch accumulator: a whole scoped buffer of the kernel's own. -/
abbrev scM2_0 : Memref sig .tc .vmem S1024x1 .f32 := Memref.whole cc2_scratch0
abbrev VS2_0 : View sig .tc .vmem S1024x1 .f32 := scM2_0.view

/-! ## The body, once per case -/

set_option maxHeartbeats 4000000 in
/-- FIRST COLUMN BLOCK (the first conditional taken, the second not): on whole memrefs — the inputs' at their contents, the
    idle output's at contents handed back untouched, the scratch at anything — the body ends with the inputs' and the
    output's as they were and the scratch with its pieces written. -/
noncomputable def kernelRun2_A (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond2_0 i) (hc1 : ¬cond2_1 i)
    (x0 : Vec F S1024x512 .bf16) (x1 : Vec F S2048x512 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__lse_kernel i arg2 harg2 arg3 harg3 arg4 harg4 arg5 harg5) K } := by
  refine ⟨[], ?_, fun xi2 E K => ?run⟩
  case run =>
    simp only [cc2__lse_kernel_eq_skeleton]; unfold cc2__lse_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- A MIDDLE COLUMN BLOCK (neither conditional taken): the scratch enters at what the point before left (`xs0`). -/
noncomputable def kernelRun2_B (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : ¬cond2_1 i)
    (x0 : Vec F S1024x512 .bf16) (x1 : Vec F S2048x512 .bf16) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__lse_kernel i arg2 harg2 arg3 harg3 arg4 harg4 arg5 harg5) K } := by
  refine ⟨[], ?_, fun xi2 E K => ?run⟩
  case run =>
    simp only [cc2__lse_kernel_eq_skeleton]; unfold cc2__lse_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- THE LAST COLUMN BLOCK (the second conditional taken): the output's buffer enters at anything and ends with its pieces written. -/
noncomputable def kernelRun2_C (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__lse_kernel i arg2 harg2 arg3 harg3 arg4 harg4 arg5 harg5) K } := by
  refine ⟨?_, ?_, fun E K => ?run⟩
  case run =>
    simp only [cc2__lse_kernel_eq_skeleton]; unfold cc2__lse_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.LseCallB.lean ====
/-
  The log-sum-exp call as a pipeline: what every grid point leaves behind, the invariant that carries the scratch
  accumulator from one point to the next, the pipeline's proof data and its body obligation.

  After the body at point `n` the scratch holds: at a first column block (n ≡ 0 mod 4) the clearing store followed by
  the accumulating store; otherwise the accumulating store over what point `n − 1` left.  The output's staging buffer
  is stored into only at a last column block (n ≡ 3 mod 4), from the scratch as that point leaves it; elsewhere the
  window is idle and its buffer is handed back untouched.
-/
import proofs.«163665_j75909251990177_2_alg».proof.Proof.Gen.Kernel.Launch
import proofs.«163665_j75909251990177_2_alg».proof.Proof.Gen.Kernel.Skeleton
import proofs.«163665_j75909251990177_2_alg».proof.Proof.Gen.Kernel.Points
import proofs.«163665_j75909251990177_2_alg».proof.Proof.LseRunsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's staging buffer holds its block at every point, fetched there or not (the row block is fetched
    once per four points: in between, its index does not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- A first column block stores nothing into the output (a placeholder nothing consults). -/
def out2_A_2 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond2_0 i) (hc1 : ¬cond2_1 i)
    (x0 : Vec F S1024x512 .bf16) (x1 : Vec F S2048x512 .bf16) : Vec F S1024x1 .f32 :=
  VO2_2.read (Elt F) (VO2_2.writes (Elt F) VO2_2.junk (kernelRun2_A c i arg2 harg2 arg3 harg3 arg4 harg4 arg5 harg5 hc0 hc1 x0 x1).1)
/-- Its pieces for the scratch cover it. -/
theorem scover2_A_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond2_0 i) (hc1 : ¬cond2_1 i)
    (x0 : Vec F S1024x512 .bf16) (x1 : Vec F S2048x512 .bf16) (y : S1024x1.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x1.size (by sl_kernel_rfl) y
/-- What it leaves in the scratch: its pieces read back. -/
def sout2_A_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond2_0 i) (hc1 : ¬cond2_1 i)
    (x0 : Vec F S1024x512 .bf16) (x1 : Vec F S2048x512 .bf16) : Vec F S1024x1 .f32 :=
  VS2_0.read (Elt F) (VS2_0.writes (Elt F) VS2_0.junk (kernelRun2_A c i arg2 harg2 arg3 harg3 arg4 harg4 arg5 harg5 hc0 hc1 x0 x1).2.1)

/-- A middle column block stores nothing into the output either. -/
def out2_B_2 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : ¬cond2_1 i)
    (x0 : Vec F S1024x512 .bf16) (x1 : Vec F S2048x512 .bf16) (xs0 : Vec F S1024x1 .f32) : Vec F S1024x1 .f32 :=
  VO2_2.read (Elt F) (VO2_2.writes (Elt F) VO2_2.junk (kernelRun2_B c i arg2 harg2 arg3 harg3 arg4 harg4 arg5 harg5 hc0 hc1 x0 x1 xs0).1)
theorem scover2_B_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : ¬cond2_1 i)
    (x0 : Vec F S1024x512 .bf16) (x1 : Vec F S2048x512 .bf16) (xs0 : Vec F S1024x1 .f32) (y : S1024x1.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x1.size (by sl_kernel_rfl) y
def sout2_B_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : ¬cond2_1 i)
    (x0 : Vec F S1024x512 .bf16) (x1 : Vec F S2048x512 .bf16) (xs0 : Vec F S1024x1 .f32) : Vec F S1024x1 .f32 :=
  VS2_0.read (Elt F) (VS2_0.writes (Elt F) VS2_0.junk (kernelRun2_B c i arg2 harg2 arg3 harg3 arg4 harg4 arg5 harg5 hc0 hc1 x0 x1 xs0).2.1)

/-- The last column block's pieces for the output cover its block. -/
theorem cover2_C_2 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) (y : S1024x1.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x1.size (by sl_kernel_rfl) y
/-- What it leaves in the output's staging buffer. -/
def out2_C_2 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) : Vec F S1024x1 .f32 :=
  VO2_2.read (Elt F) (VO2_2.writes (Elt F) VO2_2.junk (kernelRun2_C c i arg2 harg2 arg3 harg3 arg4 harg4 arg5 harg5 hc0 hc1 x0 x1 xs0).1)
theorem scover2_C_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) (y : S1024x1.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x1.size (by sl_kernel_rfl) y
def sout2_C_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) : Vec F S1024x1 .f32 :=
  VS2_0.read (Elt F) (VS2_0.writes (Elt F) VS2_0.junk (kernelRun2_C c i arg2 harg2 arg3 harg3 arg4 harg4 arg5 harg5 hc0 hc1 x0 x1 xs0).2.1)

/-! ## What the output's buffer and the scratch hold after each point -/

/-- After the body at position `n`: (the output's staging buffer, the scratch) — the case the position selects, run at the
    point's memrefs and input blocks, the scratch entering at what position `n − 1` left. -/
def outsAt2 (c : Dev nD) : (n : ℕ) → n < cfg2.N → Vec F S1024x1 .f32 × Vec F S1024x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩),
          sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At a first column block: that case's contents. -/
theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t),
      sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- At a middle column block: that case's contents, over what the point before left. -/
theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column block: that case's contents, over what the point before left. -/
theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the scoped rest with the scratch at what the point before left -/

/-- The core's scoped buffers that are neither a staging buffer of this call nor its scratch, each whole at some contents. -/
def Rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the call (every scoped buffer it does not stage at anything, the generator register) with the scratch taken out, -/
theorem PhiA2_split (c : Dev nD) :
    (Pipeline.ΦA spec2 c : sProp 𝕄) ⊢ iprop(Rest2 (F := F) c ∗ (∃ d, owns (c : Thread nD τ) scM2_0 fullShare d) ∗ (∃ r, prngReg c r)) := by
  unfold Pipeline.ΦA Rest2; rw [scopedRest2_eq]; simp only [scM2_0, owns_whole]
  iintro ⟨⟨H1, H2, H3, H4, H5, H6, H7, H8, H9, H10, H11, H12, HS⟩, Hg⟩
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [HS]; · iexact HS
  iexact Hg
/-- and put back. -/
theorem PhiA2_join (c : Dev nD) :
    iprop(Rest2 (F := F) c ∗ (∃ d, owns (c : Thread nD τ) scM2_0 fullShare d) ∗ (∃ r, prngReg c r)) ⊢ (Pipeline.ΦA spec2 c : sProp 𝕄) := by
  unfold Pipeline.ΦA Rest2; rw [scopedRest2_eq]; simp only [scM2_0, owns_whole]
  iintro ⟨⟨H1, H2, H3, H4, H5, H6, H7, H8, H9, H10, H11, H12⟩, HS, Hg⟩
  isplitl [H1 H2 H3 H4 H5 H6 H7 H8 H9 H10 H11 H12 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  iexact Hg

/-- The invariant before position `n`: before the first point what the launch hands the call; afterwards the scoped rest,
    the scratch at what the point before left, and the generator register. -/
def PhiS2 (c : Dev nD) : (n : ℕ) → n ≤ cfg2.N → sProp 𝕄
  | 0, _ => Pipeline.ΦA spec2 c
  | n + 1, hn => iprop(Rest2 (F := F) c ∗ owns (c : Thread nD τ) scM2_0 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(Rest2 (F := F) c ∗ owns (c : Thread nD τ) scM2_0 fullShare ((outsAt2 V c n hn).2) ∗ (∃ r, prngReg c r)) := rfl
theorem PhiS2_pos (c : Dev nD) (n : ℕ) (h : n ≤ cfg2.N) (hz : n ≠ 0) :
    PhiS2 V c n h = iprop(Rest2 (F := F) c ∗ owns (c : Thread nD τ) scM2_0 fullShare ((outsAt2 V c (n - 1) (by omega)).2) ∗ (∃ r, prngReg c r)) := by
  cases n with
  | zero => exact absurd rfl hz
  | succ n => rfl

/-! ## The proof data -/

/-- The proof data of the call on core `c`, the two input windows sharing one array at half the full share each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.Kernel.Hand

end
-- ==== Proof.LseBodyB.lean ====
/-
  The log-sum-exp call's body obligation: at every grid point the body, run on the windows' current staging buffers and the
  scratch, takes the invariant before the point to the invariant after it.  The point's position modulo 4 selects the
  case; an input buffer holds its block; the scratch enters at what the point before left (at anything at a first
  column block) and leaves at this point's contents; the output's buffer is written at a last column block and handed
  back untouched elsewhere.
-/
import proofs.«163665_j75909251990177_2_alg».proof.Proof.Gen.Kernel.Launch
import proofs.«163665_j75909251990177_2_alg».proof.Proof.Gen.Kernel.Skeleton
import proofs.«163665_j75909251990177_2_alg».proof.Proof.Gen.Kernel.Points
import proofs.«163665_j75909251990177_2_alg».proof.Proof.LseCallB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz]
        iintro ⟨HΦ, Ho, ⟨%d0, H0⟩, ⟨%d1, H1⟩, ⟨%d2, H2⟩⟩
        ihave HΦ' := (PhiA2_split (F := F) c) $$ HΦ
        icases HΦ' with ⟨HR, HS0, Hg⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
      · rw [PhiS2_castSucc V c t, PhiS2_pos V c _ _ hz]
        iintro ⟨⟨HR, HS0, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        iintro ⟨⟨HR, HS0, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover2_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨HR, HS0, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover2_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega)]
  refine .trans ?_ (PhiA2_join (F := F) c)
  iintro ⟨HR, HS0, Hg⟩
  isplitl [HR]; · iexact HR
  isplitl [HS0]; · iexists _; iexact HS0
  iexact Hg

end Cert.Kernel.Hand

end
-- ==== Proof.LseEntryB.lean ====
/-
  Entering and leaving the log-sum-exp call.  Its two input windows read ONE array (the concatenated half-precision rows),
  so the array's full share is dealt between them, half each, at entry, and the halves are joined again at exit; the
  output window's array is held whole.  At entry every unscoped buffer of the core, held at the contents the call is
  entered with, splits into the call's arrays (by these shares) and the rest; at exit the arrays — the shared input as
  it was, the output at what the write-backs fold to — and the rest make every unscoped buffer held at the exit contents.
-/
import proofs.«163665_j75909251990177_2_alg».proof.Proof.Gen.Kernel.Launch
import proofs.«163665_j75909251990177_2_alg».proof.Proof.Gen.Kernel.Skeleton
import proofs.«163665_j75909251990177_2_alg».proof.Proof.Gen.Kernel.Points
import proofs.«163665_j75909251990177_2_alg».proof.Proof.LseCallB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the call's arrays: the concatenated rows and the output column. -/
theorem arrBufs2_eq (c : Dev nD) (Vc : (b : Ref sig .tc) → Buf (Elt F) ((c : Thread nD τ).loc b)) :
    (Pipeline.arrBufs (Ix := Unit) (Name := ℕ) (U := UR sig nD τ) (Lvl := ℕ) spec2 c Vc : sProp 𝕄)
      = iprop((((c : Thread nD τ).loc main_v2) ↦{fullShare} Vc main_v2) ∗ (((c : Thread nD τ).loc main_v3) ↦{fullShare} Vc main_v3)) := by
  unfold Pipeline.arrBufs
  rw [show Finset.univ.image (Pipeline.arrRef spec2) = {main_v2, main_v3} from by decide, BI.bigSep_insert (by decide), BI.bigSep_singleton]
  rfl

theorem share2_0 (c : Dev nD) : (dat2 V c).share 0 = fullShare.left := by unfold Dat.share; rfl
theorem share2_1 (c : Dev nD) : (dat2 V c).share 1 = fullShare.right := by unfold Dat.share; rfl
theorem share2_2 (c : Dev nD) : (dat2 V c).share 2 = fullShare := by unfold Dat.share; rfl

/-- The call's arrays, window by window, at the windows' shares. -/
theorem arrays2_eq (c : Dev nD) (Fw : (w : Fin cfg2.W) → Buf (Elt F) ((cfg2.win w).arr.view.loc (c : Thread nD τ))) :
    ((dat2 V c).arrays Fw : sProp 𝕄)
      = iprop((((c : Thread nD τ).loc (Pipeline.arrRef spec2 0)) ↦{fullShare.left} Fw 0)
          ∗ (((c : Thread nD τ).loc (Pipeline.arrRef spec2 1)) ↦{fullShare.right} Fw 1)
          ∗ (((c : Thread nD τ).loc (Pipeline.arrRef spec2 2)) ↦{fullShare} Fw 2)) := by
  have h : ((dat2 V c).arrays Fw : sProp 𝕄)
      = bigSep Finset.univ fun w => (((c : Thread nD τ).loc (Pipeline.arrRef spec2 w)) ↦{(dat2 V c).share w} Fw w : sProp 𝕄) := by
    unfold Dat.arrays
    exact bigSep_congr fun w _ => by rw [(arr_whole2 w).set_eq_univ]
  rw [h, bigSep_W2, share2_0, share2_1, share2_2]

/-- ENTRY: every unscoped buffer held at the entry contents gives the call's arrays at those contents, by the windows'
    shares, and the rest. -/
theorem entry2 (c : Dev nD) (Wc : Valuation τ sig (Elt F)) (hW : V c = fun (b : Ref sig .tc) => Wc b) :
    (StableHlo.held (c : Thread nD τ) (Pipeline.ucRefs τ sig) Wc : sProp 𝕄)
      ⊢ iprop((dat2 V c).arrays ((dat2 V c).arrAt · 0)
          ∗ Pipeline.unscopedRest (Ix := Unit) (Name := ℕ) (U := UR sig nD τ) (Lvl := ℕ) spec2 c (V c)) := by
  rw [← Pipeline.unscopedBufs_held (Ix := Unit) (Name := ℕ) (U := UR sig nD τ) (Lvl := ℕ) c Wc, ← hW,
    Pipeline.unscopedBufs_split₀ (cfgs := cfgs) (p := (2 : Fin 3)) winFacts₀2.arr_unscoped c (V c)]
  refine sep_mono ?_ .rfl
  change (Pipeline.arrBufs spec2 c (V c) : sProp 𝕄) ⊢ _
  rw [arrBufs2_eq, arrays2_eq]
  iintro ⟨H2, H3⟩
  ihave H2' := (pointsTo_share (PosShare.mem_left_op_right fullShare)).1 $$ H2
  icases H2' with ⟨Hl, Hr⟩
  isplitl [Hl]; · iexact Hl
  isplitl [Hr]; · iexact Hr
  iexact H3

/-- EXIT: the call's arrays after its last point and the rest give every unscoped buffer held at any contents that has the
    output array at what the write-backs fold to and agrees with the entry contents elsewhere. -/
theorem exit2 (c : Dev nD) (Wc' : Valuation τ sig (Elt F))
    (hout : Wc' main_v3 = (dat2 V c).arrAt 2 cfg2.N) (hrest : ∀ b : Ref sig .tc, b ≠ main_v3 → Wc' b = V c b) :
    iprop((dat2 V c).arrays ((dat2 V c).arrAt · cfg2.N)
        ∗ Pipeline.unscopedRest (Ix := Unit) (Name := ℕ) (U := UR sig nD τ) (Lvl := ℕ) spec2 c (V c))
      ⊢ (StableHlo.held (c : Thread nD τ) (Pipeline.ucRefs τ sig) Wc' : sProp 𝕄) := by
  rw [← Pipeline.unscopedBufs_held (Ix := Unit) (Name := ℕ) (U := UR sig nD τ) (Lvl := ℕ) c Wc',
    Pipeline.unscopedBufs_split₀ (cfgs := cfgs) (p := (2 : Fin 3)) winFacts₀2.arr_unscoped c (fun b => Wc' b)]
  refine sep_mono ?_ (Entails.of_eq ?_)
  · change _ ⊢ (Pipeline.arrBufs spec2 c (fun (b : Ref sig .tc) => Wc' b) : sProp 𝕄)
    rw [arrBufs2_eq, arrays2_eq, (dat2 V c).arrAt_in 0 rfl _, (dat2 V c).arrAt_in 1 rfl _, A_eq2, A_eq2]
    beta_reduce
    rw [hrest main_v2 (by decide), hout]
    iintro ⟨Hl, Hr, H3⟩
    isplitl [Hl Hr]
    · iapply (pointsTo_share (PosShare.mem_left_op_right fullShare)).2
      isplitl [Hl]; · iexact Hl
      iexact Hr
    iexact H3
  · unfold Pipeline.unscopedRest
    exact bigSep_congr fun b hb => by
      beta_reduce
      rw [hrest b (fun e => (Finset.mem_sdiff.mp hb).2 (Finset.mem_image.mpr ⟨2, Finset.mem_univ _, e.symm⟩))]

end Cert.Kernel.Hand

end
-- ==== Proof.KRunB.lean ====
/-
  The kernel program's @main, launched: three pipelined calls and two stretches of host operations, in order — the two
  normalize calls, the concatenation of their half-precision outputs, the log-sum-exp call, and the operations that
  turn the arrays into the loss.

  The contents of the core's unscoped buffers are followed from segment to segment: a host stretch applies its
  operations; a call leaves its output arrays at what its write-backs fold to and every other buffer as it found it.
  Each call is entered from "every unscoped buffer at the boundary's contents, the generator register at some state,
  nothing owed" and left in the same form at the next boundary's contents.  The launch then gives: every weakly fair
  execution terminates, and the final memory holds every unscoped buffer at the last boundary's contents.
-/
import proofs.«163665_j75909251990177_2_alg».proof.Proof.Gen.Kernel.Launch
import proofs.«163665_j75909251990177_2_alg».proof.Proof.Gen.Kernel.Skeleton
import proofs.«163665_j75909251990177_2_alg».proof.Proof.Gen.Kernel.Points
import proofs.«163665_j75909251990177_2_alg».proof.Proof.Gen.Kernel.Regions
import proofs.«163665_j75909251990177_2_alg».proof.Proof.NormCallsB
import proofs.«163665_j75909251990177_2_alg».proof.Proof.LseBodyB
import proofs.«163665_j75909251990177_2_alg».proof.Proof.LseEntryB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first call's entry). -/
abbrev W0 : Dev nD → Valuation τ sig (Elt F) := fun c b => (s₀ m ρ).mem ((c : Dev nD), b)
abbrev VA : (c : Dev nD) → (b : Ref sig .tc) → Buf (Elt F) ((c : Thread nD τ).loc b) := fun c b => W0 m ρ c b

/-- At the normalize call 0's exit: its arrays at what the pipeline leaves (the input as entered, each output's write-backs
    folded), every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev VB : (c : Dev nD) → (b : Ref sig .tc) → Buf (Elt F) ((c : Thread nD τ).loc b) := fun c b => W1 m ρ c b
theorem hF0 (c : Dev nD) (w : Fin cfg0.W) : (dat0 (VA m ρ) c).arrAt w cfg0.N = VB m ρ c (Pipeline.arrRef spec0 w) :=
  (W1_arr m ρ c w).symm
theorem hrest0 (c : Dev nD) : ∀ b, b ∉ Finset.univ.image (Pipeline.arrRef spec0) → VB m ρ c b = VA m ρ c b :=
  fun b hb => W1_of_ne m ρ c b fun w e => hb (Finset.mem_image.mpr ⟨w, Finset.mem_univ _, e⟩)

/-- At the normalize call 1's exit: its arrays at what the pipeline leaves (the input as entered, each output's write-backs
    folded), every other buffer as entered. -/
def W2 (c : Dev nD) : Valuation τ sig (Elt F) :=
  Pipeline.withArrays spec1 c (W1 m ρ c) fun w => (dat1 (VB m ρ) c).arrAt w cfg1.N
theorem W2_arr (c : Dev nD) (w : Fin cfg1.W) :
    W2 m ρ c (Proc.devRef .tc (Pipeline.arrRef spec1 w)) = (dat1 (VB m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev VC : (c : Dev nD) → (b : Ref sig .tc) → Buf (Elt F) ((c : Thread nD τ).loc b) := fun c b => W2 m ρ c b
theorem hF1 (c : Dev nD) (w : Fin cfg1.W) : (dat1 (VB m ρ) c).arrAt w cfg1.N = VC m ρ c (Pipeline.arrRef spec1 w) :=
  (W2_arr m ρ c w).symm
theorem hrest1 (c : Dev nD) : ∀ b, b ∉ Finset.univ.image (Pipeline.arrRef spec1) → VC m ρ c b = VB m ρ c b :=
  fun b hb => W2_of_ne m ρ c b fun w e => hb (Finset.mem_image.mpr ⟨w, Finset.mem_univ _, e⟩)

/-- After the concatenation (the log-sum-exp call's entry). -/
abbrev W3 : Dev nD → Valuation τ sig (Elt F) := fun c => StableHlo.after hostOps2 (W2 m ρ c)
abbrev VD : (c : Dev nD) → (b : Ref sig .tc) → Buf (Elt F) ((c : Thread nD τ).loc b) := fun c b => W3 m ρ c b
/-- At the log-sum-exp call's exit: its output array at what the write-backs fold to, every other buffer as entered
    (both input windows read the one concatenated array and leave it as it was). -/
def W4 (c : Dev nD) : Valuation τ sig (Elt F) :=
  Function.update (W3 m ρ c) main_v3 ((dat2 (VD m ρ) c).arrAt 2 cfg2.N)
abbrev VE : (c : Dev nD) → (b : Ref sig .tc) → Buf (Elt F) ((c : Thread nD τ).loc b) := fun c b => W4 m ρ c b
theorem W4_main_v3 (c : Dev nD) : W4 m ρ c main_v3 = (dat2 (VD m ρ) c).arrAt 2 cfg2.N := by
  unfold W4; exact Function.update_self ..
theorem W4_of_ne (c : Dev nD) (b : Ref sig .tc) (hb : b ≠ main_v3) : W4 m ρ c b = W3 m ρ c b := by
  unfold W4; exact Function.update_of_ne (StableHlo.devRef_ne_of_ne hb) ..
/-- After the last stretch of host operations. -/
abbrev W5 : Dev nD → Valuation τ sig (Elt F) := fun c => StableHlo.after hostOps3 (W4 m ρ c)

/-! ### The arguments end as launched -/

theorem W5_main_arg0 (c : Dev nD) : W5 m ρ c main_arg0 = m ((c : Thread nD τ).loc main_arg0) :=
  calc W5 m ρ c main_arg0
    _ = W4 m ρ c main_arg0 := StableHlo.after_of_writes_sub hostOps3 _ hostOps3_writes (by decide)
    _ = W3 m ρ c main_arg0 := W4_of_ne m ρ c main_arg0 (by decide)
    _ = W2 m ρ c main_arg0 := StableHlo.after_of_writes_sub hostOps2 _ hostOps2_writes (by decide)
    _ = W1 m ρ c main_arg0 := W2_of_ne m ρ c main_arg0 (by decide)
    _ = W0 m ρ c main_arg0 := (W1_arr m ρ c 0).trans (((dat0 (VA m ρ) c).arrAt_in 0 rfl _).trans (A_eq0 (VA m ρ) c 0))
    _ = m ((c : Thread nD τ).loc main_arg0) := rfl
theorem W5_main_arg1 (c : Dev nD) : W5 m ρ c main_arg1 = m ((c : Thread nD τ).loc main_arg1) :=
  calc W5 m ρ c main_arg1
    _ = W4 m ρ c main_arg1 := StableHlo.after_of_writes_sub hostOps3 _ hostOps3_writes (by decide)
    _ = W3 m ρ c main_arg1 := W4_of_ne m ρ c main_arg1 (by decide)
    _ = W2 m ρ c main_arg1 := StableHlo.after_of_writes_sub hostOps2 _ hostOps2_writes (by decide)
    _ = W1 m ρ c main_arg1 := (W2_arr m ρ c 0).trans (((dat1 (VB m ρ) c).arrAt_in 0 rfl _).trans (A_eq1 (VB m ρ) c 0))
    _ = W0 m ρ c main_arg1 := W1_of_ne m ρ c main_arg1 (by decide)
    _ = m ((c : Thread nD τ).loc main_arg1) := rfl

/-! ## The proof data family and the thread state -/

/-- No call has a prefetched table. -/
abbrev admH : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) admH p) c
  | ⟨0, _⟩ => fun c => dat0 (VA m ρ) c
  | ⟨1, _⟩ => fun c => dat1 (VB m ρ) c
  | ⟨2, _⟩ => fun c => dat2 (VD m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- The normalize call 0 over the thread state: entered with every unscoped buffer at `W0`, left at `W1`.  Its arrays
    are split out of the unscoped buffers at entry and put back at the exit contents; the generator register goes into the
    invariant and comes back; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VA m ρ c) (VB m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalize call 1 over the thread state: entered with every unscoped buffer at `W1`, left at `W2`.  Its arrays
    are split out of the unscoped buffers at entry and put back at the exit contents; the generator register goes into the
    invariant and comes back; nothing is owed; the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (VB m ρ c) (VC m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The log-sum-exp call over the thread state: entered with every unscoped buffer at `W3`, left at `W4`.  The one array
    its two input windows read is dealt between them by shares at entry and joined again at exit; the invariant carries
    the scratch from point to point and forgets it at the end. -/
def reg2 : Pipeline.RegionSeg (pcfgs (F := F)) admH (pdats m ρ) () defs₀ 𝒱₀ L lv 2 where
  win := winFacts₀2
  block_pos := block_pos2
  stage_whole := stage_whole2
  K := PEmpty
  osem k := k.elim
  ho := Pipeline.OwnSemFacts.none _
  hbody c := (body_obligation2 (VD m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (VD m ρ c)
  hentry c := by
    rw [Pipeline.ownSems0_none]
    have hsplit := entry2 (VD m ρ) c (W3 m ρ c) rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from hout2 (VD m ρ) c).trans ?_
    unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N)
          ∗ Pipeline.unscopedRest (Ix := Unit) (Name := ℕ) (U := UR sig nD τ) (Lvl := ℕ) spec2 c (VD m ρ c))
        ⊢ (StableHlo.held (c : Thread nD τ) (Pipeline.ucRefs τ sig) (W4 m ρ c) : sProp 𝕄) :=
      exit2 (VD m ρ) c (W4 m ρ c) (W4_main_v3 m ρ c) (fun b hb => W4_of_ne m ρ c b hb)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCore terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v17) = W5 m ρ c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v17 (by decide)),
     (h c _ (mem_uc main_arg0 (by decide))).trans (W5_main_arg0 m ρ c),
     (h c _ (mem_uc main_arg1 (by decide))).trans (W5_main_arg1 m ρ c)⟩) (run_all m ρ)

end Cert.Kernel.Hand

end
-- ==== Proof.NormCallsI.lean ====
/-
  The two row-normalising calls of the kernel program, each as a pipeline over its grid of four row blocks.

  A call reads one [1024, 512] block of its argument per grid point and writes two blocks: the rows divided by the
  larger of their Euclidean norm and a floor, once in single precision and once narrowed to half precision.  For a
  parameter `V` — what the core's buffers hold when the call is entered — this module gives the block a window sees
  at a point, what the body leaves in each output buffer as a function of the input block, the body's triple, the
  pipeline's proof data and its body obligation at every point.
-/
import proofs.«163665_j75909251990177_2_alg».proof.Proof.Gen.KernelIdeal.Launch
import proofs.«163665_j75909251990177_2_alg».proof.Proof.Gen.KernelIdeal.Skeleton
import proofs.«163665_j75909251990177_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The normalize call 0 (pipeline 0), at the contents `V` the region is entered with -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole [1024, 512] block. -/
abbrev r0 : Rect S1024x512 := Rect.unit (s := S1024x512) ![0, 0] S1024x512.size inb_S1024x512_S1024x512_0_0

/-- What the body leaves in the half-precision output's buffer: the scaled rows, narrowed. -/
def out0_1 (x0 : Vec F S1024x512 .f32) : Vec F S1024x512 .bf16 :=
  View.canon [⟨r0, k0_pay2 (View.ld x0 r0)⟩]
/-- What the body leaves in the single-precision output's buffer: the scaled rows. -/
def out0_2 (x0 : Vec F S1024x512 .f32) : Vec F S1024x512 .f32 :=
  View.canon [⟨r0, k0_pay1 (View.ld x0 r0)⟩]

/-- The one store covers the whole buffer. -/
theorem cover0_1 (p0 : Vec F S1024x512 .bf16) (y : S1024x512.Idx) :
    ∃ pc ∈ ([⟨r0, p0⟩] : List (View.Piece (Elt F) S1024x512 .bf16)), y ∈ pc.1.set :=
  View.cover_of_tiled [⟨r0, p0⟩] S1024x512.size (by rfl) y
theorem cover0_2 (p0 : Vec F S1024x512 .f32) (y : S1024x512.Idx) :
    ∃ pc ∈ ([⟨r0, p0⟩] : List (View.Piece (Elt F) S1024x512 .f32)), y ∈ pc.1.set :=
  View.cover_of_tiled [⟨r0, p0⟩] S1024x512.size (by rfl) y

set_option maxHeartbeats 1000000 in
/-- The body on whole staging buffers, the input's at contents `x0` and the outputs' at anything, ends with the input's
    as it was and each output's at the scaled rows of `x0`. -/
theorem sound_kernel0 (c : Dev nD) (E : Set ℕ) (i : grid0.Coords) (arg1 : Memref sig .tc .vmem S1024x512 .f32) (harg1 : arg1.IsWhole)
    (arg2 : Memref sig .tc .vmem S1024x512 .bf16) (harg2 : arg2.IsWhole) (arg3 : Memref sig .tc .vmem S1024x512 .f32) (harg3 : arg3.IsWhole)
    (x0 : Vec F S1024x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The proof data of pipeline 0 on core `c`: the arrays as the region finds them; after the body at point `t` the
    input's buffer at its block and each output's at the scaled rows of that block; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # The normalize call 1 (pipeline 1), at the contents `V` the region is entered with -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body loads and stores through: the whole [1024, 512] block. -/
abbrev r1 : Rect S1024x512 := Rect.unit (s := S1024x512) ![0, 0] S1024x512.size inb_S1024x512_S1024x512_0_0

/-- What the body leaves in the half-precision output's buffer: the scaled rows, narrowed. -/
def out1_1 (x0 : Vec F S1024x512 .f32) : Vec F S1024x512 .bf16 :=
  View.canon [⟨r1, k1_pay2 (View.ld x0 r1)⟩]
/-- What the body leaves in the single-precision output's buffer: the scaled rows. -/
def out1_2 (x0 : Vec F S1024x512 .f32) : Vec F S1024x512 .f32 :=
  View.canon [⟨r1, k1_pay1 (View.ld x0 r1)⟩]

/-- The one store covers the whole buffer. -/
theorem cover1_1 (p0 : Vec F S1024x512 .bf16) (y : S1024x512.Idx) :
    ∃ pc ∈ ([⟨r1, p0⟩] : List (View.Piece (Elt F) S1024x512 .bf16)), y ∈ pc.1.set :=
  View.cover_of_tiled [⟨r1, p0⟩] S1024x512.size (by rfl) y
theorem cover1_2 (p0 : Vec F S1024x512 .f32) (y : S1024x512.Idx) :
    ∃ pc ∈ ([⟨r1, p0⟩] : List (View.Piece (Elt F) S1024x512 .f32)), y ∈ pc.1.set :=
  View.cover_of_tiled [⟨r1, p0⟩] S1024x512.size (by rfl) y

set_option maxHeartbeats 1000000 in
/-- The body on whole staging buffers, the input's at contents `x0` and the outputs' at anything, ends with the input's
    as it was and each output's at the scaled rows of `x0`. -/
theorem sound_kernel1 (c : Dev nD) (E : Set ℕ) (i : grid1.Coords) (arg1 : Memref sig .tc .vmem S1024x512 .f32) (harg1 : arg1.IsWhole)
    (arg2 : Memref sig .tc .vmem S1024x512 .bf16) (harg2 : arg2.IsWhole) (arg3 : Memref sig .tc .vmem S1024x512 .f32) (harg3 : arg3.IsWhole)
    (x0 : Vec F S1024x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0)
            ∗ owns (c : Thread nD τ) arg3 fullShare (out1_2 x0)) -∗ K ⟨⟩))
      ⊢ wp frame (wpE (defs₀ (F := F)) Variants.none c none) E (cc1__normalize_kernel i arg1 harg1 arg2 harg2 arg3 harg3) K := by
  simp only [cc1__normalize_kernel_eq_skeleton]; unfold cc1__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-- The proof data of pipeline 1 on core `c`: the arrays as the region finds them; after the body at point `t` the
    input's buffer at its block and each output's at the scaled rows of that block; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's buffer holds its block, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.LseRunsI.lean ====
/-
  The log-sum-exp call of the kernel program: its grid is 8 row blocks by 4 column blocks, the column axis innermost.

  At column block 0 the body clears a [1024, 1] scratch accumulator; at every column block it adds to the accumulator the
  row sums of exp (q kᵀ · 2 − shift) for the point's [1024, 512] row block q and [2048, 512] column block k; at column
  block 3 it stores shift + log of the accumulator into the output block.  So a grid point is in one of three cases —
  first column block, a middle one, the last one — decided by the point's position modulo 4.  This module decides the
  two branch conditions over the grid, says where the output window is idle, and runs the body once per case: the
  pieces each case leaves in the output buffer and in the scratch are found by the run itself.
-/
import proofs.«163665_j75909251990177_2_alg».proof.Proof.Gen.KernelIdeal.Launch
import proofs.«163665_j75909251990177_2_alg».proof.Proof.Gen.KernelIdeal.Skeleton
import proofs.«163665_j75909251990177_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions -/

/-- The first conditional (column block 0), as the body computes it from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)
/-- The second conditional (column block 3). -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At a first or middle column block the output window is idle (nothing is stored into it) and is not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At the last column block it is live. -/
theorem liveAt2_2_C : ∀ t : Fin cfg2.N, ¬cond2_0 (grid2.coords t) → cond2_1 (grid2.coords t) → cfg2.idle 2 (grid2.coords t) = false := by decide +kernel

/-! ## The memrefs the body is called with -/

abbrev VO2_2 : View sig .tc .vmem S1024x1 .f32 := (Memref.whole cc2_stg2_0 : Memref sig .tc .vmem S1024x1 .f32).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
/-- The scratch accumulator: a whole scoped buffer of the kernel's own. -/
abbrev scM2_0 : Memref sig .tc .vmem S1024x1 .f32 := Memref.whole cc2_scratch0
abbrev VS2_0 : View sig .tc .vmem S1024x1 .f32 := scM2_0.view

/-! ## The body, once per case -/

set_option maxHeartbeats 4000000 in
/-- FIRST COLUMN BLOCK (the first conditional taken, the second not): on whole memrefs — the inputs' at their contents, the
    idle output's at contents handed back untouched, the scratch at anything — the body ends with the inputs' and the
    output's as they were and the scratch with its pieces written. -/
noncomputable def kernelRun2_A (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond2_0 i) (hc1 : ¬cond2_1 i)
    (x0 : Vec F S1024x512 .bf16) (x1 : Vec F S2048x512 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__lse_kernel i arg2 harg2 arg3 harg3 arg4 harg4 arg5 harg5) K } := by
  refine ⟨[], ?_, fun xi2 E K => ?run⟩
  case run =>
    simp only [cc2__lse_kernel_eq_skeleton]; unfold cc2__lse_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- A MIDDLE COLUMN BLOCK (neither conditional taken): the scratch enters at what the point before left (`xs0`). -/
noncomputable def kernelRun2_B (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : ¬cond2_1 i)
    (x0 : Vec F S1024x512 .bf16) (x1 : Vec F S2048x512 .bf16) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__lse_kernel i arg2 harg2 arg3 harg3 arg4 harg4 arg5 harg5) K } := by
  refine ⟨[], ?_, fun xi2 E K => ?run⟩
  case run =>
    simp only [cc2__lse_kernel_eq_skeleton]; unfold cc2__lse_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- THE LAST COLUMN BLOCK (the second conditional taken): the output's buffer enters at anything and ends with its pieces written. -/
noncomputable def kernelRun2_C (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__lse_kernel i arg2 harg2 arg3 harg3 arg4 harg4 arg5 harg5) K } := by
  refine ⟨?_, ?_, fun E K => ?run⟩
  case run =>
    simp only [cc2__lse_kernel_eq_skeleton]; unfold cc2__lse_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.LseCallI.lean ====
/-
  The log-sum-exp call as a pipeline: what every grid point leaves behind, the invariant that carries the scratch
  accumulator from one point to the next, the pipeline's proof data and its body obligation.

  After the body at point `n` the scratch holds: at a first column block (n ≡ 0 mod 4) the clearing store followed by
  the accumulating store; otherwise the accumulating store over what point `n − 1` left.  The output's staging buffer
  is stored into only at a last column block (n ≡ 3 mod 4), from the scratch as that point leaves it; elsewhere the
  window is idle and its buffer is handed back untouched.
-/
import proofs.«163665_j75909251990177_2_alg».proof.Proof.Gen.KernelIdeal.Launch
import proofs.«163665_j75909251990177_2_alg».proof.Proof.Gen.KernelIdeal.Skeleton
import proofs.«163665_j75909251990177_2_alg».proof.Proof.Gen.KernelIdeal.Points
import proofs.«163665_j75909251990177_2_alg».proof.Proof.LseRunsI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's staging buffer holds its block at every point, fetched there or not (the row block is fetched
    once per four points: in between, its index does not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- A first column block stores nothing into the output (a placeholder nothing consults). -/
def out2_A_2 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond2_0 i) (hc1 : ¬cond2_1 i)
    (x0 : Vec F S1024x512 .bf16) (x1 : Vec F S2048x512 .bf16) : Vec F S1024x1 .f32 :=
  VO2_2.read (Elt F) (VO2_2.writes (Elt F) VO2_2.junk (kernelRun2_A c i arg2 harg2 arg3 harg3 arg4 harg4 arg5 harg5 hc0 hc1 x0 x1).1)
/-- Its pieces for the scratch cover it. -/
theorem scover2_A_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond2_0 i) (hc1 : ¬cond2_1 i)
    (x0 : Vec F S1024x512 .bf16) (x1 : Vec F S2048x512 .bf16) (y : S1024x1.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x1.size (by sl_kernel_rfl) y
/-- What it leaves in the scratch: its pieces read back. -/
def sout2_A_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond2_0 i) (hc1 : ¬cond2_1 i)
    (x0 : Vec F S1024x512 .bf16) (x1 : Vec F S2048x512 .bf16) : Vec F S1024x1 .f32 :=
  VS2_0.read (Elt F) (VS2_0.writes (Elt F) VS2_0.junk (kernelRun2_A c i arg2 harg2 arg3 harg3 arg4 harg4 arg5 harg5 hc0 hc1 x0 x1).2.1)

/-- A middle column block stores nothing into the output either. -/
def out2_B_2 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : ¬cond2_1 i)
    (x0 : Vec F S1024x512 .bf16) (x1 : Vec F S2048x512 .bf16) (xs0 : Vec F S1024x1 .f32) : Vec F S1024x1 .f32 :=
  VO2_2.read (Elt F) (VO2_2.writes (Elt F) VO2_2.junk (kernelRun2_B c i arg2 harg2 arg3 harg3 arg4 harg4 arg5 harg5 hc0 hc1 x0 x1 xs0).1)
theorem scover2_B_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : ¬cond2_1 i)
    (x0 : Vec F S1024x512 .bf16) (x1 : Vec F S2048x512 .bf16) (xs0 : Vec F S1024x1 .f32) (y : S1024x1.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x1.size (by sl_kernel_rfl) y
def sout2_B_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : ¬cond2_1 i)
    (x0 : Vec F S1024x512 .bf16) (x1 : Vec F S2048x512 .bf16) (xs0 : Vec F S1024x1 .f32) : Vec F S1024x1 .f32 :=
  VS2_0.read (Elt F) (VS2_0.writes (Elt F) VS2_0.junk (kernelRun2_B c i arg2 harg2 arg3 harg3 arg4 harg4 arg5 harg5 hc0 hc1 x0 x1 xs0).2.1)

/-- The last column block's pieces for the output cover its block. -/
theorem cover2_C_2 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) (y : S1024x1.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x1.size (by sl_kernel_rfl) y
/-- What it leaves in the output's staging buffer. -/
def out2_C_2 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) : Vec F S1024x1 .f32 :=
  VO2_2.read (Elt F) (VO2_2.writes (Elt F) VO2_2.junk (kernelRun2_C c i arg2 harg2 arg3 harg3 arg4 harg4 arg5 harg5 hc0 hc1 x0 x1 xs0).1)
theorem scover2_C_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) (y : S1024x1.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x1.size (by sl_kernel_rfl) y
def sout2_C_0 (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) : Vec F S1024x1 .f32 :=
  VS2_0.read (Elt F) (VS2_0.writes (Elt F) VS2_0.junk (kernelRun2_C c i arg2 harg2 arg3 harg3 arg4 harg4 arg5 harg5 hc0 hc1 x0 x1 xs0).2.1)

/-! ## What the output's buffer and the scratch hold after each point -/

/-- After the body at position `n`: (the output's staging buffer, the scratch) — the case the position selects, run at the
    point's memrefs and input blocks, the scratch entering at what position `n − 1` left. -/
def outsAt2 (c : Dev nD) : (n : ℕ) → n < cfg2.N → Vec F S1024x1 .f32 × Vec F S1024x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩),
          sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At a first column block: that case's contents. -/
theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t),
      sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- At a middle column block: that case's contents, over what the point before left. -/
theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column block: that case's contents, over what the point before left. -/
theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the scoped rest with the scratch at what the point before left -/

/-- The core's scoped buffers that are neither a staging buffer of this call nor its scratch, each whole at some contents. -/
def Rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the call (every scoped buffer it does not stage at anything, the generator register) with the scratch taken out, -/
theorem PhiA2_split (c : Dev nD) :
    (Pipeline.ΦA spec2 c : sProp 𝕄) ⊢ iprop(Rest2 (F := F) c ∗ (∃ d, owns (c : Thread nD τ) scM2_0 fullShare d) ∗ (∃ r, prngReg c r)) := by
  unfold Pipeline.ΦA Rest2; rw [scopedRest2_eq]; simp only [scM2_0, owns_whole]
  iintro ⟨⟨H1, H2, H3, H4, H5, H6, H7, H8, H9, H10, H11, H12, HS⟩, Hg⟩
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [HS]; · iexact HS
  iexact Hg
/-- and put back. -/
theorem PhiA2_join (c : Dev nD) :
    iprop(Rest2 (F := F) c ∗ (∃ d, owns (c : Thread nD τ) scM2_0 fullShare d) ∗ (∃ r, prngReg c r)) ⊢ (Pipeline.ΦA spec2 c : sProp 𝕄) := by
  unfold Pipeline.ΦA Rest2; rw [scopedRest2_eq]; simp only [scM2_0, owns_whole]
  iintro ⟨⟨H1, H2, H3, H4, H5, H6, H7, H8, H9, H10, H11, H12⟩, HS, Hg⟩
  isplitl [H1 H2 H3 H4 H5 H6 H7 H8 H9 H10 H11 H12 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  iexact Hg

/-- The invariant before position `n`: before the first point what the launch hands the call; afterwards the scoped rest,
    the scratch at what the point before left, and the generator register. -/
def PhiS2 (c : Dev nD) : (n : ℕ) → n ≤ cfg2.N → sProp 𝕄
  | 0, _ => Pipeline.ΦA spec2 c
  | n + 1, hn => iprop(Rest2 (F := F) c ∗ owns (c : Thread nD τ) scM2_0 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(Rest2 (F := F) c ∗ owns (c : Thread nD τ) scM2_0 fullShare ((outsAt2 V c n hn).2) ∗ (∃ r, prngReg c r)) := rfl
theorem PhiS2_pos (c : Dev nD) (n : ℕ) (h : n ≤ cfg2.N) (hz : n ≠ 0) :
    PhiS2 V c n h = iprop(Rest2 (F := F) c ∗ owns (c : Thread nD τ) scM2_0 fullShare ((outsAt2 V c (n - 1) (by omega)).2) ∗ (∃ r, prngReg c r)) := by
  cases n with
  | zero => exact absurd rfl hz
  | succ n => rfl

/-! ## The proof data -/

/-- The proof data of the call on core `c`, the two input windows sharing one array at half the full share each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.KernelIdeal.Hand

end
-- ==== Proof.LseBodyI.lean ====
/-
  The log-sum-exp call's body obligation: at every grid point the body, run on the windows' current staging buffers and the
  scratch, takes the invariant before the point to the invariant after it.  The point's position modulo 4 selects the
  case; an input buffer holds its block; the scratch enters at what the point before left (at anything at a first
  column block) and leaves at this point's contents; the output's buffer is written at a last column block and handed
  back untouched elsewhere.
-/
import proofs.«163665_j75909251990177_2_alg».proof.Proof.Gen.KernelIdeal.Launch
import proofs.«163665_j75909251990177_2_alg».proof.Proof.Gen.KernelIdeal.Skeleton
import proofs.«163665_j75909251990177_2_alg».proof.Proof.Gen.KernelIdeal.Points
import proofs.«163665_j75909251990177_2_alg».proof.Proof.LseCallI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz]
        iintro ⟨HΦ, Ho, ⟨%d0, H0⟩, ⟨%d1, H1⟩, ⟨%d2, H2⟩⟩
        ihave HΦ' := (PhiA2_split (F := F) c) $$ HΦ
        icases HΦ' with ⟨HR, HS0, Hg⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
      · rw [PhiS2_castSucc V c t, PhiS2_pos V c _ _ hz]
        iintro ⟨⟨HR, HS0, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        iintro ⟨⟨HR, HS0, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover2_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨HR, HS0, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover2_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega)]
  refine .trans ?_ (PhiA2_join (F := F) c)
  iintro ⟨HR, HS0, Hg⟩
  isplitl [HR]; · iexact HR
  isplitl [HS0]; · iexists _; iexact HS0
  iexact Hg

end Cert.KernelIdeal.Hand

end
-- ==== Proof.LseEntryI.lean ====
/-
  Entering and leaving the log-sum-exp call.  Its two input windows read ONE array (the concatenated half-precision rows),
  so the array's full share is dealt between them, half each, at entry, and the halves are joined again at exit; the
  output window's array is held whole.  At entry every unscoped buffer of the core, held at the contents the call is
  entered with, splits into the call's arrays (by these shares) and the rest; at exit the arrays — the shared input as
  it was, the output at what the write-backs fold to — and the rest make every unscoped buffer held at the exit contents.
-/
import proofs.«163665_j75909251990177_2_alg».proof.Proof.Gen.KernelIdeal.Launch
import proofs.«163665_j75909251990177_2_alg».proof.Proof.Gen.KernelIdeal.Skeleton
import proofs.«163665_j75909251990177_2_alg».proof.Proof.Gen.KernelIdeal.Points
import proofs.«163665_j75909251990177_2_alg».proof.Proof.LseCallI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The distinct buffers behind the call's arrays: the concatenated rows and the output column. -/
theorem arrBufs2_eq (c : Dev nD) (Vc : (b : Ref sig .tc) → Buf (Elt F) ((c : Thread nD τ).loc b)) :
    (Pipeline.arrBufs (Ix := Unit) (Name := ℕ) (U := UR sig nD τ) (Lvl := ℕ) spec2 c Vc : sProp 𝕄)
      = iprop((((c : Thread nD τ).loc main_v2) ↦{fullShare} Vc main_v2) ∗ (((c : Thread nD τ).loc main_v3) ↦{fullShare} Vc main_v3)) := by
  unfold Pipeline.arrBufs
  rw [show Finset.univ.image (Pipeline.arrRef spec2) = {main_v2, main_v3} from by decide, BI.bigSep_insert (by decide), BI.bigSep_singleton]
  rfl

theorem share2_0 (c : Dev nD) : (dat2 V c).share 0 = fullShare.left := by unfold Dat.share; rfl
theorem share2_1 (c : Dev nD) : (dat2 V c).share 1 = fullShare.right := by unfold Dat.share; rfl
theorem share2_2 (c : Dev nD) : (dat2 V c).share 2 = fullShare := by unfold Dat.share; rfl

/-- The call's arrays, window by window, at the windows' shares. -/
theorem arrays2_eq (c : Dev nD) (Fw : (w : Fin cfg2.W) → Buf (Elt F) ((cfg2.win w).arr.view.loc (c : Thread nD τ))) :
    ((dat2 V c).arrays Fw : sProp 𝕄)
      = iprop((((c : Thread nD τ).loc (Pipeline.arrRef spec2 0)) ↦{fullShare.left} Fw 0)
          ∗ (((c : Thread nD τ).loc (Pipeline.arrRef spec2 1)) ↦{fullShare.right} Fw 1)
          ∗ (((c : Thread nD τ).loc (Pipeline.arrRef spec2 2)) ↦{fullShare} Fw 2)) := by
  have h : ((dat2 V c).arrays Fw : sProp 𝕄)
      = bigSep Finset.univ fun w => (((c : Thread nD τ).loc (Pipeline.arrRef spec2 w)) ↦{(dat2 V c).share w} Fw w : sProp 𝕄) := by
    unfold Dat.arrays
    exact bigSep_congr fun w _ => by rw [(arr_whole2 w).set_eq_univ]
  rw [h, bigSep_W2, share2_0, share2_1, share2_2]

/-- ENTRY: every unscoped buffer held at the entry contents gives the call's arrays at those contents, by the windows'
    shares, and the rest. -/
theorem entry2 (c : Dev nD) (Wc : Valuation τ sig (Elt F)) (hW : V c = fun (b : Ref sig .tc) => Wc b) :
    (StableHlo.held (c : Thread nD τ) (Pipeline.ucRefs τ sig) Wc : sProp 𝕄)
      ⊢ iprop((dat2 V c).arrays ((dat2 V c).arrAt · 0)
          ∗ Pipeline.unscopedRest (Ix := Unit) (Name := ℕ) (U := UR sig nD τ) (Lvl := ℕ) spec2 c (V c)) := by
  rw [← Pipeline.unscopedBufs_held (Ix := Unit) (Name := ℕ) (U := UR sig nD τ) (Lvl := ℕ) c Wc, ← hW,
    Pipeline.unscopedBufs_split₀ (cfgs := cfgs) (p := (2 : Fin 3)) winFacts₀2.arr_unscoped c (V c)]
  refine sep_mono ?_ .rfl
  change (Pipeline.arrBufs spec2 c (V c) : sProp 𝕄) ⊢ _
  rw [arrBufs2_eq, arrays2_eq]
  iintro ⟨H2, H3⟩
  ihave H2' := (pointsTo_share (PosShare.mem_left_op_right fullShare)).1 $$ H2
  icases H2' with ⟨Hl, Hr⟩
  isplitl [Hl]; · iexact Hl
  isplitl [Hr]; · iexact Hr
  iexact H3

/-- EXIT: the call's arrays after its last point and the rest give every unscoped buffer held at any contents that has the
    output array at what the write-backs fold to and agrees with the entry contents elsewhere. -/
theorem exit2 (c : Dev nD) (Wc' : Valuation τ sig (Elt F))
    (hout : Wc' main_v3 = (dat2 V c).arrAt 2 cfg2.N) (hrest : ∀ b : Ref sig .tc, b ≠ main_v3 → Wc' b = V c b) :
    iprop((dat2 V c).arrays ((dat2 V c).arrAt · cfg2.N)
        ∗ Pipeline.unscopedRest (Ix := Unit) (Name := ℕ) (U := UR sig nD τ) (Lvl := ℕ) spec2 c (V c))
      ⊢ (StableHlo.held (c : Thread nD τ) (Pipeline.ucRefs τ sig) Wc' : sProp 𝕄) := by
  rw [← Pipeline.unscopedBufs_held (Ix := Unit) (Name := ℕ) (U := UR sig nD τ) (Lvl := ℕ) c Wc',
    Pipeline.unscopedBufs_split₀ (cfgs := cfgs) (p := (2 : Fin 3)) winFacts₀2.arr_unscoped c (fun b => Wc' b)]
  refine sep_mono ?_ (Entails.of_eq ?_)
  · change _ ⊢ (Pipeline.arrBufs spec2 c (fun (b : Ref sig .tc) => Wc' b) : sProp 𝕄)
    rw [arrBufs2_eq, arrays2_eq, (dat2 V c).arrAt_in 0 rfl _, (dat2 V c).arrAt_in 1 rfl _, A_eq2, A_eq2]
    beta_reduce
    rw [hrest main_v2 (by decide), hout]
    iintro ⟨Hl, Hr, H3⟩
    isplitl [Hl Hr]
    · iapply (pointsTo_share (PosShare.mem_left_op_right fullShare)).2
      isplitl [Hl]; · iexact Hl
      iexact Hr
    iexact H3
  · unfold Pipeline.unscopedRest
    exact bigSep_congr fun b hb => by
      beta_reduce
      rw [hrest b (fun e => (Finset.mem_sdiff.mp hb).2 (Finset.mem_image.mpr ⟨2, Finset.mem_univ _, e.symm⟩))]

end Cert.KernelIdeal.Hand

end
-- ==== Proof.KRunI.lean ====
/-
  The kernel program's @main, launched: three pipelined calls and two stretches of host operations, in order — the two
  normalize calls, the concatenation of their half-precision outputs, the log-sum-exp call, and the operations that
  turn the arrays into the loss.

  The contents of the core's unscoped buffers are followed from segment to segment: a host stretch applies its
  operations; a call leaves its output arrays at what its write-backs fold to and every other buffer as it found it.
  Each call is entered from "every unscoped buffer at the boundary's contents, the generator register at some state,
  nothing owed" and left in the same form at the next boundary's contents.  The launch then gives: every weakly fair
  execution terminates, and the final memory holds every unscoped buffer at the last boundary's contents.
-/
import proofs.«163665_j75909251990177_2_alg».proof.Proof.Gen.KernelIdeal.Launch
import proofs.«163665_j75909251990177_2_alg».proof.Proof.Gen.KernelIdeal.Skeleton
import proofs.«163665_j75909251990177_2_alg».proof.Proof.Gen.KernelIdeal.Points
import proofs.«163665_j75909251990177_2_alg».proof.Proof.Gen.KernelIdeal.Regions
import proofs.«163665_j75909251990177_2_alg».proof.Proof.NormCallsI
import proofs.«163665_j75909251990177_2_alg».proof.Proof.LseBodyI
import proofs.«163665_j75909251990177_2_alg».proof.Proof.LseEntryI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first call's entry). -/
abbrev W0 : Dev nD → Valuation τ sig (Elt F) := fun c b => (s₀ m ρ).mem ((c : Dev nD), b)
abbrev VA : (c : Dev nD) → (b : Ref sig .tc) → Buf (Elt F) ((c : Thread nD τ).loc b) := fun c b => W0 m ρ c b

/-- At the normalize call 0's exit: its arrays at what the pipeline leaves (the input as entered, each output's write-backs
    folded), every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev VB : (c : Dev nD) → (b : Ref sig .tc) → Buf (Elt F) ((c : Thread nD τ).loc b) := fun c b => W1 m ρ c b
theorem hF0 (c : Dev nD) (w : Fin cfg0.W) : (dat0 (VA m ρ) c).arrAt w cfg0.N = VB m ρ c (Pipeline.arrRef spec0 w) :=
  (W1_arr m ρ c w).symm
theorem hrest0 (c : Dev nD) : ∀ b, b ∉ Finset.univ.image (Pipeline.arrRef spec0) → VB m ρ c b = VA m ρ c b :=
  fun b hb => W1_of_ne m ρ c b fun w e => hb (Finset.mem_image.mpr ⟨w, Finset.mem_univ _, e⟩)

/-- At the normalize call 1's exit: its arrays at what the pipeline leaves (the input as entered, each output's write-backs
    folded), every other buffer as entered. -/
def W2 (c : Dev nD) : Valuation τ sig (Elt F) :=
  Pipeline.withArrays spec1 c (W1 m ρ c) fun w => (dat1 (VB m ρ) c).arrAt w cfg1.N
theorem W2_arr (c : Dev nD) (w : Fin cfg1.W) :
    W2 m ρ c (Proc.devRef .tc (Pipeline.arrRef spec1 w)) = (dat1 (VB m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev VC : (c : Dev nD) → (b : Ref sig .tc) → Buf (Elt F) ((c : Thread nD τ).loc b) := fun c b => W2 m ρ c b
theorem hF1 (c : Dev nD) (w : Fin cfg1.W) : (dat1 (VB m ρ) c).arrAt w cfg1.N = VC m ρ c (Pipeline.arrRef spec1 w) :=
  (W2_arr m ρ c w).symm
theorem hrest1 (c : Dev nD) : ∀ b, b ∉ Finset.univ.image (Pipeline.arrRef spec1) → VC m ρ c b = VB m ρ c b :=
  fun b hb => W2_of_ne m ρ c b fun w e => hb (Finset.mem_image.mpr ⟨w, Finset.mem_univ _, e⟩)

/-- After the concatenation (the log-sum-exp call's entry). -/
abbrev W3 : Dev nD → Valuation τ sig (Elt F) := fun c => StableHlo.after hostOps2 (W2 m ρ c)
abbrev VD : (c : Dev nD) → (b : Ref sig .tc) → Buf (Elt F) ((c : Thread nD τ).loc b) := fun c b => W3 m ρ c b
/-- At the log-sum-exp call's exit: its output array at what the write-backs fold to, every other buffer as entered
    (both input windows read the one concatenated array and leave it as it was). -/
def W4 (c : Dev nD) : Valuation τ sig (Elt F) :=
  Function.update (W3 m ρ c) main_v3 ((dat2 (VD m ρ) c).arrAt 2 cfg2.N)
abbrev VE : (c : Dev nD) → (b : Ref sig .tc) → Buf (Elt F) ((c : Thread nD τ).loc b) := fun c b => W4 m ρ c b
theorem W4_main_v3 (c : Dev nD) : W4 m ρ c main_v3 = (dat2 (VD m ρ) c).arrAt 2 cfg2.N := by
  unfold W4; exact Function.update_self ..
theorem W4_of_ne (c : Dev nD) (b : Ref sig .tc) (hb : b ≠ main_v3) : W4 m ρ c b = W3 m ρ c b := by
  unfold W4; exact Function.update_of_ne (StableHlo.devRef_ne_of_ne hb) ..
/-- After the last stretch of host operations. -/
abbrev W5 : Dev nD → Valuation τ sig (Elt F) := fun c => StableHlo.after hostOps3 (W4 m ρ c)

/-! ### The arguments end as launched -/

theorem W5_main_arg0 (c : Dev nD) : W5 m ρ c main_arg0 = m ((c : Thread nD τ).loc main_arg0) :=
  calc W5 m ρ c main_arg0
    _ = W4 m ρ c main_arg0 := StableHlo.after_of_writes_sub hostOps3 _ hostOps3_writes (by decide)
    _ = W3 m ρ c main_arg0 := W4_of_ne m ρ c main_arg0 (by decide)
    _ = W2 m ρ c main_arg0 := StableHlo.after_of_writes_sub hostOps2 _ hostOps2_writes (by decide)
    _ = W1 m ρ c main_arg0 := W2_of_ne m ρ c main_arg0 (by decide)
    _ = W0 m ρ c main_arg0 := (W1_arr m ρ c 0).trans (((dat0 (VA m ρ) c).arrAt_in 0 rfl _).trans (A_eq0 (VA m ρ) c 0))
    _ = m ((c : Thread nD τ).loc main_arg0) := rfl
theorem W5_main_arg1 (c : Dev nD) : W5 m ρ c main_arg1 = m ((c : Thread nD τ).loc main_arg1) :=
  calc W5 m ρ c main_arg1
    _ = W4 m ρ c main_arg1 := StableHlo.after_of_writes_sub hostOps3 _ hostOps3_writes (by decide)
    _ = W3 m ρ c main_arg1 := W4_of_ne m ρ c main_arg1 (by decide)
    _ = W2 m ρ c main_arg1 := StableHlo.after_of_writes_sub hostOps2 _ hostOps2_writes (by decide)
    _ = W1 m ρ c main_arg1 := (W2_arr m ρ c 0).trans (((dat1 (VB m ρ) c).arrAt_in 0 rfl _).trans (A_eq1 (VB m ρ) c 0))
    _ = W0 m ρ c main_arg1 := W1_of_ne m ρ c main_arg1 (by decide)
    _ = m ((c : Thread nD τ).loc main_arg1) := rfl

/-! ## The proof data family and the thread state -/

/-- No call has a prefetched table. -/
abbrev admH : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) admH p) c
  | ⟨0, _⟩ => fun c => dat0 (VA m ρ) c
  | ⟨1, _⟩ => fun c => dat1 (VB m ρ) c
  | ⟨2, _⟩ => fun c => dat2 (VD m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- The normalize call 0 over the thread state: entered with every unscoped buffer at `W0`, left at `W1`.  Its arrays
    are split out of the unscoped buffers at entry and put back at the exit contents; the generator register goes into the
    invariant and comes back; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VA m ρ c) (VB m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalize call 1 over the thread state: entered with every unscoped buffer at `W1`, left at `W2`.  Its arrays
    are split out of the unscoped buffers at entry and put back at the exit contents; the generator register goes into the
    invariant and comes back; nothing is owed; the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (VB m ρ c) (VC m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The log-sum-exp call over the thread state: entered with every unscoped buffer at `W3`, left at `W4`.  The one array
    its two input windows read is dealt between them by shares at entry and joined again at exit; the invariant carries
    the scratch from point to point and forgets it at the end. -/
def reg2 : Pipeline.RegionSeg (pcfgs (F := F)) admH (pdats m ρ) () defs₀ 𝒱₀ L lv 2 where
  win := winFacts₀2
  block_pos := block_pos2
  stage_whole := stage_whole2
  K := PEmpty
  osem k := k.elim
  ho := Pipeline.OwnSemFacts.none _
  hbody c := (body_obligation2 (VD m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (VD m ρ c)
  hentry c := by
    rw [Pipeline.ownSems0_none]
    have hsplit := entry2 (VD m ρ) c (W3 m ρ c) rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from hout2 (VD m ρ) c).trans ?_
    unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N)
          ∗ Pipeline.unscopedRest (Ix := Unit) (Name := ℕ) (U := UR sig nD τ) (Lvl := ℕ) spec2 c (VD m ρ c))
        ⊢ (StableHlo.held (c : Thread nD τ) (Pipeline.ucRefs τ sig) (W4 m ρ c) : sProp 𝕄) :=
      exit2 (VD m ρ) c (W4 m ρ c) (W4_main_v3 m ρ c) (fun b hb => W4_of_ne m ρ c b hb)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCore terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v17) = W5 m ρ c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v17 (by decide)),
     (h c _ (mem_uc main_arg0 (by decide))).trans (W5_main_arg0 m ρ c),
     (h c _ (mem_uc main_arg1 (by decide))).trans (W5_main_arg1 m ρ c)⟩) (run_all m ρ)

end Cert.KernelIdeal.Hand

end
-- ==== Proof.Spec.lean ====
/-
  The loss both programs compute, as one function of the two feature matrices, over the extended reals.

  The rows of the two [4096, 512] matrices are stacked into 8192 rows; each row is scaled by the larger of its
  Euclidean norm and a small floor; `gram i j` is the inner product of two scaled rows.  Row `i`'s label is the
  column `i mod 4096`.  The loss is minus the mean over the rows of the
  label's logit minus the log of the row's sum of exponentials — the latter written in two arrangements:
  `kerLoss` shifts every logit by one fixed constant, `refLoss` by the row's own maximum.  On real rows the
  two agree because the shift cancels.
-/
import Idealize.ShloMosaic.PureOps.Ideal

noncomputable section

namespace Cert.NTXent

open Idealize.ShloMosaic

/-- The floor of the norm, two, one half, the row count and minus infinity, as the binary words both programs print. -/
abbrev eps : EReal := Ideal.ofBits .f32 0x322BCC77#32
abbrev two : EReal := Ideal.ofBits .f32 0x40000000#32
abbrev half : EReal := Ideal.ofBits .f32 0x3F000000#32
abbrev cnt : EReal := Ideal.ofBits .f32 0x46000000#32
abbrev negInf : EReal := Ideal.ofBits .f32 0xFF800000#32
/-- The fixed shift of the first arrangement. -/
abbrev shift : EReal := ((21 / 10 : ℝ) : EReal)

/-- A row divided by the larger of its Euclidean norm and the floor. -/
def unitRow (x : Fin 512 → EReal) (k : Fin 512) : EReal :=
  Ideal.div (x k) (max (Ideal.sqrt (∑ k', x k' * x k')) eps)

/-- The two matrices stacked: rows 0..4095 are the first's, rows 4096..8191 the second's. -/
def stack (x1 x2 : Fin 4096 → Fin 512 → EReal) (i : Fin 8192) : Fin 512 → EReal :=
  if h : i.val < 4096 then x1 ⟨i.val, h⟩ else x2 ⟨i.val - 4096, by omega⟩

/-- Row `i` of the stack, scaled. -/
def U (x1 x2 : Fin 4096 → Fin 512 → EReal) (i : Fin 8192) : Fin 512 → EReal := unitRow (stack x1 x2 i)

/-- The inner product of scaled rows `i` and `j`. -/
def gram (x1 x2 : Fin 4096 → Fin 512 → EReal) (i j : Fin 8192) : EReal := ∑ k, U x1 x2 i k * U x1 x2 j k

/-- Row `i`'s label column. -/
def lab (i : Fin 8192) : Fin 8192 := ⟨i.val % 4096, by omega⟩

/-- The loss with every logit shifted by the fixed constant. -/
def kerLoss (x1 x2 : Fin 4096 → Fin 512 → EReal) : EReal :=
  -(Ideal.div (∑ i : Fin 8192, (gram x1 x2 i (lab i) * two
      - (shift + Ideal.log (∑ j : Fin 8192, Ideal.exp (gram x1 x2 i j * two - shift))))) cnt)

/-- A row's maximum as a fold of `max` from minus infinity, joined once more with minus infinity. -/
def rowMax (a : Fin 8192 → EReal) : EReal := max negInf ((Finset.univ : Finset (Fin 8192)).fold max negInf a)

/-- The logits of row `i` in the second arrangement. -/
def refLogit (x1 x2 : Fin 4096 → Fin 512 → EReal) (i j : Fin 8192) : EReal := Ideal.div (gram x1 x2 i j) half

/-- The loss with every logit shifted by its row's maximum. -/
def refLoss (x1 x2 : Fin 4096 → Fin 512 → EReal) : EReal :=
  -(Ideal.div (∑ i : Fin 8192, ((refLogit x1 x2 i (lab i) - rowMax (refLogit x1 x2 i))
      - Ideal.log (∑ j : Fin 8192, Ideal.exp (refLogit x1 x2 i j - rowMax (refLogit x1 x2 i))))) cnt)

end Cert.NTXent

end
-- ==== Proof.LibRowReads.lean ====
import Idealize.ShloMosaic.Lib.Pipeline.Value
import Idealize.ShloMosaic.Lib.ValueIdx
import Idealize.ShloMosaic.Lib.Affine
import Idealize.ShloMosaic.PureOps.Ideal.Laws

/-!
# Rows of a matrix: sums and maxima along the last axis, and a comparison bit as a number

General facts, over the extended reals, about an `[a, b]` array reduced along its last axis, read at a row:

* a kernel's lane sum is the sum of the row; a kernel's lane maximum and the host's maximum-reduce are the fold of
  `max` over the row from the initial value;
* the bit of an integer equality test, widened and read as a signed or as an unsigned integer, is 1 or 0;
* two naturals below `2 ^ 32` have equal 32-bit words only if they are equal.
-/

noncomputable section

open Idealize.ShloMosaic Idealize.ShloMosaic.ValueIdx

namespace Cert.RowReads

/-- Putting column `k` back into the reduced index `r` gives `(r, k)`. -/
theorem lift_last {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum of an `[a, b]` matrix, read at row `r`, is the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- A lane maximum of an `[a, b]` matrix, read at row `r`, is the fold of `max` over that row from the
    accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => Finset.fold max (Ideal.ofBits .f32 acc) f (Finset.univ : Finset (Fin b)))
    (funext fun k => congrArg src (lift_last h r k))

/-- The host's maximum-reduce of an `[a, b]` matrix along its last axis, read at row `r`: the same fold, from the
    initial value's one element. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_last h r k))

/-! ## A comparison bit as a number -/

/-- The mask entry of two words: 1 when they are equal, else 0. -/
def mask01 (x y : BitVec 32) : EReal := if x = y then 1 else 0

/-- The comparison bit widened to a word and read as a signed integer is that mask entry. -/
theorem sext_cmpi_eq (x y : BitVec 32) :
    ((((IntOp.cmpi .eq x y).setWidth 32).toInt : ℝ) : EReal) = mask01 x y := by
  unfold mask01
  by_cases h : x = y
  · rw [IntOp.cmpi_eq.mpr h, if_pos h, show ((1#1 : BitVec 1).setWidth 32).toInt = 1 by decide]
    simp
  · rw [eq_zero_of_ne_one (fun hc => h (IntOp.cmpi_eq.mp hc)), if_neg h,
      show ((0#1 : BitVec 1).setWidth 32).toInt = 0 by decide]
    simp

/-- The comparison bit read as an unsigned integer is the same mask entry. -/
theorem uext_cmpi_eq (x y : BitVec 32) : ((((IntOp.cmpi .eq x y).toNat : ℝ)) : EReal) = mask01 x y := by
  unfold mask01
  by_cases h : x = y
  · rw [IntOp.cmpi_eq.mpr h, if_pos h, show (1#1 : BitVec 1).toNat = 1 by decide]
    simp
  · rw [eq_zero_of_ne_one (fun hc => h (IntOp.cmpi_eq.mp hc)), if_neg h, show (0#1 : BitVec 1).toNat = 0 by decide]
    simp

/-- Naturals below `2 ^ 32` with the same 32-bit word are equal. -/
theorem ofNat32_inj {p q : ℕ} (hp : p < 2 ^ 32) (hq : q < 2 ^ 32) : BitVec.ofNat 32 p = BitVec.ofNat 32 q ↔ p = q := by
  constructor
  · intro h
    have h2 := congrArg BitVec.toNat h
    simp only [BitVec.toNat_ofNat] at h2
    rwa [Nat.mod_eq_of_lt hp, Nat.mod_eq_of_lt hq] at h2
  · intro h; rw [h]

end Cert.RowReads

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.KernelReads.lean ====
/-
  The kernel's pure values read at an index, over the extended reals.

  The two scaling kernels divide each entry of a [1024, 512] block by the larger of its row's Euclidean norm and
  the floor; the rounding to the narrower format is the identity on the extended reals. The third kernel starts
  its column of row sums at zero, adds to it, for each row, the sum over the 2048 columns of the block of
  exp (2 · ⟨row, column⟩ − 21/10), and at the end stores 21/10 + log of the column.
-/
import proofs.«163665_j75909251990177_2_alg».proof.Proof.Gen.KernelIdeal.Skeleton
import proofs.«163665_j75909251990177_2_alg».proof.Proof.Spec
import proofs.«163665_j75909251990177_2_alg».proof.Proof.LibRowReads
import proofs.«163665_j75909251990177_2_alg».proof.Proof.LibKeepdims
import proofs.«163665_j75909251990177_2_alg».proof.Proof.LibMatProd
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Reads

open Cert.KernelIdeal Cert.KernelIdeal.Gen Idealize.ShloMosaic Idealize.ShloMosaic.ValueIdx

/-! ## The two scaling kernels -/

theorem norm_pay1 (v0 : Vec Ideal S1024x512 .f32) (p : Fin 1024) (q : Fin 512) :
    k0_pay1 (F := Ideal) v0 (ix2 p q) = Cert.NTXent.unitRow (fun k => v0 (ix2 p k)) q := by
  have e : multiReduction (F := Ideal) .add [1] S1024 (mulf v0 v0) 0x00000000#32 reduces_S1024x512_S1024 (.inl rfl) rfl (ix1 p)
      = ∑ k : Fin 512, v0 (ix2 p k) * v0 (ix2 p k) :=
    Cert.RowReads.rowSum_apply (a := 1024) (b := 512) (mulf v0 v0) _ _ _ rfl p
  unfold k0_pay1 Cert.NTXent.unitRow
  show Ideal.div (v0 (ix2 p q)) (broadcastTo S1024x512 _ broadcasts_S1024x1_S1024x512 (ix2 p q)) = _
  rw [Cert.Keepdims.broadcastTo_a1_ab_apply]
  show Ideal.div (v0 (ix2 p q)) (max (Ideal.sqrt (shapeCast S1024x1 _ shapeCasts_S1024_S1024x1 (ix2 p 0))) _) = _
  rw [Cert.Keepdims.shapeCast_a_a1_apply]
  exact congrArg (fun s => Ideal.div (v0 (ix2 p q)) (max (Ideal.sqrt s) Cert.NTXent.eps)) e

theorem norm_pay2 (v0 : Vec Ideal S1024x512 .f32) (p : Fin 1024) (q : Fin 512) :
    k0_pay2 (F := Ideal) v0 (ix2 p q) = Cert.NTXent.unitRow (fun k => v0 (ix2 p k)) q :=
  norm_pay1 v0 p q

theorem norm_pay1' (v0 : Vec Ideal S1024x512 .f32) (p : Fin 1024) (q : Fin 512) :
    k1_pay1 (F := Ideal) v0 (ix2 p q) = Cert.NTXent.unitRow (fun k => v0 (ix2 p k)) q := by
  have e : multiReduction (F := Ideal) .add [1] S1024 (mulf v0 v0) 0x00000000#32 reduces_S1024x512_S1024 (.inl rfl) rfl (ix1 p)
      = ∑ k : Fin 512, v0 (ix2 p k) * v0 (ix2 p k) :=
    Cert.RowReads.rowSum_apply (a := 1024) (b := 512) (mulf v0 v0) _ _ _ rfl p
  unfold k1_pay1 Cert.NTXent.unitRow
  show Ideal.div (v0 (ix2 p q)) (broadcastTo S1024x512 _ broadcasts_S1024x1_S1024x512 (ix2 p q)) = _
  rw [Cert.Keepdims.broadcastTo_a1_ab_apply]
  show Ideal.div (v0 (ix2 p q)) (max (Ideal.sqrt (shapeCast S1024x1 _ shapeCasts_S1024_S1024x1 (ix2 p 0))) _) = _
  rw [Cert.Keepdims.shapeCast_a_a1_apply]
  exact congrArg (fun s => Ideal.div (v0 (ix2 p q)) (max (Ideal.sqrt s) Cert.NTXent.eps)) e

theorem norm_pay2' (v0 : Vec Ideal S1024x512 .f32) (p : Fin 1024) (q : Fin 512) :
    k1_pay2 (F := Ideal) v0 (ix2 p q) = Cert.NTXent.unitRow (fun k => v0 (ix2 p k)) q :=
  norm_pay1' v0 p q

/-! ## The log-sum-exp kernel -/

/-- The column of row sums starts at zero. -/
theorem lse_pay1 (y : S1024x1.Idx) : k2_pay1 (F := Ideal) y = 0 := by
  unfold k2_pay1
  rw [shapeCast_self]
  exact Ideal.ofBits_zero_f32

/-- The named shift denotes the rational 21/10. -/
theorem c_21_10 : Named.named (F := Ideal) Cert.KernelIdeal.κ "c_21_10" (φ := .f32) 0x40066666#32 = ((21 / 10 : ℝ) : EReal) :=
  IdealRules.named_const.ideal_named_scalar _ _ _ _ rfl

/-- The four coordinate facts of the kernel's contraction: the left operand's axis 1 against the right's axis 0. -/
theorem mm_l0 (i : S1024x2048.Idx) (q : dot_S1024x512_S512x2048_S1024x2048_1_0_0_1_n_n.contr.Idx) : (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem mm_l1 (i : S1024x2048.Idx) (q : dot_S1024x512_S512x2048_S1024x2048_1_0_0_1_n_n.contr.Idx) : (dot_S1024x512_S512x2048_S1024x2048_1_0_0_1_n_n.lhsIdx i q 1).val = (q ⟨0, by decide⟩).val :=
  dot_S1024x512_S512x2048_S1024x2048_1_0_0_1_n_n.lhsIdx_val_of_single rfl i q
theorem mm_r0 (i : S1024x2048.Idx) (q : dot_S1024x512_S512x2048_S1024x2048_1_0_0_1_n_n.contr.Idx) : (dot_S1024x512_S512x2048_S1024x2048_1_0_0_1_n_n.rhsIdx i q 0).val = (q ⟨0, by decide⟩).val :=
  dot_S1024x512_S512x2048_S1024x2048_1_0_0_1_n_n.rhsIdx_val_of_single rfl i q
theorem mm_r1 (i : S1024x2048.Idx) (q : dot_S1024x512_S512x2048_S1024x2048_1_0_0_1_n_n.contr.Idx) : (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The matrix unit's product into the zero accumulator, read at an index, is the matrix product there. -/
theorem mm_apply (x : FVec Ideal S1024x512 .bf16) (w : FVec Ideal S512x2048 .bf16) (i : S1024x2048.Idx) :
    matmul (F := Ideal) dot_S1024x512_S512x2048_S1024x2048_1_0_0_1_n_n none x w (constant (F := Ideal) S1024x2048 .f32 0x00000000#32) i = Cert.Gcn.Dense.prod x w i := by
  show FloatOps.matmul dot_S1024x512_S512x2048_S1024x2048_1_0_0_1_n_n none x w (constant (F := Ideal) S1024x2048 .f32 0x00000000#32) i = _
  rw [Ideal.matmul_constant_zero_apply]
  exact Cert.Gcn.Dense.sum_contr_eq_prod dot_S1024x512_S512x2048_S1024x2048_1_0_0_1_n_n rfl rfl mm_l0 mm_l1 mm_r0 mm_r1 x w i

/-- One step adds to row `p`'s entry the sum over the block's 2048 columns of the exponentials of the shifted, doubled
    inner products. -/
theorem lse_pay2 (v3 : Vec Ideal S1024x512 .bf16) (v5 : Vec Ideal S2048x512 .bf16) (v14 : Vec Ideal S1024x1 .f32) (p : Fin 1024) :
    k2_pay2 (F := Ideal) v3 v5 v14 (ix2 p 0) = v14 (ix2 p 0) + ∑ l : Fin 2048, Ideal.exp ((∑ k : Fin 512, v3 (ix2 p k) * v5 (ix2 l k)) * Cert.NTXent.two - Cert.NTXent.shift) := by
  unfold k2_pay2
  simp only [shapeCast_self]
  show v14 (ix2 p 0) + shapeCast S1024x1 _ shapeCasts_S1024_S1024x1 (ix2 p 0) = _
  rw [Cert.Keepdims.shapeCast_a_a1_apply]
  refine congrArg (v14 (ix2 p 0) + ·) ?_
  refine (Cert.RowReads.rowSum_apply (a := 1024) (b := 2048) _ _ _ _ rfl p).trans ?_
  refine Finset.sum_congr rfl fun l _ => ?_
  have hm := mm_apply v3 (transpose S512x2048 [1, 0] v5 transposes_S2048x512_p1_0_S512x2048) (ix2 p l)
  show Ideal.exp (matmul (F := Ideal) dot_S1024x512_S512x2048_S1024x2048_1_0_0_1_n_n none v3 (transpose S512x2048 [1, 0] v5 transposes_S2048x512_p1_0_S512x2048)
      (constant (F := Ideal) S1024x2048 .f32 0x00000000#32) (ix2 p l) * Cert.NTXent.two
      - Named.named (F := Ideal) Cert.KernelIdeal.κ "c_21_10" (φ := .f32) 0x40066666#32) = _
  rw [c_21_10, hm]
  refine congrArg (fun s => Ideal.exp (s * Cert.NTXent.two - Cert.NTXent.shift)) ?_
  unfold Cert.Gcn.Dense.prod
  refine Finset.sum_congr rfl fun k _ => ?_
  show v3 (ix2 p k) * transpose S512x2048 [1, 0] v5 transposes_S2048x512_p1_0_S512x2048 (ix2 k l) = _
  rw [transpose_ix2_apply]

/-- The last step: the shift plus the logarithm of the column. -/
theorem lse_pay3 (v24 : Vec Ideal S1024x1 .f32) (p : Fin 1024) :
    k2_pay3 (F := Ideal) v24 (ix2 p 0) = Cert.NTXent.shift + Ideal.log (v24 (ix2 p 0)) := by
  unfold k2_pay3
  show Named.named (F := Ideal) Cert.KernelIdeal.κ "c_21_10" (φ := .f32) 0x40066666#32 + Ideal.log (v24 (ix2 p 0)) = _
  rw [c_21_10]

end Cert.KernelIdeal.Reads

end
-- ==== Proof.NormArrays.lean ====
/-
  The two row-normalising calls' output arrays as whole-array functions, over the extended reals.

  Each call walks four [1024, 512] row blocks of its [4096, 512] argument; at point `t` it writes back, to each of
  its two outputs, the rows 1024 · t … 1024 · t + 1023 of the argument, each divided by the larger of its Euclidean
  norm and the floor. The blocks tile the array (row `r` lies in block `r / 1024`), so each output ends holding
  that function of the argument at every index; narrowing to half precision is the identity on the extended reals.
-/
import proofs.«163665_j75909251990177_2_alg».proof.Proof.NormCallsI
import proofs.«163665_j75909251990177_2_alg».proof.Proof.KernelReads
import proofs.«163665_j75909251990177_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The rows of a [4096, 512] array, each divided by the larger of its Euclidean norm and the floor. -/
def normRows (A : S4096x512.Idx → EReal) : S4096x512.Idx → EReal :=
  fun i => Cert.NTXent.unitRow (fun k => A (ix2 (i 0) k)) (i 1)

/-- The index maps over call 0's grid of four row blocks: every window's block at point `t` is row block `t`, column
    block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## Call 0, the single-precision output (window 2) -/

/-- What point `t` writes back is block `t` of the scaled rows of the argument. -/
theorem flushed0_2_eq (c : Dev nD) (t : Fin cfg0.N) :
    (dat0 (F := Ideal) V c).flushed 2 t = ((cfg0.win 2).blk t).view.read (Elt Ideal) (normRows (V c main_arg0)) := by
  show (cfg0.win 2).cut (grid0.coords t) ((dat0 V c).after 2 t) = _
  rw [after0_2]
  unfold out0_2
  rw [View.canon_unit_zero hz]
  simp only [View.ld_unit_zero (S := S1024x512) hz]
  obtain ⟨e0, e1, e2, e3, e4, e5⟩ := idx_facts0 t
  funext j
  have hj0 : (j 0).val < 1024 := (j 0).isLt
  have hj1 : (j 1).val < 512 := (j 1).isLt
  have ej : (cfg0.win 2).xinj (grid0.coords t) j = ix2 (⟨(j 0).val, hj0⟩ : Fin 1024) (⟨(j 1).val, hj1⟩ : Fin 512) :=
    funext fun a => Fin.ext (by match a with | ⟨0, _⟩ => rfl | ⟨1, _⟩ => rfl)
  show k0_pay1 (F := Ideal) (iblk0 V c 0 t) ((cfg0.win 2).xinj (grid0.coords t) j)
    = normRows (V c main_arg0) (((cfg0.win 2).blk t).view.emb j)
  rw [ej]
  refine (Cert.KernelIdeal.Reads.norm_pay1 (iblk0 V c 0 t) ⟨(j 0).val, hj0⟩ ⟨(j 1).val, hj1⟩).trans ?_
  -- the input block's row is the argument's row 1024 · t + p, its column the same column
  have hrow : ∀ k : Fin 512, iblk0 V c 0 t (ix2 ⟨(j 0).val, hj0⟩ k)
      = V c main_arg0 (ix2 ((((cfg0.win 2).blk t).view.emb j) 0) k) := fun k => by
    show V c main_arg0 (((cfg0.win 0).blk t).view.emb (ix2 ⟨(j 0).val, hj0⟩ k)) = _
    refine congrArg (V c main_arg0) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 512 + 1 * k.val = k.val; omega
  have hcol : (⟨(j 1).val, hj1⟩ : Fin 512) = (((cfg0.win 2).blk t).view.emb j) 1 := Fin.ext (by
    show (j 1).val = win0_2.index t (1 : Fin 2) * 512 + 1 * (j 1).val; omega)
  show Cert.NTXent.unitRow (fun k => iblk0 V c 0 t (ix2 ⟨(j 0).val, hj0⟩ k)) ⟨(j 1).val, hj1⟩
    = Cert.NTXent.unitRow (fun k => V c main_arg0 (ix2 ((((cfg0.win 2).blk t).view.emb j) 0) k)) ((((cfg0.win 2).blk t).view.emb j) 1)
  rw [funext hrow, hcol]

/-- An index is in point `t`'s block iff each coordinate is in the block's range on its axis. -/
theorem mem_blk0_2 (t : Fin cfg0.N) (i : S4096x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0_1).slice (win0_2.rect t)).set ↔ _
  rw [View.set_slice_whole, Rect.mem_set_unit]
  exact Iff.rfl

/-- Row `r` is in the block of the point `r / 1024`: the four blocks cover the array. -/
theorem covers0_2 (i : S4096x512.Idx) : ∃ t : Fin cfg0.N, (cfg0.win 2).flush t = true ∧ i ∈ ((cfg0.win 2).blk t).view.set := by
  have hi0 : (i 0).val < 4096 := (i 0).isLt
  have hi1 : (i 1).val < 512 := (i 1).isLt
  have hN : grid0.N = 4 := N_0
  have ht : (i 0).val / 1024 < grid0.N := by rw [hN]; omega
  obtain ⟨e0, e1, e2, e3, e4, e5⟩ := idx_facts0 ⟨(i 0).val / 1024, ht⟩
  refine ⟨⟨(i 0).val / 1024, ht⟩, flush0_2 _, ?_⟩
  rw [mem_blk0_2]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, ht⟩ (1 : Fin 2) * 512 ≤ (i 1).val ∧ (i 1).val < win0_2.index ⟨(i 0).val / 1024, ht⟩ (1 : Fin 2) * 512 + 512
    rw [e5]; omega

/-- The single-precision output of the first call ends holding the scaled rows of the argument. -/
theorem final0_2_fun (c : Dev nD) : (dat0 (F := Ideal) V c).arrAt 2 cfg0.N = normRows (V c main_arg0) :=
  (dat0 (F := Ideal) V c).arrAt_eq_of_cover 2 (normRows (V c main_arg0)) (fun t _ => flushed0_2_eq V c t) covers0_2

theorem final0_2 (c : Dev nD) (a : Fin 4096) (b : Fin 512) :
    (dat0 (F := Ideal) V c).arrAt 2 cfg0.N (ix2 a b) = Cert.NTXent.unitRow (fun k => V c main_arg0 (ix2 a k)) b := by
  rw [final0_2_fun]
  rfl

/-! ## Call 0, the half-precision output (window 1) -/

/-- What point `t` writes back is block `t` of the scaled rows of the argument. -/
theorem flushed0_1_eq (c : Dev nD) (t : Fin cfg0.N) :
    (dat0 (F := Ideal) V c).flushed 1 t = ((cfg0.win 1).blk t).view.read (Elt Ideal) (normRows (V c main_arg0)) := by
  show (cfg0.win 1).cut (grid0.coords t) ((dat0 V c).after 1 t) = _
  rw [after0_1]
  unfold out0_1
  rw [View.canon_unit_zero hz]
  simp only [View.ld_unit_zero (S := S1024x512) hz]
  obtain ⟨e0, e1, e2, e3, e4, e5⟩ := idx_facts0 t
  funext j
  have hj0 : (j 0).val < 1024 := (j 0).isLt
  have hj1 : (j 1).val < 512 := (j 1).isLt
  have ej : (cfg0.win 1).xinj (grid0.coords t) j = ix2 (⟨(j 0).val, hj0⟩ : Fin 1024) (⟨(j 1).val, hj1⟩ : Fin 512) :=
    funext fun a => Fin.ext (by match a with | ⟨0, _⟩ => rfl | ⟨1, _⟩ => rfl)
  show k0_pay2 (F := Ideal) (iblk0 V c 0 t) ((cfg0.win 1).xinj (grid0.coords t) j)
    = normRows (V c main_arg0) (((cfg0.win 1).blk t).view.emb j)
  rw [ej]
  refine (Cert.KernelIdeal.Reads.norm_pay2 (iblk0 V c 0 t) ⟨(j 0).val, hj0⟩ ⟨(j 1).val, hj1⟩).trans ?_
  -- the input block's row is the argument's row 1024 · t + p, its column the same column
  have hrow : ∀ k : Fin 512, iblk0 V c 0 t (ix2 ⟨(j 0).val, hj0⟩ k)
      = V c main_arg0 (ix2 ((((cfg0.win 1).blk t).view.emb j) 0) k) := fun k => by
    show V c main_arg0 (((cfg0.win 0).blk t).view.emb (ix2 ⟨(j 0).val, hj0⟩ k)) = _
    refine congrArg (V c main_arg0) (funext fun a => Fin.ext ?_)
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 512 + 1 * k.val = k.val; omega
  have hcol : (⟨(j 1).val, hj1⟩ : Fin 512) = (((cfg0.win 1).blk t).view.emb j) 1 := Fin.ext (by
    show (j 1).val = win0_1.index t (1 : Fin 2) * 512 + 1 * (j 1).val; omega)
  show Cert.NTXent.unitRow (fun k => iblk0 V c 0 t (ix2 ⟨(j 0).val, hj0⟩ k)) ⟨(j 1).val, hj1⟩
    = Cert.NTXent.unitRow (fun k => V c main_arg0 (ix2 ((((cfg0.win 1).blk t).view.emb j) 0) k)) ((((cfg0.win 1).blk t).view.emb j) 1)
  rw [funext hrow, hcol]

/-- An index is in point `t`'s block iff each coordinate is in the block's range on its axis. -/
theorem mem_blk0_1 (t : Fin cfg0.N) (i : S4096x512.Idx) :
    i ∈ ((cfg0.win 1).blk t).view.set ↔ ∀ a : Fin 2, win0_1.index t a * S1024x512.size a ≤ (i a).val ∧ (i a).val < win0_1.index t a * S1024x512.size a + S1024x512.size a := by
  show i ∈ ((View.whole main_v0_0).slice (win0_1.rect t)).set ↔ _
  rw [View.set_slice_whole, Rect.mem_set_unit]
  exact Iff.rfl

/-- Row `r` is in the block of the point `r / 1024`: the four blocks cover the array. -/
theorem covers0_1 (i : S4096x512.Idx) : ∃ t : Fin cfg0.N, (cfg0.win 1).flush t = true ∧ i ∈ ((cfg0.win 1).blk t).view.set := by
  have hi0 : (i 0).val < 4096 := (i 0).isLt
  have hi1 : (i 1).val < 512 := (i 1).isLt
  have hN : grid0.N = 4 := N_0
  have ht : (i 0).val / 1024 < grid0.N := by rw [hN]; omega
  obtain ⟨e0, e1, e2, e3, e4, e5⟩ := idx_facts0 ⟨(i 0).val / 1024, ht⟩
  refine ⟨⟨(i 0).val / 1024, ht⟩, flush0_1 _, ?_⟩
  rw [mem_blk0_1]
  intro a
  match a with
  | ⟨0, _⟩ =>
    show win0_1.index ⟨(i 0).val / 1024, ht⟩ (0 : Fin 2) * 1024 ≤ (i 0).val ∧ (i 0).val < win0_1.index ⟨(i 0).val / 1024, ht⟩ (0 : Fin 2) * 1024 + 1024
    rw [e2]; show (i 0).val / 1024 * 1024 ≤ (i 0).val ∧ (i 0).val < (i 0).val / 1024 * 1024 + 1024; omega
  | ⟨1, _⟩ =>
    show win0_1.index ⟨(i 0).val / 1024, ht⟩ (1 : Fin 2) * 512 ≤ (i 1).val ∧ (i 1).val < win0_1.index ⟨(i 0).val / 1024, ht⟩ (1 : Fin 2) * 512 + 512
    rw [e3]; omega

/-- The half-precision output of the first call ends holding the scaled rows of the argument. -/
theorem final0_1_fun (c : Dev nD) : (dat0 (F := Ideal) V c).arrAt 1 cfg0.N = normRows (V c main_arg0) :=
  (dat0 (F := Ideal) V c).arrAt_eq_of_cover 1 (normRows (V c main_arg0)) (fun t _ => flushed0_1_eq V c t) covers0_1

theorem final0_1 (c : Dev nD) (a : Fin 4096) (b : Fin 512) :
    (dat0 (F := Ideal) V c).arrAt 1 cfg0.N (ix2 a b) = Cert.NTXent.unitRow (fun k => V c main_arg0 (ix2 a k)) b := by
  rw [final0_1_fun]
  rfl

/-- The index maps over call 1's grid of four row blocks: every window's block at point `t` is row block `t`, column
    block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-! ## Call 1, the single-precision output (window 2) -/

/-- What point `t` writes back is block `t` of the scaled rows of the argument. -/
theorem flushed1_2_eq (c : Dev nD) (t : Fin cfg1.N) :
    (dat1 (F := Ideal) V c).flushed 2 t = ((cfg1.win 2).blk t).view.read (Elt Ideal) (normRows (V c main_arg1)) := by
  show (cfg1.win 2).cut (grid1.coords t) ((dat1 V c).after 2 t) = _
  rw [after1_2]
  unfold out1_2
  rw [View.canon_unit_zero hz]
  simp only [View.ld_unit_zero (S := S1024x512) hz]
  obtain ⟨e0, e1, e2, e3, e4, e5⟩ := idx_facts1 t
  funext j
  have hj0 : (j 0).val < 1024 := (j 0).isLt
  have hj1 : (j 1).val < 512 := (j 1).isLt
  have ej : (cfg1.win 2).xinj (grid1.coords t) j = ix2 (⟨(j 0).val, hj0⟩ : Fin 1024) (⟨(j 1).val, hj1⟩ : Fin 512) :=
    funext fun a => Fin.ext (by match a with | ⟨0, _⟩ => rfl | ⟨1, _⟩ => rfl)
  show k1_pay1 (F := Ideal) (iblk1 V c 0 t) ((cfg1.win 2).xinj (grid1.coords t) j)
    = normRows (V c main_arg1) (((cfg1.win 2).blk t).view.emb j)
  rw [ej]
  refine (Cert.KernelIdeal.Reads.norm_pay1' (iblk1 V c 0 t) ⟨(j 0).val, hj0⟩ ⟨(j 1).val, hj1⟩).trans ?_
  -- the input block's row is the argument's row 1024 · t + p, its column the same column
  have hrow : ∀ k : Fin 512, iblk1 V c 0 t (ix2 ⟨(j 0).val, hj0⟩ k)
      = V c main_arg1 (ix2 ((((cfg1.win 2).blk t).view.emb j) 0) k) := fun k => by
    show V c main_arg1 (((cfg1.win 0).blk t).view.emb (ix2 ⟨(j 0).val, hj0⟩ k)) = _
    refine congrArg (V c main_arg1) (funext fun a => Fin.ext ?_)
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 512 + 1 * k.val = k.val; omega
  have hcol : (⟨(j 1).val, hj1⟩ : Fin 512) = (((cfg1.win 2).blk t).view.emb j) 1 := Fin.ext (by
    show (j 1).val = win1_2.index t (1 : Fin 2) * 512 + 1 * (j 1).val; omega)
  show Cert.NTXent.unitRow (fun k => iblk1 V c 0 t (ix2 ⟨(j 0).val, hj0⟩ k)) ⟨(j 1).val, hj1⟩
    = Cert.NTXent.unitRow (fun k => V c main_arg1 (ix2 ((((cfg1.win 2).blk t).view.emb j) 0) k)) ((((cfg1.win 2).blk t).view.emb j) 1)
  rw [funext hrow, hcol]

/-- An index is in point `t`'s block iff each coordinate is in the block's range on its axis. -/
theorem mem_blk1_2 (t : Fin cfg1.N) (i : S4096x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v1_1).slice (win1_2.rect t)).set ↔ _
  rw [View.set_slice_whole, Rect.mem_set_unit]
  exact Iff.rfl

/-- Row `r` is in the block of the point `r / 1024`: the four blocks cover the array. -/
theorem covers1_2 (i : S4096x512.Idx) : ∃ t : Fin cfg1.N, (cfg1.win 2).flush t = true ∧ i ∈ ((cfg1.win 2).blk t).view.set := by
  have hi0 : (i 0).val < 4096 := (i 0).isLt
  have hi1 : (i 1).val < 512 := (i 1).isLt
  have hN : grid1.N = 4 := N_1
  have ht : (i 0).val / 1024 < grid1.N := by rw [hN]; omega
  obtain ⟨e0, e1, e2, e3, e4, e5⟩ := idx_facts1 ⟨(i 0).val / 1024, ht⟩
  refine ⟨⟨(i 0).val / 1024, ht⟩, flush1_2 _, ?_⟩
  rw [mem_blk1_2]
  intro a
  match a with
  | ⟨0, _⟩ =>
    show win1_2.index ⟨(i 0).val / 1024, ht⟩ (0 : Fin 2) * 1024 ≤ (i 0).val ∧ (i 0).val < win1_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win1_2.index ⟨(i 0).val / 1024, ht⟩ (1 : Fin 2) * 512 ≤ (i 1).val ∧ (i 1).val < win1_2.index ⟨(i 0).val / 1024, ht⟩ (1 : Fin 2) * 512 + 512
    rw [e5]; omega

/-- The single-precision output of the second call ends holding the scaled rows of the argument. -/
theorem final1_2_fun (c : Dev nD) : (dat1 (F := Ideal) V c).arrAt 2 cfg1.N = normRows (V c main_arg1) :=
  (dat1 (F := Ideal) V c).arrAt_eq_of_cover 2 (normRows (V c main_arg1)) (fun t _ => flushed1_2_eq V c t) covers1_2

theorem final1_2 (c : Dev nD) (a : Fin 4096) (b : Fin 512) :
    (dat1 (F := Ideal) V c).arrAt 2 cfg1.N (ix2 a b) = Cert.NTXent.unitRow (fun k => V c main_arg1 (ix2 a k)) b := by
  rw [final1_2_fun]
  rfl

/-! ## Call 1, the half-precision output (window 1) -/

/-- What point `t` writes back is block `t` of the scaled rows of the argument. -/
theorem flushed1_1_eq (c : Dev nD) (t : Fin cfg1.N) :
    (dat1 (F := Ideal) V c).flushed 1 t = ((cfg1.win 1).blk t).view.read (Elt Ideal) (normRows (V c main_arg1)) := by
  show (cfg1.win 1).cut (grid1.coords t) ((dat1 V c).after 1 t) = _
  rw [after1_1]
  unfold out1_1
  rw [View.canon_unit_zero hz]
  simp only [View.ld_unit_zero (S := S1024x512) hz]
  obtain ⟨e0, e1, e2, e3, e4, e5⟩ := idx_facts1 t
  funext j
  have hj0 : (j 0).val < 1024 := (j 0).isLt
  have hj1 : (j 1).val < 512 := (j 1).isLt
  have ej : (cfg1.win 1).xinj (grid1.coords t) j = ix2 (⟨(j 0).val, hj0⟩ : Fin 1024) (⟨(j 1).val, hj1⟩ : Fin 512) :=
    funext fun a => Fin.ext (by match a with | ⟨0, _⟩ => rfl | ⟨1, _⟩ => rfl)
  show k1_pay2 (F := Ideal) (iblk1 V c 0 t) ((cfg1.win 1).xinj (grid1.coords t) j)
    = normRows (V c main_arg1) (((cfg1.win 1).blk t).view.emb j)
  rw [ej]
  refine (Cert.KernelIdeal.Reads.norm_pay2' (iblk1 V c 0 t) ⟨(j 0).val, hj0⟩ ⟨(j 1).val, hj1⟩).trans ?_
  -- the input block's row is the argument's row 1024 · t + p, its column the same column
  have hrow : ∀ k : Fin 512, iblk1 V c 0 t (ix2 ⟨(j 0).val, hj0⟩ k)
      = V c main_arg1 (ix2 ((((cfg1.win 1).blk t).view.emb j) 0) k) := fun k => by
    show V c main_arg1 (((cfg1.win 0).blk t).view.emb (ix2 ⟨(j 0).val, hj0⟩ k)) = _
    refine congrArg (V c main_arg1) (funext fun a => Fin.ext ?_)
    match a with
    | ⟨0, _⟩ => show win1_0.index t (0 : Fin 2) * 1024 + 1 * (j 0).val = win1_1.index t (0 : Fin 2) * 1024 + 1 * (j 0).val; omega
    | ⟨1, _⟩ => show win1_0.index t (1 : Fin 2) * 512 + 1 * k.val = k.val; omega
  have hcol : (⟨(j 1).val, hj1⟩ : Fin 512) = (((cfg1.win 1).blk t).view.emb j) 1 := Fin.ext (by
    show (j 1).val = win1_1.index t (1 : Fin 2) * 512 + 1 * (j 1).val; omega)
  show Cert.NTXent.unitRow (fun k => iblk1 V c 0 t (ix2 ⟨(j 0).val, hj0⟩ k)) ⟨(j 1).val, hj1⟩
    = Cert.NTXent.unitRow (fun k => V c main_arg1 (ix2 ((((cfg1.win 1).blk t).view.emb j) 0) k)) ((((cfg1.win 1).blk t).view.emb j) 1)
  rw [funext hrow, hcol]

/-- An index is in point `t`'s block iff each coordinate is in the block's range on its axis. -/
theorem mem_blk1_1 (t : Fin cfg1.N) (i : S4096x512.Idx) :
    i ∈ ((cfg1.win 1).blk t).view.set ↔ ∀ a : Fin 2, win1_1.index t a * S1024x512.size a ≤ (i a).val ∧ (i a).val < win1_1.index t a * S1024x512.size a + S1024x512.size a := by
  show i ∈ ((View.whole main_v1_0).slice (win1_1.rect t)).set ↔ _
  rw [View.set_slice_whole, Rect.mem_set_unit]
  exact Iff.rfl

/-- Row `r` is in the block of the point `r / 1024`: the four blocks cover the array. -/
theorem covers1_1 (i : S4096x512.Idx) : ∃ t : Fin cfg1.N, (cfg1.win 1).flush t = true ∧ i ∈ ((cfg1.win 1).blk t).view.set := by
  have hi0 : (i 0).val < 4096 := (i 0).isLt
  have hi1 : (i 1).val < 512 := (i 1).isLt
  have hN : grid1.N = 4 := N_1
  have ht : (i 0).val / 1024 < grid1.N := by rw [hN]; omega
  obtain ⟨e0, e1, e2, e3, e4, e5⟩ := idx_facts1 ⟨(i 0).val / 1024, ht⟩
  refine ⟨⟨(i 0).val / 1024, ht⟩, flush1_1 _, ?_⟩
  rw [mem_blk1_1]
  intro a
  match a with
  | ⟨0, _⟩ =>
    show win1_1.index ⟨(i 0).val / 1024, ht⟩ (0 : Fin 2) * 1024 ≤ (i 0).val ∧ (i 0).val < win1_1.index ⟨(i 0).val / 1024, ht⟩ (0 : Fin 2) * 1024 + 1024
    rw [e2]; show (i 0).val / 1024 * 1024 ≤ (i 0).val ∧ (i 0).val < (i 0).val / 1024 * 1024 + 1024; omega
  | ⟨1, _⟩ =>
    show win1_1.index ⟨(i 0).val / 1024, ht⟩ (1 : Fin 2) * 512 ≤ (i 1).val ∧ (i 1).val < win1_1.index ⟨(i 0).val / 1024, ht⟩ (1 : Fin 2) * 512 + 512
    rw [e3]; omega

/-- The half-precision output of the second call ends holding the scaled rows of the argument. -/
theorem final1_1_fun (c : Dev nD) : (dat1 (F := Ideal) V c).arrAt 1 cfg1.N = normRows (V c main_arg1) :=
  (dat1 (F := Ideal) V c).arrAt_eq_of_cover 1 (normRows (V c main_arg1)) (fun t _ => flushed1_1_eq V c t) covers1_1

theorem final1_1 (c : Dev nD) (a : Fin 4096) (b : Fin 512) :
    (dat1 (F := Ideal) V c).arrAt 1 cfg1.N (ix2 a b) = Cert.NTXent.unitRow (fun k => V c main_arg1 (ix2 a k)) b := by
  rw [final1_1_fun]
  rfl

end Cert.KernelIdeal.Hand

end
-- ==== Proof.LseValueI.lean ====
/-
  The log-sum-exp call's found pieces read back as values.  In every case the scratch ends at the accumulating store's
  payload over the two input blocks and the scratch as that store found it — the cleared scratch at a first column
  block, what the point before left otherwise — and at a last column block the output's buffer ends at the finishing
  payload of that scratch.  So what the scratch holds after a point is a running sum over the column blocks met since
  the last clearing, by recursion on the point.
-/
import proofs.«163665_j75909251990177_2_alg».proof.Proof.Gen.KernelIdeal.Launch
import proofs.«163665_j75909251990177_2_alg».proof.Proof.Gen.KernelIdeal.Skeleton
import proofs.«163665_j75909251990177_2_alg».proof.Proof.Gen.KernelIdeal.Points
import proofs.«163665_j75909251990177_2_alg».proof.Proof.LseCallI
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- A middle column block leaves in the scratch the accumulating payload over what the scratch held. -/
theorem sout_B (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : ¬cond2_1 i)
    (x0 : Vec F S1024x512 .bf16) (x1 : Vec F S2048x512 .bf16) (xs0 : Vec F S1024x1 .f32) :
    sout2_B_0 c i arg2 harg2 arg3 harg3 arg4 harg4 arg5 harg5 hc0 hc1 x0 x1 xs0 = k2_pay2 x0 x1 xs0 := by
  unfold sout2_B_0
  rw [View.read_writes_eq_canon _ _ _ (scover2_B_0 c i arg2 harg2 arg3 harg3 arg4 harg4 arg5 harg5 hc0 hc1 x0 x1 xs0)]
  unfold kernelRun2_B
  dsimp only
  rw [View.canon_unit_zero hz2]
  simp only [View.readAt_eq_ld, harg2.read_unread, harg3.read_unread, harg5.read_unread, View.ld_unit_zero (S := S1024x512) hz2,
    View.ld_unit_zero (S := S2048x512) hz2, View.ld_unit_zero (S := S1024x1) hz2]

/-- A last column block leaves the same in the scratch, -/
theorem sout_C (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) :
    sout2_C_0 c i arg2 harg2 arg3 harg3 arg4 harg4 arg5 harg5 hc0 hc1 x0 x1 xs0 = k2_pay2 x0 x1 xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  sl_unfold_words
  rw [View.canon_unit_zero hz2]
  simp only [View.readAt_eq_ld, harg2.read_unread, harg3.read_unread, harg5.read_unread, View.ld_unit_zero (S := S1024x512) hz2,
    View.ld_unit_zero (S := S2048x512) hz2, View.ld_unit_zero (S := S1024x1) hz2]

/-- and in the output's buffer the finishing payload of the scratch as the accumulating store left it. -/
theorem out_C (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond2_0 i) (hc1 : cond2_1 i)
    (x0 : Vec F S1024x512 .bf16) (x1 : Vec F S2048x512 .bf16) (xs0 : Vec F S1024x1 .f32) :
    out2_C_2 c i arg2 harg2 arg3 harg3 arg4 harg4 arg5 harg5 hc0 hc1 x0 x1 xs0 = k2_pay3 (k2_pay2 x0 x1 xs0) := by
  unfold out2_C_2
  rw [View.read_writes_eq_canon _ _ _ (cover2_C_2 c i arg2 harg2 arg3 harg3 arg4 harg4 arg5 harg5 hc0 hc1 x0 x1 xs0)]
  unfold kernelRun2_C
  dsimp only
  sl_unfold_words
  rw [View.canon_unit_zero hz2, View.readCov_unit_zero (S := S1024x1) _ hz2]
  simp only [View.readAt_eq_ld, harg2.read_unread, harg3.read_unread, harg5.read_unread, View.ld_unit_zero (S := S1024x512) hz2,
    View.ld_unit_zero (S := S2048x512) hz2, View.ld_unit_zero (S := S1024x1) hz2]

/-- A first column block clears the scratch, reads the cleared scratch back, and leaves the accumulating payload over it. -/
theorem sout_A (c : Dev nD) (i : grid2.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond2_0 i) (hc1 : ¬cond2_1 i)
    (x0 : Vec F S1024x512 .bf16) (x1 : Vec F S2048x512 .bf16) :
    sout2_A_0 c i arg2 harg2 arg3 harg3 arg4 harg4 arg5 harg5 hc0 hc1 x0 x1 = k2_pay2 x0 x1 (k2_pay1 (F := F)) := by
  unfold sout2_A_0
  rw [View.read_writes_eq_canon _ _ _ (scover2_A_0 c i arg2 harg2 arg3 harg3 arg4 harg4 arg5 harg5 hc0 hc1 x0 x1)]
  unfold kernelRun2_A
  dsimp only
  sl_unfold_words
  rw [View.canon_cons_unit_zero (S := S1024x1) hz2, View.readCov_unit_zero (S := S1024x1) _ hz2]
  simp only [View.readAt_eq_ld, harg2.read_unread, harg3.read_unread, View.ld_unit_zero (S := S1024x512) hz2,
    View.ld_unit_zero (S := S2048x512) hz2, View.ld_unit_zero (S := S1024x1) hz2]

end Cert.KernelIdeal.Hand

end
-- ==== Proof.LibSumBlocks.lean ====
/-
  Re-grouping a finite sum into consecutive blocks, in any commutative additive monoid (so in particular over the extended
  reals, where it needs no finiteness): a sum over J·B consecutive naturals is the sum over J blocks of B. This is the law
  behind a contraction that is accumulated block by block along its contracted axis (a K-blocked matrix product kept in an
  accumulator across grid points or loop trips) against ONE whole contraction.
-/
import Mathlib.Algebra.BigOperators.Fin

namespace Cert.LibSumBlocks

/-- A sum over `J * B` consecutive naturals is the sum over `J` blocks of `B`: term `x = j * B + s` is term `s` of block `j`. -/
theorem sum_range_blocks {M : Type*} [AddCommMonoid M] (g : ℕ → M) (B : ℕ) : ∀ J : ℕ,
    ∑ x ∈ Finset.range (J * B), g x = ∑ j ∈ Finset.range J, ∑ s ∈ Finset.range B, g (j * B + s)
  | 0 => by simp
  | J + 1 => by
    rw [Nat.succ_mul, Finset.sum_range_add, Finset.sum_range_succ, sum_range_blocks g B J]

/-- The same with the whole sum over the index type `Fin (J * B)` (the form a contraction read at an index has). -/
theorem sum_fin_blocks {M : Type*} [AddCommMonoid M] (g : ℕ → M) (B J : ℕ) :
    ∑ k : Fin (J * B), g k.val = ∑ j ∈ Finset.range J, ∑ s ∈ Finset.range B, g (j * B + s) :=
  (Finset.sum_range g).symm.trans (sum_range_blocks g B J)

end Cert.LibSumBlocks
-- ==== Proof.LseArray.lean ====
/-
  The log-sum-exp call's output array as a whole-array function, over the extended reals.

  The call walks a grid of 8 × 4 points; point `t` pairs row block `t / 4` (1024 rows) with column block `t % 4`
  (2048 rows) of the same [8192, 512] array. At a first column block the scratch column is cleared; every point adds to
  row `p` of the scratch the sum over the column block's rows `l` of exp (2 · ⟨row, l⟩ − 21/10); at a last column
  block the output's block is 21/10 + log of the scratch. So after the fourth point of a run the scratch holds, row by
  row, the sum over all 8192 rows (four consecutive blocks of 2048 regrouped into one sum), the written blocks cover the
  [8192, 1] output, and the output ends holding 21/10 + log Σ_j exp (2 · ⟨row r, row j⟩ − 21/10) at every row `r`.
-/
import proofs.«163665_j75909251990177_2_alg».proof.Proof.LseValueI
import proofs.«163665_j75909251990177_2_alg».proof.Proof.KernelReads
import proofs.«163665_j75909251990177_2_alg».proof.Proof.Spec
import proofs.«163665_j75909251990177_2_alg».proof.Proof.LibSumBlocks
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Row `n` of an [8192, 512] array, as a function of the natural `n` (zero past the array). -/
def rowOf (A : S8192x512.Idx → EReal) (n : ℕ) : Fin 512 → EReal :=
  fun k => if h : n < 8192 then A (ix2 ⟨n, h⟩ k) else 0

/-- The exponential of the shifted, doubled inner product of rows `r` and `j`. -/
def expLogit (A : S8192x512.Idx → EReal) (r j : ℕ) : EReal :=
  Ideal.exp ((∑ k : Fin 512, rowOf A r k * rowOf A j k) * Cert.NTXent.two - Cert.NTXent.shift)

/-- A sum over the 8192 rows is the sum over four blocks of 2048 rows. -/
theorem sum_blocks4 (g : ℕ → EReal) :
    ∑ j : Fin 8192, g j.val = ∑ b ∈ Finset.range 4, ∑ l : Fin 2048, g (2048 * b + l.val) := by
  have h := Cert.LibSumBlocks.sum_fin_blocks g 2048 4
  refine Eq.trans (show ∑ j : Fin 8192, g j.val = ∑ k : Fin (4 * 2048), g k.val from rfl) (h.trans ?_)
  refine Finset.sum_congr rfl fun b _ => ?_
  rw [Finset.sum_range]
  exact Finset.sum_congr rfl fun l _ => by rw [Nat.mul_comm]

/-- The index maps over the grid of 8 × 4 points: at point `t` the row window and the output window are at block
    `t / 4`, the column window at block `t % 4`. -/
theorem idx_facts2 : ∀ t : Fin cfg2.N, win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

theorem lt_N2 (t : Fin cfg2.N) : t.val < 32 := Nat.lt_of_lt_of_eq t.isLt (N_2 : cfg2.N = 32)

/-- The row window's block at point `t` holds rows `1024 · (t / 4) + p` of the array. -/
theorem iblk2_0_apply (c : Dev nD) (t : Fin cfg2.N) (p : Fin 1024) (k : Fin 512) :
    iblk2 (F := Ideal) V c 0 t (ix2 p k) = rowOf (V c main_v2) (1024 * (t.val / 4) + p.val) k := by
  have ht := lt_N2 t
  have hp := p.isLt
  have hb : 1024 * (t.val / 4) + p.val < 8192 := by omega
  obtain ⟨e0, e1, e2, e3, e4, e5⟩ := idx_facts2 t
  unfold rowOf
  rw [dif_pos hb]
  show V c main_v2 (((cfg2.win 0).blk t).view.emb (ix2 p k)) = _
  refine congrArg (V c main_v2) (funext fun a => Fin.ext ?_)
  match a with
  | ⟨0, _⟩ => show win2_0.index t (0 : Fin 2) * 1024 + 1 * p.val = 1024 * (t.val / 4) + p.val; omega
  | ⟨1, _⟩ => show win2_0.index t (1 : Fin 2) * 512 + 1 * k.val = k.val; omega

/-- The column window's block at point `t` holds rows `2048 · (t % 4) + l` of the same array. -/
theorem iblk2_1_apply (c : Dev nD) (t : Fin cfg2.N) (l : Fin 2048) (k : Fin 512) :
    iblk2 (F := Ideal) V c 1 t (ix2 l k) = rowOf (V c main_v2) (2048 * (t.val % 4) + l.val) k := by
  have ht := lt_N2 t
  have hl := l.isLt
  have hb : 2048 * (t.val % 4) + l.val < 8192 := by omega
  obtain ⟨e0, e1, e2, e3, e4, e5⟩ := idx_facts2 t
  unfold rowOf
  rw [dif_pos hb]
  show V c main_v2 (((cfg2.win 1).blk t).view.emb (ix2 l k)) = _
  refine congrArg (V c main_v2) (funext fun a => Fin.ext ?_)
  match a with
  | ⟨0, _⟩ => show win2_1.index t (0 : Fin 2) * 2048 + 1 * l.val = 2048 * (t.val % 4) + l.val; omega
  | ⟨1, _⟩ => show win2_1.index t (1 : Fin 2) * 512 + 1 * k.val = k.val; omega

/-- One accumulating step at point `t`, read at row `p`: the scratch there plus the block's sum of exponentials. -/
theorem step_apply (c : Dev nD) (t : Fin cfg2.N) (xs : Vec Ideal S1024x1 .f32) (p : Fin 1024) :
    k2_pay2 (F := Ideal) (iblk2 V c 0 t) (iblk2 V c 1 t) xs (ix2 p 0)
      = xs (ix2 p 0) + ∑ l : Fin 2048, expLogit (V c main_v2) (1024 * (t.val / 4) + p.val) (2048 * (t.val % 4) + l.val) := by
  refine (Cert.KernelIdeal.Reads.lse_pay2 (iblk2 V c 0 t) (iblk2 V c 1 t) xs p).trans ?_
  refine congrArg (xs (ix2 p 0) + ·) (Finset.sum_congr rfl fun l _ => ?_)
  unfold expLogit
  refine congrArg (fun s => Ideal.exp (s * Cert.NTXent.two - Cert.NTXent.shift)) (Finset.sum_congr rfl fun k _ => ?_)
  rw [iblk2_0_apply, iblk2_1_apply]

/-- The scratch after point `n`, read at row `p`: the sum, over the column blocks met since the last clearing, of the
    blocks' sums of exponentials. -/
theorem scratch_apply (c : Dev nD) : ∀ (n : ℕ) (hn : n < cfg2.N) (p : Fin 1024),
    (outsAt2 (F := Ideal) V c n hn).2 (ix2 p 0)
      = ∑ b ∈ Finset.range (n % 4 + 1), ∑ l : Fin 2048, expLogit (V c main_v2) (1024 * (n / 4) + p.val) (2048 * b + l.val)
  | 0, hn, p => by
    have e2 := congrArg Prod.snd (outsAt2_A (F := Ideal) V c ⟨0, hn⟩ (Nat.zero_mod _) (show ¬(0 : ℕ) % 4 = 3 by decide))
    dsimp only at e2
    rw [sout_A] at e2
    rw [e2]
    refine (step_apply V c ⟨0, hn⟩ _ p).trans ?_
    rw [Cert.KernelIdeal.Reads.lse_pay1, zero_add]
    show ∑ l : Fin 2048, expLogit (V c main_v2) (1024 * (0 / 4) + p.val) (2048 * (0 % 4) + l.val) = _
    rw [Finset.sum_range_one]
  | n + 1, hn, p => by
    by_cases h0 : (n + 1) % 4 = 0
    · have h1 : ¬(n + 1) % 4 = 3 := by omega
      have e2 := congrArg Prod.snd (outsAt2_A (F := Ideal) V c ⟨n + 1, hn⟩ h0 h1)
      dsimp only at e2
      rw [sout_A] at e2
      rw [e2]
      refine (step_apply V c ⟨n + 1, hn⟩ _ p).trans ?_
      rw [Cert.KernelIdeal.Reads.lse_pay1, zero_add]
      show ∑ l : Fin 2048, expLogit (V c main_v2) (1024 * ((n + 1) / 4) + p.val) (2048 * ((n + 1) % 4) + l.val) = _
      rw [h0, Finset.sum_range_one]
    · have ih := scratch_apply c n (Nat.lt_of_succ_lt hn) p
      have hprev : (outsAt2 (F := Ideal) V c (n + 1) hn).2
          = k2_pay2 (F := Ideal) (iblk2 V c 0 ⟨n + 1, hn⟩) (iblk2 V c 1 ⟨n + 1, hn⟩) (outsAt2 (F := Ideal) V c n (Nat.lt_of_succ_lt hn)).2 := by
        by_cases h1 : (n + 1) % 4 = 3
        · have e2 := congrArg Prod.snd (outsAt2_C (F := Ideal) V c ⟨n + 1, hn⟩ h0 h1)
          dsimp only at e2
          rw [sout_C] at e2
          exact e2
        · have e2 := congrArg Prod.snd (outsAt2_B (F := Ideal) V c ⟨n + 1, hn⟩ h0 h1)
          dsimp only at e2
          rw [sout_B] at e2
          exact e2
      rw [hprev]
      refine (step_apply V c ⟨n + 1, hn⟩ _ p).trans ?_
      rw [ih]
      show (∑ b ∈ Finset.range (n % 4 + 1), ∑ l : Fin 2048, expLogit (V c main_v2) (1024 * (n / 4) + p.val) (2048 * b + l.val))
          + ∑ l : Fin 2048, expLogit (V c main_v2) (1024 * ((n + 1) / 4) + p.val) (2048 * ((n + 1) % 4) + l.val) = _
      have e1 : n / 4 = (n + 1) / 4 := by omega
      have e2 : n % 4 + 1 = (n + 1) % 4 := by omega
      rw [e1, e2, Finset.sum_range_succ]

/-- At a last column block the output's buffer is the finishing payload of the scratch: at row `p`, the shift plus
    the logarithm of the sum of exponentials over all 8192 rows. -/
theorem out_apply (c : Dev nD) (t : Fin cfg2.N) (h3 : t.val % 4 = 3) (p : Fin 1024) :
    (outsAt2 (F := Ideal) V c t.val t.isLt).1 (ix2 p 0)
      = Cert.NTXent.shift + Ideal.log (∑ j : Fin 8192, expLogit (V c main_v2) (1024 * (t.val / 4) + p.val) j.val) := by
  have h0 : ¬t.val % 4 = 0 := by omega
  have e := outsAt2_C (F := Ideal) V c t h0 h3
  have ea := congrArg Prod.fst e
  have eb := congrArg Prod.snd e
  dsimp only at ea eb
  rw [out_C] at ea
  rw [sout_C] at eb
  rw [ea, ← eb]
  refine (Cert.KernelIdeal.Reads.lse_pay3 _ p).trans ?_
  rw [scratch_apply V c t.val t.isLt p, h3]
  exact congrArg (fun s => Cert.NTXent.shift + Ideal.log s)
    (sum_blocks4 (fun j => expLogit (V c main_v2) (1024 * (t.val / 4) + p.val) j)).symm

/-- The column the call's output ends holding: at row `r`, the shift plus the logarithm of the sum over all 8192 rows
    `j` of the exponentials of the shifted, doubled inner products of rows `r` and `j`. -/
def lseCol (A : S8192x512.Idx → EReal) : S8192x1.Idx → EReal :=
  fun i => Cert.NTXent.shift + Ideal.log (∑ j : Fin 8192, expLogit A (i 0).val j.val)

/-- What a last column block's point writes back is its block of that column. -/
theorem flushed2_2_eq (c : Dev nD) (t : Fin cfg2.N) (hf : (cfg2.win 2).flush t = true) :
    (dat2 (F := Ideal) V c).flushed 2 t = ((cfg2.win 2).blk t).view.read (Elt Ideal) (lseCol (V c main_v2)) := by
  have h3 : t.val % 4 = 3 := (flush2_2 t).mp hf
  show (cfg2.win 2).cut (grid2.coords t) ((dat2 V c).after 2 t) = _
  rw [after2_2]
  obtain ⟨e0, e1, e2, e3, e4, e5⟩ := idx_facts2 t
  funext j
  have hj0 : (j 0).val < 1024 := (j 0).isLt
  have hj1 : (j 1).val < 1 := (j 1).isLt
  have ej : (cfg2.win 2).xinj (grid2.coords t) j = ix2 (⟨(j 0).val, hj0⟩ : Fin 1024) (0 : Fin 1) :=
    funext fun a => Fin.ext (by
      match a with
      | ⟨0, _⟩ => rfl
      | ⟨1, _⟩ => show (j 1).val = 0; omega)
  show (outsAt2 (F := Ideal) V c t.val t.isLt).1 ((cfg2.win 2).xinj (grid2.coords t) j)
    = lseCol (V c main_v2) (((cfg2.win 2).blk t).view.emb j)
  rw [ej, out_apply V c t h3]
  have er : ((((cfg2.win 2).blk t).view.emb j) 0).val = 1024 * (t.val / 4) + (j 0).val := by
    show win2_2.index t (0 : Fin 2) * 1024 + 1 * (j 0).val = _
    omega
  show _ = Cert.NTXent.shift + Ideal.log (∑ j' : Fin 8192, expLogit (V c main_v2) ((((cfg2.win 2).blk t).view.emb j) 0).val j'.val)
  rw [er]

/-- An index is in point `t`'s block iff each coordinate is in the block's range on its axis. -/
theorem mem_blk2_2 (t : Fin cfg2.N) (i : S8192x1.Idx) :
    i ∈ ((cfg2.win 2).blk t).view.set ↔ ∀ a : Fin 2, win2_2.index t a * S1024x1.size a ≤ (i a).val ∧ (i a).val < win2_2.index t a * S1024x1.size a + S1024x1.size a := by
  show i ∈ ((View.whole main_v3).slice (win2_2.rect t)).set ↔ _
  rw [View.set_slice_whole, Rect.mem_set_unit]
  exact Iff.rfl

/-- Row `r` is in the block of the writing point `4 · (r / 1024) + 3`: the eight written blocks cover the column. -/
theorem covers2_2 (i : S8192x1.Idx) : ∃ t : Fin cfg2.N, (cfg2.win 2).flush t = true ∧ i ∈ ((cfg2.win 2).blk t).view.set := by
  have hi0 : (i 0).val < 8192 := (i 0).isLt
  have hi1 : (i 1).val < 1 := (i 1).isLt
  have hN : grid2.N = 32 := N_2
  have ht : 4 * ((i 0).val / 1024) + 3 < grid2.N := by rw [hN]; omega
  obtain ⟨e0, e1, e2, e3, e4, e5⟩ := idx_facts2 ⟨4 * ((i 0).val / 1024) + 3, ht⟩
  refine ⟨⟨4 * ((i 0).val / 1024) + 3, ht⟩, (flush2_2 _).mpr (by show (4 * ((i 0).val / 1024) + 3) % 4 = 3; omega), ?_⟩
  rw [mem_blk2_2]
  intro a
  match a with
  | ⟨0, _⟩ =>
    show win2_2.index ⟨4 * ((i 0).val / 1024) + 3, ht⟩ (0 : Fin 2) * 1024 ≤ (i 0).val
      ∧ (i 0).val < win2_2.index ⟨4 * ((i 0).val / 1024) + 3, ht⟩ (0 : Fin 2) * 1024 + 1024
    rw [e4]
    show (4 * ((i 0).val / 1024) + 3) / 4 * 1024 ≤ (i 0).val ∧ (i 0).val < (4 * ((i 0).val / 1024) + 3) / 4 * 1024 + 1024
    omega
  | ⟨1, _⟩ =>
    show win2_2.index ⟨4 * ((i 0).val / 1024) + 3, ht⟩ (1 : Fin 2) * 1 ≤ (i 1).val
      ∧ (i 1).val < win2_2.index ⟨4 * ((i 0).val / 1024) + 3, ht⟩ (1 : Fin 2) * 1 + 1
    rw [e5]
    omega

/-- The call's output array ends holding that column. -/
theorem final2_fun (c : Dev nD) : (dat2 (F := Ideal) V c).arrAt 2 cfg2.N = lseCol (V c main_v2) :=
  (dat2 (F := Ideal) V c).arrAt_eq_of_cover 2 (lseCol (V c main_v2)) (fun t hf => flushed2_2_eq V c t hf) covers2_2

/-- Row `r` of the array as a function of the natural `r.val` is row `r`. -/
theorem rowOf_val (A : S8192x512.Idx → EReal) (r : Fin 8192) (k : Fin 512) : rowOf A r.val k = A (ix2 r k) := by
  unfold rowOf
  exact dif_pos r.isLt

/-- The output at row `r`, for any name `A` of the array the call reads. -/
theorem final2_of (c : Dev nD) (A : S8192x512.Idx → EReal) (hA : A = V c main_v2) (r : Fin 8192) :
    (dat2 (F := Ideal) V c).arrAt 2 cfg2.N (ix2 r 0)
      = Cert.NTXent.shift + Ideal.log (∑ j : Fin 8192, Ideal.exp ((∑ k : Fin 512, A (ix2 r k) * A (ix2 j k)) * Cert.NTXent.two - Cert.NTXent.shift)) := by
  subst hA
  rw [final2_fun]
  show Cert.NTXent.shift + Ideal.log (∑ j : Fin 8192, expLogit (V c main_v2) r.val j.val) = _
  refine congrArg (fun s => Cert.NTXent.shift + Ideal.log s) (Finset.sum_congr rfl fun j _ => ?_)
  unfold expLogit
  refine congrArg (fun s => Ideal.exp (s * Cert.NTXent.two - Cert.NTXent.shift)) (Finset.sum_congr rfl fun k _ => ?_)
  rw [rowOf_val, rowOf_val]

/-- The same with the array under its own name (the product taken in the extended reals). -/
theorem final2 (c : Dev nD) (r : Fin 8192) :
    (dat2 (F := Ideal) V c).arrAt 2 cfg2.N (ix2 r 0)
      = Cert.NTXent.shift + Ideal.log (∑ j : Fin 8192, Ideal.exp ((∑ k : Fin 512,
          @HMul.hMul EReal EReal EReal instHMul (V c main_v2 (ix2 r k)) (V c main_v2 (ix2 j k))) * Cert.NTXent.two - Cert.NTXent.shift)) :=
  final2_of V c (V c main_v2) rfl r

end Cert.KernelIdeal.Hand

end
-- ==== Proof.KernelTail.lean ====
/-
  The host's last stretch, over the extended reals: from the two scaled [4096, 512] matrices and the [8192, 1] column
  of the rows' log-sum-exps it computes minus the mean, over the 8192 stacked rows, of the row's label logit minus
  its log-sum-exp. Row `r`'s label logit is twice the inner product of stacked row `r` with stacked row `r mod 4096`:
  for `r < 4096` the first matrix's row with itself, otherwise the second's row `r − 4096` with the first's.
-/
import proofs.«163665_j75909251990177_2_alg».proof.Proof.Gen.KernelIdeal.Regions
import proofs.«163665_j75909251990177_2_alg».proof.Proof.Spec
import proofs.«163665_j75909251990177_2_alg».proof.Proof.LibRowReads
import Idealize.ShloMosaic.Lib.ValueIdx
import Idealize.ShloMosaic.Lib.Pipeline.Value
import Idealize.ShloMosaic.Lib.ValueLayout
import Idealize.ShloMosaic.Lib.StableHlo.Run
import Idealize.ShloMosaic.Lib.IdealHost
import Idealize.ShloMosaic.PureOps.Ideal.Laws

noncomputable section

namespace Cert.KernelIdeal.Tail

open Cert.KernelIdeal Cert.KernelIdeal.Gen Idealize.ShloMosaic Idealize.ShloMosaic.ValueIdx Idealize.ShloMosaic.TcCoe

/-- One half of the label logits: the rows' inner products `Σ_k x (r, k) · y (r, k)`, from zero, doubled. -/
def half (X Y : FVec Ideal S4096x512 .f32) : FVec Ideal S4096 .f32 :=
  mulf (Host.reduceAdd (F := Ideal) (mulf X Y) (constant (F := Ideal) S_ .f32 0x00000000#32) reducesTo_S4096x512_S4096_d1 h_S_)
    (broadcastInDim S4096 ![] bcast_S_S4096 (constant (F := Ideal) S_ .f32 0x40000000#32))

/-- The host's last stretch as one function of the two scaled matrices and the column of log-sum-exps: minus the
    mean over the 8192 rows of the label logit minus the row's log-sum-exp. -/
def tail (Z1 Z2 : FVec Ideal S4096x512 .f32) (LSE : FVec Ideal S8192x1 .f32) : FVec Ideal S_ .f32 :=
  Host.negf (F := Ideal) (Host.divf (F := Ideal)
    (Host.reduceAdd (F := Ideal)
      (subf (concatenate S8192 0 [⟨S4096, half Z1 Z1⟩, ⟨S4096, half Z2 Z1⟩] concatenates_S4096_S4096_S8192_d0)
        (shapeCast S8192 LSE shapeCasts_S8192x1_S8192))
      (constant (F := Ideal) S_ .f32 0x00000000#32) reducesTo_S8192_S_d0 h_S_)
    (constant (F := Ideal) S_ .f32 0x46000000#32))

theorem tail_eq (W : Valuation τ sig (Elt Ideal)) :
    StableHlo.after (hostOps3 (F := Ideal)) W (Proc.devRef .tc main_v17)
      = tail (W (Proc.devRef .tc main_v0_1)) (W (Proc.devRef .tc main_v1_1)) (W (Proc.devRef .tc main_v3)) := by
  after_results
  rfl

/-- The same at the valuation the last region leaves: the program's result is the tail of what the buffers hold then. -/
theorem V5_main_v17 (m : (ℓ : Loc nD τ sig) → Buf (Elt Ideal) ℓ) (outs : Outs (F := Ideal)) (c : Dev nD) :
    V5 (F := Ideal) m outs c main_v17
      = tail (V4 (F := Ideal) m outs c main_v0_1) (V4 (F := Ideal) m outs c main_v1_1) (V4 (F := Ideal) m outs c main_v3) :=
  tail_eq (V4 (F := Ideal) m outs c)

/-- The host's sum of an `[a, b]` matrix along its last axis, read at row `r`: the initial value plus the row's sum. -/
theorem hostRowSum_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd (F := Ideal) x init h' hu (ix1 r) = init (Shape.Idx.first hu) + ∑ k : Fin b, x (ix2 r k) := by
  show Ideal.hostReduceAdd h' x (init (Shape.Idx.first hu)) (ix1 r) = _
  rw [Ideal.hostReduceAdd_single h' h]
  exact congrArg (init (Shape.Idx.first hu) + ·) (Finset.sum_congr rfl fun k _ => congrArg x (Cert.RowReads.lift_last h r k))

theorem reduces_S4096x512_S4096 : S4096x512.Reduces [1] S4096 := by decide

/-- A rank-1 index set is its one coordinate's range … -/
def idxEquiv1 {n : Nat} : (⟨1, ![n]⟩ : Shape).Idx ≃ Fin n where
  toFun j := j 0
  invFun r := ix1 r
  left_inv j := (eq_ix1 j).symm
  right_inv _ := rfl
/-- … so a sum over it is the sum over the coordinate. -/
theorem sum_idx1 {M : Type*} [AddCommMonoid M] {n : Nat} (f : (⟨1, ![n]⟩ : Shape).Idx → M) :
    ∑ j, f j = ∑ r : Fin n, f (ix1 r) := by
  rw [← Equiv.sum_comp (idxEquiv1 (n := n)).symm f]
  rfl

/-- Row `r` of a half: the inner product of the two rows, doubled. -/
theorem half_apply (X Y : FVec Ideal S4096x512 .f32) (r : Fin 4096) :
    half X Y (ix1 r) = (∑ k : Fin 512, X (ix2 r k) * Y (ix2 r k)) * Cert.NTXent.two := by
  unfold half
  show Host.reduceAdd (F := Ideal) (mulf X Y) (constant (F := Ideal) S_ .f32 0x00000000#32) reducesTo_S4096x512_S4096_d1 h_S_ (ix1 r)
      * broadcastInDim S4096 ![] bcast_S_S4096 (constant (F := Ideal) S_ .f32 0x40000000#32) (ix1 r) = _
  rw [hostRowSum_apply (a := 4096) (b := 512) (mulf X Y) _ reducesTo_S4096x512_S4096_d1 reduces_S4096x512_S4096 h_S_ r,
    broadcastInDim_apply ![] bcast_S_S4096 _ (ix1 r) ix0 (fun a => a.elim0)]
  show (Ideal.ofBits .f32 0x00000000#32 + _) * _ = _
  rw [Ideal.ofBits_zero_f32, zero_add]
  rfl

/-- The column of log-sum-exps flattened reads, at `r`, the column at `(r, 0)`. -/
theorem flat_apply (LSE : FVec Ideal S8192x1 .f32) (r : Fin 8192) :
    shapeCast S8192 LSE shapeCasts_S8192x1_S8192 (ix1 r) = LSE (ix2 r 0) :=
  shapeCast_apply LSE shapeCasts_S8192x1_S8192 (ix1 r) (ix2 r 0) (by
    rw [Shape.rowMajor_val_two, Shape.rowMajor_val_one]
    show r.val * 1 + 0 = r.val
    omega)

/-- The two halves one after the other: rows below 4096 read the first, the others the second. -/
theorem cat_apply_lt (A B : FVec Ideal S4096 .f32) (r : Fin 8192) (h : r.val < 4096) :
    concatenate S8192 0 [⟨S4096, A⟩, ⟨S4096, B⟩] concatenates_S4096_S4096_S8192_d0 (ix1 r) = A (ix1 ⟨r.val, h⟩) :=
  concatenate_pair_apply_left 0 A B concatenates_S4096_S4096_S8192_d0 (ix1 r) rfl (ix1 ⟨r.val, h⟩)
    (fun b => match b with | ⟨0, _⟩ => rfl)

theorem cat_apply_ge (A B : FVec Ideal S4096 .f32) (r : Fin 8192) (h : ¬ r.val < 4096) :
    concatenate S8192 0 [⟨S4096, A⟩, ⟨S4096, B⟩] concatenates_S4096_S4096_S8192_d0 (ix1 r)
      = B (ix1 ⟨r.val - 4096, by have := r.isLt; omega⟩) :=
  concatenate_pair_apply_right 0 A B concatenates_S4096_S4096_S8192_d0 (ix1 r) rfl rfl (ix1 ⟨r.val - 4096, by have := r.isLt; omega⟩)
    (fun b hb => match b, hb with | ⟨0, _⟩, hb => absurd rfl hb)
    (by show r.val - 4096 + 4096 = r.val; omega)

/-- The label logit of row `r`, doubled inner product of the stacked row with its label's row. -/
theorem cat_apply (Z1 Z2 : FVec Ideal S4096x512 .f32) (r : Fin 8192) :
    concatenate S8192 0 [⟨S4096, half Z1 Z1⟩, ⟨S4096, half Z2 Z1⟩] concatenates_S4096_S4096_S8192_d0 (ix1 r)
      = (∑ k : Fin 512, Cert.NTXent.stack (fun a b => Z1 (ix2 a b)) (fun a b => Z2 (ix2 a b)) r k
          * Cert.NTXent.stack (fun a b => Z1 (ix2 a b)) (fun a b => Z2 (ix2 a b)) (Cert.NTXent.lab r) k) * Cert.NTXent.two := by
  have hr := r.isLt
  by_cases h : r.val < 4096
  · rw [cat_apply_lt _ _ r h, half_apply]
    have hl : ((Cert.NTXent.lab r).val < 4096) := Nat.mod_lt _ (by norm_num)
    have e : (⟨(Cert.NTXent.lab r).val, hl⟩ : Fin 4096) = ⟨r.val, h⟩ := Fin.ext (Nat.mod_eq_of_lt h)
    unfold Cert.NTXent.stack
    simp only [dif_pos h, dif_pos hl, e]
  · rw [cat_apply_ge _ _ r h, half_apply]
    have hl : ((Cert.NTXent.lab r).val < 4096) := Nat.mod_lt _ (by norm_num)
    have e : (⟨(Cert.NTXent.lab r).val, hl⟩ : Fin 4096) = ⟨r.val - 4096, by omega⟩ := Fin.ext (by
      show r.val % 4096 = r.val - 4096
      omega)
    unfold Cert.NTXent.stack
    simp only [dif_neg h, dif_pos hl, e]

theorem tail_apply (Z1 Z2 : FVec Ideal S4096x512 .f32) (LSE : FVec Ideal S8192x1 .f32) (i : S_.Idx) :
    tail Z1 Z2 LSE i = -(Ideal.div (∑ r : Fin 8192, ((∑ k : Fin 512, Cert.NTXent.stack (fun a b => Z1 (ix2 a b)) (fun a b => Z2 (ix2 a b)) r k
        * Cert.NTXent.stack (fun a b => Z1 (ix2 a b)) (fun a b => Z2 (ix2 a b)) (Cert.NTXent.lab r) k) * Cert.NTXent.two
        - LSE (ix2 r 0))) Cert.NTXent.cnt) := by
  unfold tail
  show -(Ideal.div (Ideal.hostReduceAdd reducesTo_S8192_S_d0 _ (Ideal.ofBits .f32 0x00000000#32) i) (Ideal.ofBits .f32 0x46000000#32)) = _
  rw [Ideal.hostReduceAdd_total reducesTo_S8192_S_d0 (fun b => b.elim0), Ideal.ofBits_zero_f32, zero_add, sum_idx1]
  refine congrArg (fun s => -(Ideal.div s Cert.NTXent.cnt)) (Finset.sum_congr rfl fun r _ => ?_)
  exact congrArg₂ (· - ·) (cat_apply Z1 Z2 r) (flat_apply LSE r)

end Cert.KernelIdeal.Tail

end
-- ==== Proof.KernelLoss.lean ====
/-
  The kernel side's result as the loss `kerLoss`: a stacked row of scaled rows is the scaled stacked row; hence, once
  the two scaled matrices, their stack and the column of log-sum-exps are what the specification names, the host's
  last stretch — minus the mean over the rows of twice the inner product of the row with its label's row, less the
  row's log-sum-exp — is `kerLoss` of the two argument matrices.
-/
import proofs.«163665_j75909251990177_2_alg».proof.Proof.KernelTail
import proofs.«163665_j75909251990177_2_alg».proof.Proof.Spec
import Idealize.ShloMosaic.Lib.ValueIdx
import Idealize.ShloMosaic.Lib.Pipeline.Value
import Idealize.ShloMosaic.PureOps.Ideal.Laws

noncomputable section

namespace Cert.KernelIdeal.Loss

open Cert.KernelIdeal Cert.KernelIdeal.Gen Idealize.ShloMosaic Idealize.ShloMosaic.ValueIdx
open Cert.NTXent

/-- The two matrices laid one above the other, read at row `r`, column `k`. -/
theorem concat_at (Y1 Y2 : FVec Ideal S4096x512 .bf16) (r : Fin 8192) (k : Fin 512) :
    (concatenate S8192x512 0 [⟨S4096x512, Y1⟩, ⟨S4096x512, Y2⟩] concatenates_S4096x512_S4096x512_S8192x512_d0 :
        FVec Ideal S8192x512 .bf16) (ix2 r k)
      = stack (fun a b => Y1 (ix2 a b)) (fun a b => Y2 (ix2 a b)) r k := by
  unfold stack
  by_cases h : r.val < 4096
  · rw [dif_pos h]
    exact concatenate_pair_apply_left 0 Y1 Y2 concatenates_S4096x512_S4096x512_S8192x512_d0 (ix2 r k) rfl
      (ix2 ⟨r.val, h⟩ k) (fun b => by match b with | ⟨0, _⟩ => rfl | ⟨1, _⟩ => rfl)
  · rw [dif_neg h]
    exact concatenate_pair_apply_right 0 Y1 Y2 concatenates_S4096x512_S4096x512_S8192x512_d0 (ix2 r k) rfl rfl
      (ix2 ⟨r.val - 4096, by omega⟩ k)
      (fun b hb => by
        match b, hb with
        | ⟨0, _⟩, hb => exact absurd rfl hb
        | ⟨1, _⟩, _ => rfl)
      (by show r.val - 4096 + 4096 = r.val; omega)

/-- A stacked row of scaled rows is the scaled stacked row. -/
theorem stack_unit (x1 x2 Y1 Y2 : Fin 4096 → Fin 512 → EReal) (h1 : ∀ a b, Y1 a b = unitRow (x1 a) b)
    (h2 : ∀ a b, Y2 a b = unitRow (x2 a) b) (r : Fin 8192) (k : Fin 512) :
    stack Y1 Y2 r k = U x1 x2 r k := by
  unfold U stack
  by_cases h : r.val < 4096
  · simp only [dif_pos h]
    exact h1 _ _
  · simp only [dif_neg h]
    exact h2 _ _

/-- The host's last stretch is `kerLoss`, given that the two matrices hold the scaled rows, the stack `Q` the scaled
    stacked rows, and the column `LSE` each row's shift plus the log of its sum of shifted exponentials. -/
theorem kerLoss_of (x1 x2 : Fin 4096 → Fin 512 → EReal) (Z1 Z2 : FVec Ideal S4096x512 .f32)
    (Q : FVec Ideal S8192x512 .bf16) (LSE : FVec Ideal S8192x1 .f32)
    (hZ1 : ∀ a b, Z1 (ix2 a b) = unitRow (x1 a) b) (hZ2 : ∀ a b, Z2 (ix2 a b) = unitRow (x2 a) b)
    (hQ : ∀ r k, Q (ix2 r k) = U x1 x2 r k)
    (hL : ∀ r : Fin 8192, LSE (ix2 r 0) = shift + Ideal.log (∑ j : Fin 8192,
      Ideal.exp ((∑ k : Fin 512, Q (ix2 r k) * Q (ix2 j k)) * two - shift)))
    (i : S_.Idx) :
    Cert.KernelIdeal.Tail.tail Z1 Z2 LSE i = kerLoss x1 x2 := by
  rw [Cert.KernelIdeal.Tail.tail_apply]
  unfold kerLoss
  refine congrArg (fun s => -(Ideal.div s cnt)) (Finset.sum_congr rfl fun r _ => ?_)
  have hs : ∀ (r : Fin 8192) (k : Fin 512),
      stack (fun a b => Z1 (ix2 a b)) (fun a b => Z2 (ix2 a b)) r k = U x1 x2 r k :=
    fun r k => stack_unit x1 x2 _ _ (fun a b => hZ1 a b) (fun a b => hZ2 a b) r k
  have hg : (∑ k : Fin 512, stack (fun a b => Z1 (ix2 a b)) (fun a b => Z2 (ix2 a b)) r k
      * stack (fun a b => Z1 (ix2 a b)) (fun a b => Z2 (ix2 a b)) (lab r) k) = gram x1 x2 r (lab r) := by
    unfold gram
    exact Finset.sum_congr rfl fun k _ => by rw [hs, hs]
  have hq : ∀ j : Fin 8192, (∑ k : Fin 512, Q (ix2 r k) * Q (ix2 j k)) = gram x1 x2 r j := fun j => by
    unfold gram
    exact Finset.sum_congr rfl fun k _ => by rw [hQ, hQ]
  rw [hg, hL r]
  simp only [hq]

end Cert.KernelIdeal.Loss

end
-- ==== Proof.KernelValueI.lean ====
/-
  The idealized kernel's result as a function of its arguments.

  The result buffer ends at the last stretch of host operations applied to three arrays: the two single-precision
  normalized matrices and the log-sum-exp column.  Each normalized matrix is, row by row, the argument's row divided by
  the larger of its norm and the floor; the concatenated half-precision matrix the log-sum-exp call reads holds the same
  extended reals, stacked; the log-sum-exp column holds, per row, the fixed shift plus the log of the row's sum of
  exponentials of shifted doubled inner products.  Put together this is the loss in its fixed-shift arrangement.
-/
import proofs.«163665_j75909251990177_2_alg».proof.Proof.KRunI
import proofs.«163665_j75909251990177_2_alg».proof.Proof.NormArrays
import proofs.«163665_j75909251990177_2_alg».proof.Proof.LseArray
import proofs.«163665_j75909251990177_2_alg».proof.Proof.KernelLoss

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The two argument matrices by coordinates. -/
abbrev X0 (c : Dev nD) : Fin 4096 → Fin 512 → EReal := fun a b => m ((c : Thread nD τ).loc main_arg0) (ix2 a b)
abbrev X1 (c : Dev nD) : Fin 4096 → Fin 512 → EReal := fun a b => m ((c : Thread nD τ).loc main_arg1) (ix2 a b)

/-- The first call's single-precision output, as the last stretch finds it: the first argument's rows scaled. -/
theorem z1_at (c : Dev nD) (a : Fin 4096) (b : Fin 512) :
    W4 (F := Ideal) m ρ c main_v0_1 (ix2 a b) = Cert.NTXent.unitRow (X0 m c a) b := by
  have e : W4 (F := Ideal) m ρ c main_v0_1 = (dat0 (VA m ρ) c).arrAt 2 cfg0.N :=
    (W4_of_ne m ρ c main_v0_1 (by decide)).trans
      ((StableHlo.after_of_writes_sub hostOps2 _ hostOps2_writes (by decide)).trans
        ((W2_of_ne m ρ c main_v0_1 (by decide)).trans (W1_arr m ρ c 2)))
  rw [e]; exact final0_2 (VA m ρ) c a b

/-- The second call's single-precision output: the second argument's rows scaled. -/
theorem z2_at (c : Dev nD) (a : Fin 4096) (b : Fin 512) :
    W4 (F := Ideal) m ρ c main_v1_1 (ix2 a b) = Cert.NTXent.unitRow (X1 m c a) b := by
  have e : W4 (F := Ideal) m ρ c main_v1_1 = (dat1 (VB m ρ) c).arrAt 2 cfg1.N :=
    (W4_of_ne m ρ c main_v1_1 (by decide)).trans
      ((StableHlo.after_of_writes_sub hostOps2 _ hostOps2_writes (by decide)).trans (W2_arr m ρ c 2))
  rw [e, final1_2 (VB m ρ) c a b]
  have harg : VB (F := Ideal) m ρ c main_arg1 = m ((c : Thread nD τ).loc main_arg1) := W1_of_ne m ρ c main_arg1 (by decide)
  rw [harg]

/-- The half-precision outputs hold the same extended reals. -/
theorem y1_at (c : Dev nD) (a : Fin 4096) (b : Fin 512) :
    W2 (F := Ideal) m ρ c main_v0_0 (ix2 a b) = Cert.NTXent.unitRow (X0 m c a) b := by
  have e : W2 (F := Ideal) m ρ c main_v0_0 = (dat0 (VA m ρ) c).arrAt 1 cfg0.N :=
    (W2_of_ne m ρ c main_v0_0 (by decide)).trans (W1_arr m ρ c 1)
  rw [e]; exact final0_1 (VA m ρ) c a b
theorem y2_at (c : Dev nD) (a : Fin 4096) (b : Fin 512) :
    W2 (F := Ideal) m ρ c main_v1_0 (ix2 a b) = Cert.NTXent.unitRow (X1 m c a) b := by
  have e : W2 (F := Ideal) m ρ c main_v1_0 = (dat1 (VB m ρ) c).arrAt 1 cfg1.N := W2_arr m ρ c 1
  rw [e, final1_1 (VB m ρ) c a b]
  have harg : VB (F := Ideal) m ρ c main_arg1 = m ((c : Thread nD τ).loc main_arg1) := W1_of_ne m ρ c main_arg1 (by decide)
  rw [harg]

/-- The concatenated half-precision matrix, as the log-sum-exp call finds it. -/
abbrev Qm (c : Dev nD) : S8192x512.Idx → EReal := VD (F := Ideal) m ρ c main_v2

/-- It holds the scaled rows of the stacked arguments. -/
theorem q_at (c : Dev nD) (r : Fin 8192) (k : Fin 512) :
    Qm m ρ c (ix2 r k) = Cert.NTXent.U (X0 m c) (X1 m c) r k := by
  show VD (F := Ideal) m ρ c main_v2 (ix2 r k) = _
  have e : VD (F := Ideal) m ρ c main_v2
      = (concatenate S8192x512 0 [⟨S4096x512, W2 (F := Ideal) m ρ c main_v0_0⟩, ⟨S4096x512, W2 (F := Ideal) m ρ c main_v1_0⟩]
          concatenates_S4096x512_S4096x512_S8192x512_d0 : FVec Ideal S8192x512 .bf16) := by
    show StableHlo.after (hostOps2 (F := Ideal)) (W2 m ρ c) (Proc.devRef .tc main_v2) = _
    after_results
  rw [e, Cert.KernelIdeal.Loss.concat_at]
  exact Cert.KernelIdeal.Loss.stack_unit (X0 m c) (X1 m c) _ _ (fun a b => y1_at m ρ c a b) (fun a b => y2_at m ρ c a b) r k

/-- The log-sum-exp column. -/
theorem lse_at (c : Dev nD) (r : Fin 8192) :
    W4 (F := Ideal) m ρ c main_v3 (ix2 r 0) = Cert.NTXent.shift + Ideal.log (∑ j : Fin 8192, Ideal.exp
      ((∑ k : Fin 512, Qm m ρ c (ix2 r k) * Qm m ρ c (ix2 j k)) * Cert.NTXent.two - Cert.NTXent.shift)) := by
  rw [W4_main_v3]; exact final2_of (VD m ρ) c (Qm m ρ c) rfl r

/-- THE KERNEL'S VALUE: the result buffer ends at the loss in its fixed-shift arrangement. -/
theorem kernel_value (c : Dev nD) (i : S_.Idx) :
    W5 (F := Ideal) m ρ c main_v17 i = Cert.NTXent.kerLoss (X0 m c) (X1 m c) := by
  have e : W5 (F := Ideal) m ρ c main_v17
      = Cert.KernelIdeal.Tail.tail (W4 (F := Ideal) m ρ c main_v0_1) (W4 (F := Ideal) m ρ c main_v1_1) (W4 (F := Ideal) m ρ c main_v3) :=
    Cert.KernelIdeal.Tail.tail_eq (W4 m ρ c)
  rw [e]
  exact Cert.KernelIdeal.Loss.kerLoss_of (X0 m c) (X1 m c) _ _ (Qm m ρ c) _
    (z1_at m ρ c) (z2_at m ρ c) (q_at m ρ c) (lse_at m ρ c) i

end Cert.KernelIdeal.Hand

end
-- ==== Proof.RefRun.lean ====
/-
  The reference program's run, one operation at a time.

  The program is a list of 58 operations, each writing one buffer as a function of buffers written before it.
  Walking the list from the launch contents, the contents of every buffer a later operation still reads is the
  value named for it: the operation's function applied to the values named for its operands.  After the last
  operation the result buffer holds the value named for it, and the two argument buffers, which no operation
  writes, hold what they held at launch.
-/
import proofs.«163665_j75909251990177_2_alg».proof.Proof.RefRunP
import proofs.«163665_j75909251990177_2_alg».proof.Proof.RefReadP
import Idealize.ShloMosaic.Lib.StableHlo.Run

noncomputable section

namespace Cert.ReferenceIdeal.RunByStages

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- What the walk ends with: the result buffer at its named value, the argument buffers unchanged. -/
def Final (W : Valuation τ sig (Elt F)) (x0 x1 : (⟨S4096x512, .f32⟩ : BufTy).Contents (Elt F)) : Prop :=
  W (Proc.devRef .tc main_v31) = ReadP.val_main_v31 (F := F) x0 x1
    ∧ W (Proc.devRef .tc main_arg0) = x0 ∧ W (Proc.devRef .tc main_arg1) = x1

/-- One operation of the list: the contents after it, under a name. -/
theorem Final.step {op : HloOp τ sig (Elt F)} {rest : List (HloOp τ sig (Elt F))} {W : Valuation τ sig (Elt F)}
    {x0 x1 : (⟨S4096x512, .f32⟩ : BufTy).Contents (Elt F)}
    (k : ∀ W' : Valuation τ sig (Elt F), W' = op.result W → Final (after rest W') x0 x1) :
    Final (after (op :: rest) W) x0 x1 := k _ rfl

/-! ### One operation: its result buffer takes its function's value, every other buffer keeps its contents -/

section Steps

variable {W W' : Valuation τ sig (Elt F)}

theorem nullary_step {y : Ref sig .tc} {v : y.ty.Contents (Elt F)} {hy}
    (hW : W' = (nullary y v hy : HloOp τ sig (Elt F)).result W) : W' (Proc.devRef .tc y) = v := by
  rw [hW, nullary_result]

theorem unary_step {x y : Ref sig .tc} {f : x.ty.Contents (Elt F) → y.ty.Contents (Elt F)} {hx hy}
    {vx : x.ty.Contents (Elt F)}
    (hW : W' = (unary x y f hx hy : HloOp τ sig (Elt F)).result W) (ex : W (Proc.devRef .tc x) = vx) :
    W' (Proc.devRef .tc y) = f vx := by
  rw [hW, unary_result, ex]

theorem binary_step {a b y : Ref sig .tc} {f : a.ty.Contents (Elt F) → b.ty.Contents (Elt F) → y.ty.Contents (Elt F)}
    {ha hb hy} {va : a.ty.Contents (Elt F)} {vb : b.ty.Contents (Elt F)}
    (hW : W' = (binary a b y f ha hb hy : HloOp τ sig (Elt F)).result W)
    (ea : W (Proc.devRef .tc a) = va) (eb : W (Proc.devRef .tc b) = vb) :
    W' (Proc.devRef .tc y) = f va vb := by
  rw [hW, binary_result, ea, eb]

theorem ternary_step {c a b y : Ref sig .tc}
    {f : c.ty.Contents (Elt F) → a.ty.Contents (Elt F) → b.ty.Contents (Elt F) → y.ty.Contents (Elt F)}
    {hc ha hb hy} {vc : c.ty.Contents (Elt F)} {va : a.ty.Contents (Elt F)} {vb : b.ty.Contents (Elt F)}
    (hW : W' = (ternary c a b y f hc ha hb hy : HloOp τ sig (Elt F)).result W)
    (ec : W (Proc.devRef .tc c) = vc) (ea : W (Proc.devRef .tc a) = va) (eb : W (Proc.devRef .tc b) = vb) :
    W' (Proc.devRef .tc y) = f vc va vb := by
  rw [hW, ternary_result, ec, ea, eb]

theorem nullary_keep {y : Ref sig .tc} {v : y.ty.Contents (Elt F)} {hy}
    (hW : W' = (nullary y v hy : HloOp τ sig (Elt F)).result W) {r : Ref sig .tc} (h : r ≠ y)
    {w : (Proc.devRef (τ := τ) .tc r).ty.Contents (Elt F)} (e : W (Proc.devRef .tc r) = w) : W' (Proc.devRef .tc r) = w := by
  rw [hW, nullary_result_ne _ _ _ _ h]; exact e

theorem unary_keep {x y : Ref sig .tc} {f : x.ty.Contents (Elt F) → y.ty.Contents (Elt F)} {hx hy}
    (hW : W' = (unary x y f hx hy : HloOp τ sig (Elt F)).result W) {r : Ref sig .tc} (h : r ≠ y)
    {w : (Proc.devRef (τ := τ) .tc r).ty.Contents (Elt F)} (e : W (Proc.devRef .tc r) = w) : W' (Proc.devRef .tc r) = w := by
  rw [hW, unary_result_ne _ _ _ _ _ _ h]; exact e

theorem binary_keep {a b y : Ref sig .tc} {f : a.ty.Contents (Elt F) → b.ty.Contents (Elt F) → y.ty.Contents (Elt F)}
    {ha hb hy}
    (hW : W' = (binary a b y f ha hb hy : HloOp τ sig (Elt F)).result W) {r : Ref sig .tc} (h : r ≠ y)
    {w : (Proc.devRef (τ := τ) .tc r).ty.Contents (Elt F)} (e : W (Proc.devRef .tc r) = w) : W' (Proc.devRef .tc r) = w := by
  rw [hW, binary_result_ne _ _ _ _ _ _ _ _ h]; exact e

theorem ternary_keep {c a b y : Ref sig .tc}
    {f : c.ty.Contents (Elt F) → a.ty.Contents (Elt F) → b.ty.Contents (Elt F) → y.ty.Contents (Elt F)}
    {hc ha hb hy}
    (hW : W' = (ternary c a b y f hc ha hb hy : HloOp τ sig (Elt F)).result W) {r : Ref sig .tc} (h : r ≠ y)
    {w : (Proc.devRef (τ := τ) .tc r).ty.Contents (Elt F)} (e : W (Proc.devRef .tc r) = w) : W' (Proc.devRef .tc r) = w := by
  rw [hW, ternary_result_ne _ _ _ _ _ _ _ _ _ _ h]; exact e

/-! The same for an operation over typed references: the value is stated at the carried type, the transport
    to and from the buffer's own type cancels. -/

theorem tnullary_step {Ty : BufTy} {y : TRef sig Ty} {v : Ty.Contents (Elt F)}
    (hW : W' = (TRef.nullary y v : HloOp τ sig (Elt F)).result W) : y.ofBuf (W' (Proc.devRef .tc y.ref)) = v := by
  subst hW
  show y.ofBuf ((nullary y.ref (y.toBuf v) y.dev : HloOp τ sig (Elt F)).result W (Proc.devRef .tc y.ref)) = _
  rw [nullary_result]
  simp only [TRef.ofBuf, TRef.toBuf, cast_cast, cast_eq]

theorem tunary_step {Tx Ty : BufTy} {x : TRef sig Tx} {y : TRef sig Ty} {g : Tx.Contents (Elt F) → Ty.Contents (Elt F)}
    {vx : Tx.Contents (Elt F)}
    (hW : W' = (TRef.unary x y g : HloOp τ sig (Elt F)).result W) (ex : x.ofBuf (W (Proc.devRef .tc x.ref)) = vx) :
    y.ofBuf (W' (Proc.devRef .tc y.ref)) = g vx := by
  subst hW ex
  show y.ofBuf ((unary x.ref y.ref (fun u => y.toBuf (g (x.ofBuf u))) x.dev y.dev : HloOp τ sig (Elt F)).result W
    (Proc.devRef .tc y.ref)) = _
  rw [unary_result]
  simp only [TRef.ofBuf, TRef.toBuf, cast_cast, cast_eq]

theorem tbinary_step {Ta Tb Ty : BufTy} {a : TRef sig Ta} {b : TRef sig Tb} {y : TRef sig Ty}
    {g : Ta.Contents (Elt F) → Tb.Contents (Elt F) → Ty.Contents (Elt F)}
    {va : Ta.Contents (Elt F)} {vb : Tb.Contents (Elt F)}
    (hW : W' = (TRef.binary a b y g : HloOp τ sig (Elt F)).result W)
    (ea : a.ofBuf (W (Proc.devRef .tc a.ref)) = va) (eb : b.ofBuf (W (Proc.devRef .tc b.ref)) = vb) :
    y.ofBuf (W' (Proc.devRef .tc y.ref)) = g va vb := by
  subst hW ea eb
  show y.ofBuf ((binary a.ref b.ref y.ref (fun u v => y.toBuf (g (a.ofBuf u) (b.ofBuf v))) a.dev b.dev y.dev :
    HloOp τ sig (Elt F)).result W (Proc.devRef .tc y.ref)) = _
  rw [binary_result]
  simp only [TRef.ofBuf, TRef.toBuf, cast_cast, cast_eq]

end Steps

/-! ### The walk -/

/-- From any contents with the argument buffers at x0 and x1, after the 58 operations the result buffer holds its
    named value of x0 and x1 and the argument buffers still hold x0 and x1. -/
theorem final_after (V : Valuation τ sig (Elt F)) (x0 x1 : (⟨S4096x512, .f32⟩ : BufTy).Contents (Elt F))
    (e0_main_arg0 : V (Proc.devRef .tc main_arg0) = x0) (e0_main_arg1 : V (Proc.devRef .tc main_arg1) = x1) :
    Final (after (ops (F := F)) V) x0 x1 := by
  unfold ops
  -- 1: main_v0
  refine Final.step fun W1 hW => ?_
  have e1_main_v0 : W1 (Proc.devRef .tc main_v0) = ReadP.val_main_v0 (F := F) x0 x1 := by
    have t := binary_step hW e0_main_arg0 e0_main_arg1
    exact t
  have e1_main_arg0 : W1 (Proc.devRef .tc main_arg0) = x0 := binary_keep hW (by decide) e0_main_arg0
  have e1_main_arg1 : W1 (Proc.devRef .tc main_arg1) = x1 := binary_keep hW (by decide) e0_main_arg1
  clear hW e0_main_arg0 e0_main_arg1
  -- 2: main_call0_v0
  refine Final.step fun W2 hW => ?_
  have e2_main_call0_v0 : W2 (Proc.devRef .tc main_call0_v0) = ReadP.val_main_call0_v0 (F := F) x0 x1 := by
    have t := tbinary_step hW e1_main_v0 e1_main_v0
    exact t
  have e2_main_arg0 : W2 (Proc.devRef .tc main_arg0) = x0 := binary_keep hW (by decide) e1_main_arg0
  have e2_main_arg1 : W2 (Proc.devRef .tc main_arg1) = x1 := binary_keep hW (by decide) e1_main_arg1
  have e2_main_v0 : W2 (Proc.devRef .tc main_v0) = ReadP.val_main_v0 (F := F) x0 x1 := binary_keep hW (by decide) e1_main_v0
  clear hW e1_main_arg0 e1_main_arg1 e1_main_v0 W1
  -- 3: main_call0_cst
  refine Final.step fun W3 hW => ?_
  have e3_main_call0_cst : W3 (Proc.devRef .tc main_call0_cst) = ReadP.val_main_call0_cst (F := F) := by
    have t := tnullary_step hW
    exact t
  have e3_main_arg0 : W3 (Proc.devRef .tc main_arg0) = x0 := nullary_keep hW (by decide) e2_main_arg0
  have e3_main_arg1 : W3 (Proc.devRef .tc main_arg1) = x1 := nullary_keep hW (by decide) e2_main_arg1
  have e3_main_v0 : W3 (Proc.devRef .tc main_v0) = ReadP.val_main_v0 (F := F) x0 x1 := nullary_keep hW (by decide) e2_main_v0
  have e3_main_call0_v0 : W3 (Proc.devRef .tc main_call0_v0) = ReadP.val_main_call0_v0 (F := F) x0 x1 := nullary_keep hW (by decide) e2_main_call0_v0
  clear hW e2_main_arg0 e2_main_arg1 e2_main_v0 e2_main_call0_v0 W2
  -- 4: main_call0_v1
  refine Final.step fun W4 hW => ?_
  have e4_main_call0_v1 : W4 (Proc.devRef .tc main_call0_v1) = ReadP.val_main_call0_v1 (F := F) x0 x1 := by
    have t := tbinary_step hW e3_main_call0_v0 e3_main_call0_cst
    exact t
  have e4_main_arg0 : W4 (Proc.devRef .tc main_arg0) = x0 := binary_keep hW (by decide) e3_main_arg0
  have e4_main_arg1 : W4 (Proc.devRef .tc main_arg1) = x1 := binary_keep hW (by decide) e3_main_arg1
  have e4_main_v0 : W4 (Proc.devRef .tc main_v0) = ReadP.val_main_v0 (F := F) x0 x1 := binary_keep hW (by decide) e3_main_v0
  clear hW e3_main_arg0 e3_main_arg1 e3_main_v0 e3_main_call0_v0 e3_main_call0_cst W3
  -- 5: main_call0_v2
  refine Final.step fun W5 hW => ?_
  have e5_main_call0_v2 : W5 (Proc.devRef .tc main_call0_v2) = ReadP.val_main_call0_v2 (F := F) x0 x1 := by
    have t := tunary_step hW e4_main_call0_v1
    exact t
  have e5_main_arg0 : W5 (Proc.devRef .tc main_arg0) = x0 := unary_keep hW (by decide) e4_main_arg0
  have e5_main_arg1 : W5 (Proc.devRef .tc main_arg1) = x1 := unary_keep hW (by decide) e4_main_arg1
  have e5_main_v0 : W5 (Proc.devRef .tc main_v0) = ReadP.val_main_v0 (F := F) x0 x1 := unary_keep hW (by decide) e4_main_v0
  clear hW e4_main_arg0 e4_main_arg1 e4_main_v0 e4_main_call0_v1 W4
  -- 6: main_v1
  refine Final.step fun W6 hW => ?_
  have e6_main_v1 : W6 (Proc.devRef .tc main_v1) = ReadP.val_main_v1 (F := F) x0 x1 := by
    have t := tunary_step hW e5_main_call0_v2
    exact t
  have e6_main_arg0 : W6 (Proc.devRef .tc main_arg0) = x0 := unary_keep hW (by decide) e5_main_arg0
  have e6_main_arg1 : W6 (Proc.devRef .tc main_arg1) = x1 := unary_keep hW (by decide) e5_main_arg1
  have e6_main_v0 : W6 (Proc.devRef .tc main_v0) = ReadP.val_main_v0 (F := F) x0 x1 := unary_keep hW (by decide) e5_main_v0
  clear hW e5_main_arg0 e5_main_arg1 e5_main_v0 e5_main_call0_v2 W5
  -- 7: main_cst
  refine Final.step fun W7 hW => ?_
  have e7_main_cst : W7 (Proc.devRef .tc main_cst) = ReadP.val_main_cst (F := F) := by
    have t := nullary_step hW
    exact t
  have e7_main_arg0 : W7 (Proc.devRef .tc main_arg0) = x0 := nullary_keep hW (by decide) e6_main_arg0
  have e7_main_arg1 : W7 (Proc.devRef .tc main_arg1) = x1 := nullary_keep hW (by decide) e6_main_arg1
  have e7_main_v0 : W7 (Proc.devRef .tc main_v0) = ReadP.val_main_v0 (F := F) x0 x1 := nullary_keep hW (by decide) e6_main_v0
  have e7_main_v1 : W7 (Proc.devRef .tc main_v1) = ReadP.val_main_v1 (F := F) x0 x1 := nullary_keep hW (by decide) e6_main_v1
  clear hW e6_main_arg0 e6_main_arg1 e6_main_v0 e6_main_v1 W6
  -- 8: main_v2
  refine Final.step fun W8 hW => ?_
  have e8_main_v2 : W8 (Proc.devRef .tc main_v2) = ReadP.val_main_v2 (F := F) := by
    have t := unary_step hW e7_main_cst
    exact t
  have e8_main_arg0 : W8 (Proc.devRef .tc main_arg0) = x0 := unary_keep hW (by decide) e7_main_arg0
  have e8_main_arg1 : W8 (Proc.devRef .tc main_arg1) = x1 := unary_keep hW (by decide) e7_main_arg1
  have e8_main_v0 : W8 (Proc.devRef .tc main_v0) = ReadP.val_main_v0 (F := F) x0 x1 := unary_keep hW (by decide) e7_main_v0
  have e8_main_v1 : W8 (Proc.devRef .tc main_v1) = ReadP.val_main_v1 (F := F) x0 x1 := unary_keep hW (by decide) e7_main_v1
  clear hW e7_main_arg0 e7_main_arg1 e7_main_v0 e7_main_v1 e7_main_cst W7
  -- 9: main_v3
  refine Final.step fun W9 hW => ?_
  have e9_main_v3 : W9 (Proc.devRef .tc main_v3) = ReadP.val_main_v3 (F := F) x0 x1 := by
    have t := binary_step hW e8_main_v1 e8_main_v2
    exact t
  have e9_main_arg0 : W9 (Proc.devRef .tc main_arg0) = x0 := binary_keep hW (by decide) e8_main_arg0
  have e9_main_arg1 : W9 (Proc.devRef .tc main_arg1) = x1 := binary_keep hW (by decide) e8_main_arg1
  have e9_main_v0 : W9 (Proc.devRef .tc main_v0) = ReadP.val_main_v0 (F := F) x0 x1 := binary_keep hW (by decide) e8_main_v0
  clear hW e8_main_arg0 e8_main_arg1 e8_main_v0 e8_main_v1 e8_main_v2 W8
  -- 10: main_v4
  refine Final.step fun W10 hW => ?_
  have e10_main_v4 : W10 (Proc.devRef .tc main_v4) = ReadP.val_main_v4 (F := F) x0 x1 := by
    have t := unary_step hW e9_main_v3
    exact t
  have e10_main_arg0 : W10 (Proc.devRef .tc main_arg0) = x0 := unary_keep hW (by decide) e9_main_arg0
  have e10_main_arg1 : W10 (Proc.devRef .tc main_arg1) = x1 := unary_keep hW (by decide) e9_main_arg1
  have e10_main_v0 : W10 (Proc.devRef .tc main_v0) = ReadP.val_main_v0 (F := F) x0 x1 := unary_keep hW (by decide) e9_main_v0
  clear hW e9_main_arg0 e9_main_arg1 e9_main_v0 e9_main_v3 W9
  -- 11: main_v5
  refine Final.step fun W11 hW => ?_
  have e11_main_v5 : W11 (Proc.devRef .tc main_v5) = ReadP.val_main_v5 (F := F) x0 x1 := by
    have t := binary_step hW e10_main_v0 e10_main_v4
    exact t
  have e11_main_arg0 : W11 (Proc.devRef .tc main_arg0) = x0 := binary_keep hW (by decide) e10_main_arg0
  have e11_main_arg1 : W11 (Proc.devRef .tc main_arg1) = x1 := binary_keep hW (by decide) e10_main_arg1
  clear hW e10_main_arg0 e10_main_arg1 e10_main_v0 e10_main_v4 W10
  -- 12: main_v6
  refine Final.step fun W12 hW => ?_
  have e12_main_v6 : W12 (Proc.devRef .tc main_v6) = ReadP.val_main_v6 (F := F) x0 x1 := by
    have t := unary_step hW e11_main_v5
    exact t
  have e12_main_arg0 : W12 (Proc.devRef .tc main_arg0) = x0 := unary_keep hW (by decide) e11_main_arg0
  have e12_main_arg1 : W12 (Proc.devRef .tc main_arg1) = x1 := unary_keep hW (by decide) e11_main_arg1
  have e12_main_v5 : W12 (Proc.devRef .tc main_v5) = ReadP.val_main_v5 (F := F) x0 x1 := unary_keep hW (by decide) e11_main_v5
  clear hW e11_main_arg0 e11_main_arg1 e11_main_v5 W11
  -- 13: main_v7
  refine Final.step fun W13 hW => ?_
  have e13_main_v7 : W13 (Proc.devRef .tc main_v7) = ReadP.val_main_v7 (F := F) x0 x1 := by
    have t := binary_step hW e12_main_v5 e12_main_v6
    exact t
  have e13_main_arg0 : W13 (Proc.devRef .tc main_arg0) = x0 := binary_keep hW (by decide) e12_main_arg0
  have e13_main_arg1 : W13 (Proc.devRef .tc main_arg1) = x1 := binary_keep hW (by decide) e12_main_arg1
  clear hW e12_main_arg0 e12_main_arg1 e12_main_v5 e12_main_v6 W12
  -- 14: main_cst_0
  refine Final.step fun W14 hW => ?_
  have e14_main_cst_0 : W14 (Proc.devRef .tc main_cst_0) = ReadP.val_main_cst_0 (F := F) := by
    have t := nullary_step hW
    exact t
  have e14_main_arg0 : W14 (Proc.devRef .tc main_arg0) = x0 := nullary_keep hW (by decide) e13_main_arg0
  have e14_main_arg1 : W14 (Proc.devRef .tc main_arg1) = x1 := nullary_keep hW (by decide) e13_main_arg1
  have e14_main_v7 : W14 (Proc.devRef .tc main_v7) = ReadP.val_main_v7 (F := F) x0 x1 := nullary_keep hW (by decide) e13_main_v7
  clear hW e13_main_arg0 e13_main_arg1 e13_main_v7 W13
  -- 15: main_v8
  refine Final.step fun W15 hW => ?_
  have e15_main_v8 : W15 (Proc.devRef .tc main_v8) = ReadP.val_main_v8 (F := F) := by
    have t := unary_step hW e14_main_cst_0
    exact t
  have e15_main_arg0 : W15 (Proc.devRef .tc main_arg0) = x0 := unary_keep hW (by decide) e14_main_arg0
  have e15_main_arg1 : W15 (Proc.devRef .tc main_arg1) = x1 := unary_keep hW (by decide) e14_main_arg1
  have e15_main_v7 : W15 (Proc.devRef .tc main_v7) = ReadP.val_main_v7 (F := F) x0 x1 := unary_keep hW (by decide) e14_main_v7
  clear hW e14_main_arg0 e14_main_arg1 e14_main_v7 e14_main_cst_0 W14
  -- 16: main_v9
  refine Final.step fun W16 hW => ?_
  have e16_main_v9 : W16 (Proc.devRef .tc main_v9) = ReadP.val_main_v9 (F := F) x0 x1 := by
    have t := binary_step hW e15_main_v7 e15_main_v8
    exact t
  have e16_main_arg0 : W16 (Proc.devRef .tc main_arg0) = x0 := binary_keep hW (by decide) e15_main_arg0
  have e16_main_arg1 : W16 (Proc.devRef .tc main_arg1) = x1 := binary_keep hW (by decide) e15_main_arg1
  clear hW e15_main_arg0 e15_main_arg1 e15_main_v7 e15_main_v8 W15
  -- 17: main_v10
  refine Final.step fun W17 hW => ?_
  have e17_main_v10 : W17 (Proc.devRef .tc main_v10) = ReadP.val_main_v10 (F := F) := by
    have t := nullary_step hW
    exact t
  have e17_main_arg0 : W17 (Proc.devRef .tc main_arg0) = x0 := nullary_keep hW (by decide) e16_main_arg0
  have e17_main_arg1 : W17 (Proc.devRef .tc main_arg1) = x1 := nullary_keep hW (by decide) e16_main_arg1
  have e17_main_v9 : W17 (Proc.devRef .tc main_v9) = ReadP.val_main_v9 (F := F) x0 x1 := nullary_keep hW (by decide) e16_main_v9
  clear hW e16_main_arg0 e16_main_arg1 e16_main_v9 W16
  -- 18: main_v11
  refine Final.step fun W18 hW => ?_
  have e18_main_v11 : W18 (Proc.devRef .tc main_v11) = ReadP.val_main_v11 (F := F) := by
    have t := nullary_step hW
    exact t
  have e18_main_arg0 : W18 (Proc.devRef .tc main_arg0) = x0 := nullary_keep hW (by decide) e17_main_arg0
  have e18_main_arg1 : W18 (Proc.devRef .tc main_arg1) = x1 := nullary_keep hW (by decide) e17_main_arg1
  have e18_main_v9 : W18 (Proc.devRef .tc main_v9) = ReadP.val_main_v9 (F := F) x0 x1 := nullary_keep hW (by decide) e17_main_v9
  have e18_main_v10 : W18 (Proc.devRef .tc main_v10) = ReadP.val_main_v10 (F := F) := nullary_keep hW (by decide) e17_main_v10
  clear hW e17_main_arg0 e17_main_arg1 e17_main_v9 e17_main_v10 W17
  -- 19: main_v12
  refine Final.step fun W19 hW => ?_
  have e19_main_v12 : W19 (Proc.devRef .tc main_v12) = ReadP.val_main_v12 (F := F) := by
    have t := binary_step hW e18_main_v10 e18_main_v11
    exact t
  have e19_main_arg0 : W19 (Proc.devRef .tc main_arg0) = x0 := binary_keep hW (by decide) e18_main_arg0
  have e19_main_arg1 : W19 (Proc.devRef .tc main_arg1) = x1 := binary_keep hW (by decide) e18_main_arg1
  have e19_main_v9 : W19 (Proc.devRef .tc main_v9) = ReadP.val_main_v9 (F := F) x0 x1 := binary_keep hW (by decide) e18_main_v9
  clear hW e18_main_arg0 e18_main_arg1 e18_main_v9 e18_main_v10 e18_main_v11 W18
  -- 20: main_call1_cst
  refine Final.step fun W20 hW => ?_
  have e20_main_call1_cst : W20 (Proc.devRef .tc main_call1_cst) = ReadP.val_main_call1_cst (F := F) := by
    have t := tnullary_step hW
    exact t
  have e20_main_arg0 : W20 (Proc.devRef .tc main_arg0) = x0 := nullary_keep hW (by decide) e19_main_arg0
  have e20_main_arg1 : W20 (Proc.devRef .tc main_arg1) = x1 := nullary_keep hW (by decide) e19_main_arg1
  have e20_main_v9 : W20 (Proc.devRef .tc main_v9) = ReadP.val_main_v9 (F := F) x0 x1 := nullary_keep hW (by decide) e19_main_v9
  have e20_main_v12 : W20 (Proc.devRef .tc main_v12) = ReadP.val_main_v12 (F := F) := nullary_keep hW (by decide) e19_main_v12
  clear hW e19_main_arg0 e19_main_arg1 e19_main_v9 e19_main_v12 W19
  -- 21: main_call1_v0
  refine Final.step fun W21 hW => ?_
  have e21_main_call1_v0 : W21 (Proc.devRef .tc main_call1_v0) = ReadP.val_main_call1_v0 (F := F) x0 x1 := by
    have t := tbinary_step hW e20_main_v9 e20_main_call1_cst
    exact t
  have e21_main_arg0 : W21 (Proc.devRef .tc main_arg0) = x0 := binary_keep hW (by decide) e20_main_arg0
  have e21_main_arg1 : W21 (Proc.devRef .tc main_arg1) = x1 := binary_keep hW (by decide) e20_main_arg1
  have e21_main_v9 : W21 (Proc.devRef .tc main_v9) = ReadP.val_main_v9 (F := F) x0 x1 := binary_keep hW (by decide) e20_main_v9
  have e21_main_v12 : W21 (Proc.devRef .tc main_v12) = ReadP.val_main_v12 (F := F) := binary_keep hW (by decide) e20_main_v12
  clear hW e20_main_arg0 e20_main_arg1 e20_main_v9 e20_main_v12 e20_main_call1_cst W20
  -- 22: main_call1_cst_0
  refine Final.step fun W22 hW => ?_
  have e22_main_call1_cst_0 : W22 (Proc.devRef .tc main_call1_cst_0) = ReadP.val_main_call1_cst_0 (F := F) := by
    have t := tnullary_step hW
    exact t
  have e22_main_arg0 : W22 (Proc.devRef .tc main_arg0) = x0 := nullary_keep hW (by decide) e21_main_arg0
  have e22_main_arg1 : W22 (Proc.devRef .tc main_arg1) = x1 := nullary_keep hW (by decide) e21_main_arg1
  have e22_main_v9 : W22 (Proc.devRef .tc main_v9) = ReadP.val_main_v9 (F := F) x0 x1 := nullary_keep hW (by decide) e21_main_v9
  have e22_main_v12 : W22 (Proc.devRef .tc main_v12) = ReadP.val_main_v12 (F := F) := nullary_keep hW (by decide) e21_main_v12
  have e22_main_call1_v0 : W22 (Proc.devRef .tc main_call1_v0) = ReadP.val_main_call1_v0 (F := F) x0 x1 := nullary_keep hW (by decide) e21_main_call1_v0
  clear hW e21_main_arg0 e21_main_arg1 e21_main_v9 e21_main_v12 e21_main_call1_v0 W21
  -- 23: main_call1_v1
  refine Final.step fun W23 hW => ?_
  have e23_main_call1_v1 : W23 (Proc.devRef .tc main_call1_v1) = ReadP.val_main_call1_v1 (F := F) := by
    have t := tunary_step hW e22_main_call1_cst_0
    exact t
  have e23_main_arg0 : W23 (Proc.devRef .tc main_arg0) = x0 := unary_keep hW (by decide) e22_main_arg0
  have e23_main_arg1 : W23 (Proc.devRef .tc main_arg1) = x1 := unary_keep hW (by decide) e22_main_arg1
  have e23_main_v9 : W23 (Proc.devRef .tc main_v9) = ReadP.val_main_v9 (F := F) x0 x1 := unary_keep hW (by decide) e22_main_v9
  have e23_main_v12 : W23 (Proc.devRef .tc main_v12) = ReadP.val_main_v12 (F := F) := unary_keep hW (by decide) e22_main_v12
  have e23_main_call1_v0 : W23 (Proc.devRef .tc main_call1_v0) = ReadP.val_main_call1_v0 (F := F) x0 x1 := unary_keep hW (by decide) e22_main_call1_v0
  clear hW e22_main_arg0 e22_main_arg1 e22_main_v9 e22_main_v12 e22_main_call1_v0 e22_main_call1_cst_0 W22
  -- 24: main_call1_v2
  refine Final.step fun W24 hW => ?_
  have e24_main_call1_v2 : W24 (Proc.devRef .tc main_call1_v2) = ReadP.val_main_call1_v2 (F := F) x0 x1 := by
    have t := tbinary_step hW e23_main_call1_v1 e23_main_call1_v0
    exact t
  have e24_main_arg0 : W24 (Proc.devRef .tc main_arg0) = x0 := binary_keep hW (by decide) e23_main_arg0
  have e24_main_arg1 : W24 (Proc.devRef .tc main_arg1) = x1 := binary_keep hW (by decide) e23_main_arg1
  have e24_main_v9 : W24 (Proc.devRef .tc main_v9) = ReadP.val_main_v9 (F := F) x0 x1 := binary_keep hW (by decide) e23_main_v9
  have e24_main_v12 : W24 (Proc.devRef .tc main_v12) = ReadP.val_main_v12 (F := F) := binary_keep hW (by decide) e23_main_v12
  clear hW e23_main_arg0 e23_main_arg1 e23_main_v9 e23_main_v12 e23_main_call1_v0 e23_main_call1_v1 W23
  -- 25: main_call1_v3
  refine Final.step fun W25 hW => ?_
  have e25_main_call1_v3 : W25 (Proc.devRef .tc main_call1_v3) = ReadP.val_main_call1_v3 (F := F) x0 x1 := by
    have t := tunary_step hW e24_main_call1_v2
    exact t
  have e25_main_arg0 : W25 (Proc.devRef .tc main_arg0) = x0 := unary_keep hW (by decide) e24_main_arg0
  have e25_main_arg1 : W25 (Proc.devRef .tc main_arg1) = x1 := unary_keep hW (by decide) e24_main_arg1
  have e25_main_v9 : W25 (Proc.devRef .tc main_v9) = ReadP.val_main_v9 (F := F) x0 x1 := unary_keep hW (by decide) e24_main_v9
  have e25_main_v12 : W25 (Proc.devRef .tc main_v12) = ReadP.val_main_v12 (F := F) := unary_keep hW (by decide) e24_main_v12
  clear hW e24_main_arg0 e24_main_arg1 e24_main_v9 e24_main_v12 e24_main_call1_v2 W24
  -- 26: main_call1_v4
  refine Final.step fun W26 hW => ?_
  have e26_main_call1_v4 : W26 (Proc.devRef .tc main_call1_v4) = ReadP.val_main_call1_v4 (F := F) x0 x1 := by
    have t := tunary_step hW e25_main_call1_v3
    exact t
  have e26_main_arg0 : W26 (Proc.devRef .tc main_arg0) = x0 := unary_keep hW (by decide) e25_main_arg0
  have e26_main_arg1 : W26 (Proc.devRef .tc main_arg1) = x1 := unary_keep hW (by decide) e25_main_arg1
  have e26_main_v9 : W26 (Proc.devRef .tc main_v9) = ReadP.val_main_v9 (F := F) x0 x1 := unary_keep hW (by decide) e25_main_v9
  have e26_main_v12 : W26 (Proc.devRef .tc main_v12) = ReadP.val_main_v12 (F := F) := unary_keep hW (by decide) e25_main_v12
  clear hW e25_main_arg0 e25_main_arg1 e25_main_v9 e25_main_v12 e25_main_call1_v3 W25
  -- 27: main_call1_v5
  refine Final.step fun W27 hW => ?_
  have e27_main_call1_v5 : W27 (Proc.devRef .tc main_call1_v5) = ReadP.val_main_call1_v5 (F := F) x0 x1 := by
    have t := tbinary_step hW e26_main_v9 e26_main_call1_v4
    exact t
  have e27_main_arg0 : W27 (Proc.devRef .tc main_arg0) = x0 := binary_keep hW (by decide) e26_main_arg0
  have e27_main_arg1 : W27 (Proc.devRef .tc main_arg1) = x1 := binary_keep hW (by decide) e26_main_arg1
  have e27_main_v12 : W27 (Proc.devRef .tc main_v12) = ReadP.val_main_v12 (F := F) := binary_keep hW (by decide) e26_main_v12
  clear hW e26_main_arg0 e26_main_arg1 e26_main_v9 e26_main_v12 e26_main_call1_v4 W26
  -- 28: main_call1_v6
  refine Final.step fun W28 hW => ?_
  have e28_main_call1_v6 : W28 (Proc.devRef .tc main_call1_v6) = ReadP.val_main_call1_v6 (F := F) x0 x1 := by
    have t := tunary_step hW e27_main_call1_v5
    exact t
  have e28_main_arg0 : W28 (Proc.devRef .tc main_arg0) = x0 := unary_keep hW (by decide) e27_main_arg0
  have e28_main_arg1 : W28 (Proc.devRef .tc main_arg1) = x1 := unary_keep hW (by decide) e27_main_arg1
  have e28_main_v12 : W28 (Proc.devRef .tc main_v12) = ReadP.val_main_v12 (F := F) := unary_keep hW (by decide) e27_main_v12
  have e28_main_call1_v5 : W28 (Proc.devRef .tc main_call1_v5) = ReadP.val_main_call1_v5 (F := F) x0 x1 := unary_keep hW (by decide) e27_main_call1_v5
  clear hW e27_main_arg0 e27_main_arg1 e27_main_v12 e27_main_call1_v5 W27
  -- 29: main_call1_cst_1
  refine Final.step fun W29 hW => ?_
  have e29_main_call1_cst_1 : W29 (Proc.devRef .tc main_call1_cst_1) = ReadP.val_main_call1_cst_1 (F := F) := by
    have t := tnullary_step hW
    exact t
  have e29_main_arg0 : W29 (Proc.devRef .tc main_arg0) = x0 := nullary_keep hW (by decide) e28_main_arg0
  have e29_main_arg1 : W29 (Proc.devRef .tc main_arg1) = x1 := nullary_keep hW (by decide) e28_main_arg1
  have e29_main_v12 : W29 (Proc.devRef .tc main_v12) = ReadP.val_main_v12 (F := F) := nullary_keep hW (by decide) e28_main_v12
  have e29_main_call1_v5 : W29 (Proc.devRef .tc main_call1_v5) = ReadP.val_main_call1_v5 (F := F) x0 x1 := nullary_keep hW (by decide) e28_main_call1_v5
  have e29_main_call1_v6 : W29 (Proc.devRef .tc main_call1_v6) = ReadP.val_main_call1_v6 (F := F) x0 x1 := nullary_keep hW (by decide) e28_main_call1_v6
  clear hW e28_main_arg0 e28_main_arg1 e28_main_v12 e28_main_call1_v5 e28_main_call1_v6 W28
  -- 30: main_call1_v7
  refine Final.step fun W30 hW => ?_
  have e30_main_call1_v7 : W30 (Proc.devRef .tc main_call1_v7) = ReadP.val_main_call1_v7 (F := F) x0 x1 := by
    have t := tbinary_step hW e29_main_call1_v6 e29_main_call1_cst_1
    exact t
  have e30_main_arg0 : W30 (Proc.devRef .tc main_arg0) = x0 := binary_keep hW (by decide) e29_main_arg0
  have e30_main_arg1 : W30 (Proc.devRef .tc main_arg1) = x1 := binary_keep hW (by decide) e29_main_arg1
  have e30_main_v12 : W30 (Proc.devRef .tc main_v12) = ReadP.val_main_v12 (F := F) := binary_keep hW (by decide) e29_main_v12
  have e30_main_call1_v5 : W30 (Proc.devRef .tc main_call1_v5) = ReadP.val_main_call1_v5 (F := F) x0 x1 := binary_keep hW (by decide) e29_main_call1_v5
  clear hW e29_main_arg0 e29_main_arg1 e29_main_v12 e29_main_call1_v5 e29_main_call1_v6 e29_main_call1_cst_1 W29
  -- 31: main_call1_v8
  refine Final.step fun W31 hW => ?_
  have e31_main_call1_v8 : W31 (Proc.devRef .tc main_call1_v8) = ReadP.val_main_call1_v8 (F := F) x0 x1 := by
    have t := tunary_step hW e30_main_call1_v7
    exact t
  have e31_main_arg0 : W31 (Proc.devRef .tc main_arg0) = x0 := unary_keep hW (by decide) e30_main_arg0
  have e31_main_arg1 : W31 (Proc.devRef .tc main_arg1) = x1 := unary_keep hW (by decide) e30_main_arg1
  have e31_main_v12 : W31 (Proc.devRef .tc main_v12) = ReadP.val_main_v12 (F := F) := unary_keep hW (by decide) e30_main_v12
  have e31_main_call1_v5 : W31 (Proc.devRef .tc main_call1_v5) = ReadP.val_main_call1_v5 (F := F) x0 x1 := unary_keep hW (by decide) e30_main_call1_v5
  clear hW e30_main_arg0 e30_main_arg1 e30_main_v12 e30_main_call1_v5 e30_main_call1_v7 W30
  -- 32: main_call1_v9
  refine Final.step fun W32 hW => ?_
  have e32_main_call1_v9 : W32 (Proc.devRef .tc main_call1_v9) = ReadP.val_main_call1_v9 (F := F) x0 x1 := by
    have t := tunary_step hW e31_main_call1_v8
    exact t
  have e32_main_arg0 : W32 (Proc.devRef .tc main_arg0) = x0 := unary_keep hW (by decide) e31_main_arg0
  have e32_main_arg1 : W32 (Proc.devRef .tc main_arg1) = x1 := unary_keep hW (by decide) e31_main_arg1
  have e32_main_v12 : W32 (Proc.devRef .tc main_v12) = ReadP.val_main_v12 (F := F) := unary_keep hW (by decide) e31_main_v12
  have e32_main_call1_v5 : W32 (Proc.devRef .tc main_call1_v5) = ReadP.val_main_call1_v5 (F := F) x0 x1 := unary_keep hW (by decide) e31_main_call1_v5
  clear hW e31_main_arg0 e31_main_arg1 e31_main_v12 e31_main_call1_v5 e31_main_call1_v8 W31
  -- 33: main_call1_v10
  refine Final.step fun W33 hW => ?_
  have e33_main_call1_v10 : W33 (Proc.devRef .tc main_call1_v10) = ReadP.val_main_call1_v10 (F := F) x0 x1 := by
    have t := tunary_step hW e32_main_call1_v9
    exact t
  have e33_main_arg0 : W33 (Proc.devRef .tc main_arg0) = x0 := unary_keep hW (by decide) e32_main_arg0
  have e33_main_arg1 : W33 (Proc.devRef .tc main_arg1) = x1 := unary_keep hW (by decide) e32_main_arg1
  have e33_main_v12 : W33 (Proc.devRef .tc main_v12) = ReadP.val_main_v12 (F := F) := unary_keep hW (by decide) e32_main_v12
  have e33_main_call1_v5 : W33 (Proc.devRef .tc main_call1_v5) = ReadP.val_main_call1_v5 (F := F) x0 x1 := unary_keep hW (by decide) e32_main_call1_v5
  clear hW e32_main_arg0 e32_main_arg1 e32_main_v12 e32_main_call1_v5 e32_main_call1_v9 W32
  -- 34: main_v13
  refine Final.step fun W34 hW => ?_
  have e34_main_v13 : W34 (Proc.devRef .tc main_v13) = ReadP.val_main_v13 (F := F) x0 x1 := by
    have t := tbinary_step hW e33_main_call1_v5 e33_main_call1_v10
    exact t
  have e34_main_arg0 : W34 (Proc.devRef .tc main_arg0) = x0 := binary_keep hW (by decide) e33_main_arg0
  have e34_main_arg1 : W34 (Proc.devRef .tc main_arg1) = x1 := binary_keep hW (by decide) e33_main_arg1
  have e34_main_v12 : W34 (Proc.devRef .tc main_v12) = ReadP.val_main_v12 (F := F) := binary_keep hW (by decide) e33_main_v12
  clear hW e33_main_arg0 e33_main_arg1 e33_main_v12 e33_main_call1_v5 e33_main_call1_v10 W33
  -- 35: main_v14
  refine Final.step fun W35 hW => ?_
  have e35_main_v14 : W35 (Proc.devRef .tc main_v14) = ReadP.val_main_v14 (F := F) := by
    have t := nullary_step hW
    exact t
  have e35_main_arg0 : W35 (Proc.devRef .tc main_arg0) = x0 := nullary_keep hW (by decide) e34_main_arg0
  have e35_main_arg1 : W35 (Proc.devRef .tc main_arg1) = x1 := nullary_keep hW (by decide) e34_main_arg1
  have e35_main_v12 : W35 (Proc.devRef .tc main_v12) = ReadP.val_main_v12 (F := F) := nullary_keep hW (by decide) e34_main_v12
  have e35_main_v13 : W35 (Proc.devRef .tc main_v13) = ReadP.val_main_v13 (F := F) x0 x1 := nullary_keep hW (by decide) e34_main_v13
  clear hW e34_main_arg0 e34_main_arg1 e34_main_v12 e34_main_v13 W34
  -- 36: main_c
  refine Final.step fun W36 hW => ?_
  have e36_main_c : W36 (Proc.devRef .tc main_c) = ReadP.val_main_c (F := F) := by
    have t := nullary_step hW
    exact t
  have e36_main_arg0 : W36 (Proc.devRef .tc main_arg0) = x0 := nullary_keep hW (by decide) e35_main_arg0
  have e36_main_arg1 : W36 (Proc.devRef .tc main_arg1) = x1 := nullary_keep hW (by decide) e35_main_arg1
  have e36_main_v12 : W36 (Proc.devRef .tc main_v12) = ReadP.val_main_v12 (F := F) := nullary_keep hW (by decide) e35_main_v12
  have e36_main_v13 : W36 (Proc.devRef .tc main_v13) = ReadP.val_main_v13 (F := F) x0 x1 := nullary_keep hW (by decide) e35_main_v13
  have e36_main_v14 : W36 (Proc.devRef .tc main_v14) = ReadP.val_main_v14 (F := F) := nullary_keep hW (by decide) e35_main_v14
  clear hW e35_main_arg0 e35_main_arg1 e35_main_v12 e35_main_v13 e35_main_v14 W35
  -- 37: main_v15
  refine Final.step fun W37 hW => ?_
  have e37_main_v15 : W37 (Proc.devRef .tc main_v15) = ReadP.val_main_v15 (F := F) := by
    have t := unary_step hW e36_main_c
    exact t
  have e37_main_arg0 : W37 (Proc.devRef .tc main_arg0) = x0 := unary_keep hW (by decide) e36_main_arg0
  have e37_main_arg1 : W37 (Proc.devRef .tc main_arg1) = x1 := unary_keep hW (by decide) e36_main_arg1
  have e37_main_v12 : W37 (Proc.devRef .tc main_v12) = ReadP.val_main_v12 (F := F) := unary_keep hW (by decide) e36_main_v12
  have e37_main_v13 : W37 (Proc.devRef .tc main_v13) = ReadP.val_main_v13 (F := F) x0 x1 := unary_keep hW (by decide) e36_main_v13
  have e37_main_v14 : W37 (Proc.devRef .tc main_v14) = ReadP.val_main_v14 (F := F) := unary_keep hW (by decide) e36_main_v14
  clear hW e36_main_arg0 e36_main_arg1 e36_main_v12 e36_main_v13 e36_main_v14 e36_main_c W36
  -- 38: main_v16
  refine Final.step fun W38 hW => ?_
  have e38_main_v16 : W38 (Proc.devRef .tc main_v16) = ReadP.val_main_v16 (F := F) := by
    have t := binary_step hW e37_main_v14 e37_main_v15
    exact t
  have e38_main_arg0 : W38 (Proc.devRef .tc main_arg0) = x0 := binary_keep hW (by decide) e37_main_arg0
  have e38_main_arg1 : W38 (Proc.devRef .tc main_arg1) = x1 := binary_keep hW (by decide) e37_main_arg1
  have e38_main_v12 : W38 (Proc.devRef .tc main_v12) = ReadP.val_main_v12 (F := F) := binary_keep hW (by decide) e37_main_v12
  have e38_main_v13 : W38 (Proc.devRef .tc main_v13) = ReadP.val_main_v13 (F := F) x0 x1 := binary_keep hW (by decide) e37_main_v13
  have e38_main_v14 : W38 (Proc.devRef .tc main_v14) = ReadP.val_main_v14 (F := F) := binary_keep hW (by decide) e37_main_v14
  clear hW e37_main_arg0 e37_main_arg1 e37_main_v12 e37_main_v13 e37_main_v14 e37_main_v15 W37
  -- 39: main_c_1
  refine Final.step fun W39 hW => ?_
  have e39_main_c_1 : W39 (Proc.devRef .tc main_c_1) = ReadP.val_main_c_1 (F := F) := by
    have t := nullary_step hW
    exact t
  have e39_main_arg0 : W39 (Proc.devRef .tc main_arg0) = x0 := nullary_keep hW (by decide) e38_main_arg0
  have e39_main_arg1 : W39 (Proc.devRef .tc main_arg1) = x1 := nullary_keep hW (by decide) e38_main_arg1
  have e39_main_v12 : W39 (Proc.devRef .tc main_v12) = ReadP.val_main_v12 (F := F) := nullary_keep hW (by decide) e38_main_v12
  have e39_main_v13 : W39 (Proc.devRef .tc main_v13) = ReadP.val_main_v13 (F := F) x0 x1 := nullary_keep hW (by decide) e38_main_v13
  have e39_main_v14 : W39 (Proc.devRef .tc main_v14) = ReadP.val_main_v14 (F := F) := nullary_keep hW (by decide) e38_main_v14
  have e39_main_v16 : W39 (Proc.devRef .tc main_v16) = ReadP.val_main_v16 (F := F) := nullary_keep hW (by decide) e38_main_v16
  clear hW e38_main_arg0 e38_main_arg1 e38_main_v12 e38_main_v13 e38_main_v14 e38_main_v16 W38
  -- 40: main_v17
  refine Final.step fun W40 hW => ?_
  have e40_main_v17 : W40 (Proc.devRef .tc main_v17) = ReadP.val_main_v17 (F := F) := by
    have t := unary_step hW e39_main_c_1
    exact t
  have e40_main_arg0 : W40 (Proc.devRef .tc main_arg0) = x0 := unary_keep hW (by decide) e39_main_arg0
  have e40_main_arg1 : W40 (Proc.devRef .tc main_arg1) = x1 := unary_keep hW (by decide) e39_main_arg1
  have e40_main_v12 : W40 (Proc.devRef .tc main_v12) = ReadP.val_main_v12 (F := F) := unary_keep hW (by decide) e39_main_v12
  have e40_main_v13 : W40 (Proc.devRef .tc main_v13) = ReadP.val_main_v13 (F := F) x0 x1 := unary_keep hW (by decide) e39_main_v13
  have e40_main_v14 : W40 (Proc.devRef .tc main_v14) = ReadP.val_main_v14 (F := F) := unary_keep hW (by decide) e39_main_v14
  have e40_main_v16 : W40 (Proc.devRef .tc main_v16) = ReadP.val_main_v16 (F := F) := unary_keep hW (by decide) e39_main_v16
  clear hW e39_main_arg0 e39_main_arg1 e39_main_v12 e39_main_v13 e39_main_v14 e39_main_v16 e39_main_c_1 W39
  -- 41: main_v18
  refine Final.step fun W41 hW => ?_
  have e41_main_v18 : W41 (Proc.devRef .tc main_v18) = ReadP.val_main_v18 (F := F) := by
    have t := binary_step hW e40_main_v14 e40_main_v17
    exact t
  have e41_main_arg0 : W41 (Proc.devRef .tc main_arg0) = x0 := binary_keep hW (by decide) e40_main_arg0
  have e41_main_arg1 : W41 (Proc.devRef .tc main_arg1) = x1 := binary_keep hW (by decide) e40_main_arg1
  have e41_main_v12 : W41 (Proc.devRef .tc main_v12) = ReadP.val_main_v12 (F := F) := binary_keep hW (by decide) e40_main_v12
  have e41_main_v13 : W41 (Proc.devRef .tc main_v13) = ReadP.val_main_v13 (F := F) x0 x1 := binary_keep hW (by decide) e40_main_v13
  have e41_main_v14 : W41 (Proc.devRef .tc main_v14) = ReadP.val_main_v14 (F := F) := binary_keep hW (by decide) e40_main_v14
  have e41_main_v16 : W41 (Proc.devRef .tc main_v16) = ReadP.val_main_v16 (F := F) := binary_keep hW (by decide) e40_main_v16
  clear hW e40_main_arg0 e40_main_arg1 e40_main_v12 e40_main_v13 e40_main_v14 e40_main_v16 e40_main_v17 W40
  -- 42: main_v19
  refine Final.step fun W42 hW => ?_
  have e42_main_v19 : W42 (Proc.devRef .tc main_v19) = ReadP.val_main_v19 (F := F) := by
    have t := ternary_step hW e41_main_v16 e41_main_v18 e41_main_v14
    exact t
  have e42_main_arg0 : W42 (Proc.devRef .tc main_arg0) = x0 := ternary_keep hW (by decide) e41_main_arg0
  have e42_main_arg1 : W42 (Proc.devRef .tc main_arg1) = x1 := ternary_keep hW (by decide) e41_main_arg1
  have e42_main_v12 : W42 (Proc.devRef .tc main_v12) = ReadP.val_main_v12 (F := F) := ternary_keep hW (by decide) e41_main_v12
  have e42_main_v13 : W42 (Proc.devRef .tc main_v13) = ReadP.val_main_v13 (F := F) x0 x1 := ternary_keep hW (by decide) e41_main_v13
  clear hW e41_main_arg0 e41_main_arg1 e41_main_v12 e41_main_v13 e41_main_v14 e41_main_v16 e41_main_v18 W41
  -- 43: main_c_2
  refine Final.step fun W43 hW => ?_
  have e43_main_c_2 : W43 (Proc.devRef .tc main_c_2) = ReadP.val_main_c_2 (F := F) := by
    have t := nullary_step hW
    exact t
  have e43_main_arg0 : W43 (Proc.devRef .tc main_arg0) = x0 := nullary_keep hW (by decide) e42_main_arg0
  have e43_main_arg1 : W43 (Proc.devRef .tc main_arg1) = x1 := nullary_keep hW (by decide) e42_main_arg1
  have e43_main_v12 : W43 (Proc.devRef .tc main_v12) = ReadP.val_main_v12 (F := F) := nullary_keep hW (by decide) e42_main_v12
  have e43_main_v13 : W43 (Proc.devRef .tc main_v13) = ReadP.val_main_v13 (F := F) x0 x1 := nullary_keep hW (by decide) e42_main_v13
  have e43_main_v19 : W43 (Proc.devRef .tc main_v19) = ReadP.val_main_v19 (F := F) := nullary_keep hW (by decide) e42_main_v19
  clear hW e42_main_arg0 e42_main_arg1 e42_main_v12 e42_main_v13 e42_main_v19 W42
  -- 44: main_v20
  refine Final.step fun W44 hW => ?_
  have e44_main_v20 : W44 (Proc.devRef .tc main_v20) = ReadP.val_main_v20 (F := F) := by
    have t := unary_step hW e43_main_c_2
    exact t
  have e44_main_arg0 : W44 (Proc.devRef .tc main_arg0) = x0 := unary_keep hW (by decide) e43_main_arg0
  have e44_main_arg1 : W44 (Proc.devRef .tc main_arg1) = x1 := unary_keep hW (by decide) e43_main_arg1
  have e44_main_v12 : W44 (Proc.devRef .tc main_v12) = ReadP.val_main_v12 (F := F) := unary_keep hW (by decide) e43_main_v12
  have e44_main_v13 : W44 (Proc.devRef .tc main_v13) = ReadP.val_main_v13 (F := F) x0 x1 := unary_keep hW (by decide) e43_main_v13
  have e44_main_v19 : W44 (Proc.devRef .tc main_v19) = ReadP.val_main_v19 (F := F) := unary_keep hW (by decide) e43_main_v19
  clear hW e43_main_arg0 e43_main_arg1 e43_main_v12 e43_main_v13 e43_main_v19 e43_main_c_2 W43
  -- 45: main_v21
  refine Final.step fun W45 hW => ?_
  have e45_main_v21 : W45 (Proc.devRef .tc main_v21) = ReadP.val_main_v21 (F := F) := by
    have t := binary_step hW e44_main_v12 e44_main_v20
    exact t
  have e45_main_arg0 : W45 (Proc.devRef .tc main_arg0) = x0 := binary_keep hW (by decide) e44_main_arg0
  have e45_main_arg1 : W45 (Proc.devRef .tc main_arg1) = x1 := binary_keep hW (by decide) e44_main_arg1
  have e45_main_v12 : W45 (Proc.devRef .tc main_v12) = ReadP.val_main_v12 (F := F) := binary_keep hW (by decide) e44_main_v12
  have e45_main_v13 : W45 (Proc.devRef .tc main_v13) = ReadP.val_main_v13 (F := F) x0 x1 := binary_keep hW (by decide) e44_main_v13
  have e45_main_v19 : W45 (Proc.devRef .tc main_v19) = ReadP.val_main_v19 (F := F) := binary_keep hW (by decide) e44_main_v19
  clear hW e44_main_arg0 e44_main_arg1 e44_main_v12 e44_main_v13 e44_main_v19 e44_main_v20 W44
  -- 46: main_c_3
  refine Final.step fun W46 hW => ?_
  have e46_main_c_3 : W46 (Proc.devRef .tc main_c_3) = ReadP.val_main_c_3 (F := F) := by
    have t := nullary_step hW
    exact t
  have e46_main_arg0 : W46 (Proc.devRef .tc main_arg0) = x0 := nullary_keep hW (by decide) e45_main_arg0
  have e46_main_arg1 : W46 (Proc.devRef .tc main_arg1) = x1 := nullary_keep hW (by decide) e45_main_arg1
  have e46_main_v12 : W46 (Proc.devRef .tc main_v12) = ReadP.val_main_v12 (F := F) := nullary_keep hW (by decide) e45_main_v12
  have e46_main_v13 : W46 (Proc.devRef .tc main_v13) = ReadP.val_main_v13 (F := F) x0 x1 := nullary_keep hW (by decide) e45_main_v13
  have e46_main_v19 : W46 (Proc.devRef .tc main_v19) = ReadP.val_main_v19 (F := F) := nullary_keep hW (by decide) e45_main_v19
  have e46_main_v21 : W46 (Proc.devRef .tc main_v21) = ReadP.val_main_v21 (F := F) := nullary_keep hW (by decide) e45_main_v21
  clear hW e45_main_arg0 e45_main_arg1 e45_main_v12 e45_main_v13 e45_main_v19 e45_main_v21 W45
  -- 47: main_v22
  refine Final.step fun W47 hW => ?_
  have e47_main_v22 : W47 (Proc.devRef .tc main_v22) = ReadP.val_main_v22 (F := F) := by
    have t := unary_step hW e46_main_c_3
    exact t
  have e47_main_arg0 : W47 (Proc.devRef .tc main_arg0) = x0 := unary_keep hW (by decide) e46_main_arg0
  have e47_main_arg1 : W47 (Proc.devRef .tc main_arg1) = x1 := unary_keep hW (by decide) e46_main_arg1
  have e47_main_v12 : W47 (Proc.devRef .tc main_v12) = ReadP.val_main_v12 (F := F) := unary_keep hW (by decide) e46_main_v12
  have e47_main_v13 : W47 (Proc.devRef .tc main_v13) = ReadP.val_main_v13 (F := F) x0 x1 := unary_keep hW (by decide) e46_main_v13
  have e47_main_v19 : W47 (Proc.devRef .tc main_v19) = ReadP.val_main_v19 (F := F) := unary_keep hW (by decide) e46_main_v19
  have e47_main_v21 : W47 (Proc.devRef .tc main_v21) = ReadP.val_main_v21 (F := F) := unary_keep hW (by decide) e46_main_v21
  clear hW e46_main_arg0 e46_main_arg1 e46_main_v12 e46_main_v13 e46_main_v19 e46_main_v21 e46_main_c_3 W46
  -- 48: main_v23
  refine Final.step fun W48 hW => ?_
  have e48_main_v23 : W48 (Proc.devRef .tc main_v23) = ReadP.val_main_v23 (F := F) := by
    have t := binary_step hW e47_main_v12 e47_main_v22
    exact t
  have e48_main_arg0 : W48 (Proc.devRef .tc main_arg0) = x0 := binary_keep hW (by decide) e47_main_arg0
  have e48_main_arg1 : W48 (Proc.devRef .tc main_arg1) = x1 := binary_keep hW (by decide) e47_main_arg1
  have e48_main_v12 : W48 (Proc.devRef .tc main_v12) = ReadP.val_main_v12 (F := F) := binary_keep hW (by decide) e47_main_v12
  have e48_main_v13 : W48 (Proc.devRef .tc main_v13) = ReadP.val_main_v13 (F := F) x0 x1 := binary_keep hW (by decide) e47_main_v13
  have e48_main_v19 : W48 (Proc.devRef .tc main_v19) = ReadP.val_main_v19 (F := F) := binary_keep hW (by decide) e47_main_v19
  have e48_main_v21 : W48 (Proc.devRef .tc main_v21) = ReadP.val_main_v21 (F := F) := binary_keep hW (by decide) e47_main_v21
  clear hW e47_main_arg0 e47_main_arg1 e47_main_v12 e47_main_v13 e47_main_v19 e47_main_v21 e47_main_v22 W47
  -- 49: main_v24
  refine Final.step fun W49 hW => ?_
  have e49_main_v24 : W49 (Proc.devRef .tc main_v24) = ReadP.val_main_v24 (F := F) := by
    have t := ternary_step hW e48_main_v21 e48_main_v23 e48_main_v12
    exact t
  have e49_main_arg0 : W49 (Proc.devRef .tc main_arg0) = x0 := ternary_keep hW (by decide) e48_main_arg0
  have e49_main_arg1 : W49 (Proc.devRef .tc main_arg1) = x1 := ternary_keep hW (by decide) e48_main_arg1
  have e49_main_v13 : W49 (Proc.devRef .tc main_v13) = ReadP.val_main_v13 (F := F) x0 x1 := ternary_keep hW (by decide) e48_main_v13
  have e49_main_v19 : W49 (Proc.devRef .tc main_v19) = ReadP.val_main_v19 (F := F) := ternary_keep hW (by decide) e48_main_v19
  clear hW e48_main_arg0 e48_main_arg1 e48_main_v12 e48_main_v13 e48_main_v19 e48_main_v21 e48_main_v23 W48
  -- 50: main_v25
  refine Final.step fun W50 hW => ?_
  have e50_main_v25 : W50 (Proc.devRef .tc main_v25) = ReadP.val_main_v25 (F := F) := by
    have t := unary_step hW e49_main_v19
    exact t
  have e50_main_arg0 : W50 (Proc.devRef .tc main_arg0) = x0 := unary_keep hW (by decide) e49_main_arg0
  have e50_main_arg1 : W50 (Proc.devRef .tc main_arg1) = x1 := unary_keep hW (by decide) e49_main_arg1
  have e50_main_v13 : W50 (Proc.devRef .tc main_v13) = ReadP.val_main_v13 (F := F) x0 x1 := unary_keep hW (by decide) e49_main_v13
  have e50_main_v24 : W50 (Proc.devRef .tc main_v24) = ReadP.val_main_v24 (F := F) := unary_keep hW (by decide) e49_main_v24
  clear hW e49_main_arg0 e49_main_arg1 e49_main_v13 e49_main_v19 e49_main_v24 W49
  -- 51: main_v26
  refine Final.step fun W51 hW => ?_
  have e51_main_v26 : W51 (Proc.devRef .tc main_v26) = ReadP.val_main_v26 (F := F) := by
    have t := unary_step hW e50_main_v24
    exact t
  have e51_main_arg0 : W51 (Proc.devRef .tc main_arg0) = x0 := unary_keep hW (by decide) e50_main_arg0
  have e51_main_arg1 : W51 (Proc.devRef .tc main_arg1) = x1 := unary_keep hW (by decide) e50_main_arg1
  have e51_main_v13 : W51 (Proc.devRef .tc main_v13) = ReadP.val_main_v13 (F := F) x0 x1 := unary_keep hW (by decide) e50_main_v13
  have e51_main_v25 : W51 (Proc.devRef .tc main_v25) = ReadP.val_main_v25 (F := F) := unary_keep hW (by decide) e50_main_v25
  clear hW e50_main_arg0 e50_main_arg1 e50_main_v13 e50_main_v24 e50_main_v25 W50
  -- 52: main_v27
  refine Final.step fun W52 hW => ?_
  have e52_main_v27 : W52 (Proc.devRef .tc main_v27) = ReadP.val_main_v27 (F := F) := by
    have t := binary_step hW e51_main_v25 e51_main_v26
    exact t
  have e52_main_arg0 : W52 (Proc.devRef .tc main_arg0) = x0 := binary_keep hW (by decide) e51_main_arg0
  have e52_main_arg1 : W52 (Proc.devRef .tc main_arg1) = x1 := binary_keep hW (by decide) e51_main_arg1
  have e52_main_v13 : W52 (Proc.devRef .tc main_v13) = ReadP.val_main_v13 (F := F) x0 x1 := binary_keep hW (by decide) e51_main_v13
  clear hW e51_main_arg0 e51_main_arg1 e51_main_v13 e51_main_v25 e51_main_v26 W51
  -- 53: main_v28
  refine Final.step fun W53 hW => ?_
  have e53_main_v28 : W53 (Proc.devRef .tc main_v28) = ReadP.val_main_v28 (F := F) x0 x1 := by
    have t := binary_step hW e52_main_v13 e52_main_v27
    exact t
  have e53_main_arg0 : W53 (Proc.devRef .tc main_arg0) = x0 := binary_keep hW (by decide) e52_main_arg0
  have e53_main_arg1 : W53 (Proc.devRef .tc main_arg1) = x1 := binary_keep hW (by decide) e52_main_arg1
  clear hW e52_main_arg0 e52_main_arg1 e52_main_v13 e52_main_v27 W52
  -- 54: main_cst_4
  refine Final.step fun W54 hW => ?_
  have e54_main_cst_4 : W54 (Proc.devRef .tc main_cst_4) = ReadP.val_main_cst_4 (F := F) := by
    have t := nullary_step hW
    exact t
  have e54_main_arg0 : W54 (Proc.devRef .tc main_arg0) = x0 := nullary_keep hW (by decide) e53_main_arg0
  have e54_main_arg1 : W54 (Proc.devRef .tc main_arg1) = x1 := nullary_keep hW (by decide) e53_main_arg1
  have e54_main_v28 : W54 (Proc.devRef .tc main_v28) = ReadP.val_main_v28 (F := F) x0 x1 := nullary_keep hW (by decide) e53_main_v28
  clear hW e53_main_arg0 e53_main_arg1 e53_main_v28 W53
  -- 55: main_v29
  refine Final.step fun W55 hW => ?_
  have e55_main_v29 : W55 (Proc.devRef .tc main_v29) = ReadP.val_main_v29 (F := F) x0 x1 := by
    have t := binary_step hW e54_main_v28 e54_main_cst_4
    exact t
  have e55_main_arg0 : W55 (Proc.devRef .tc main_arg0) = x0 := binary_keep hW (by decide) e54_main_arg0
  have e55_main_arg1 : W55 (Proc.devRef .tc main_arg1) = x1 := binary_keep hW (by decide) e54_main_arg1
  clear hW e54_main_arg0 e54_main_arg1 e54_main_v28 e54_main_cst_4 W54
  -- 56: main_cst_5
  refine Final.step fun W56 hW => ?_
  have e56_main_cst_5 : W56 (Proc.devRef .tc main_cst_5) = ReadP.val_main_cst_5 (F := F) := by
    have t := nullary_step hW
    exact t
  have e56_main_arg0 : W56 (Proc.devRef .tc main_arg0) = x0 := nullary_keep hW (by decide) e55_main_arg0
  have e56_main_arg1 : W56 (Proc.devRef .tc main_arg1) = x1 := nullary_keep hW (by decide) e55_main_arg1
  have e56_main_v29 : W56 (Proc.devRef .tc main_v29) = ReadP.val_main_v29 (F := F) x0 x1 := nullary_keep hW (by decide) e55_main_v29
  clear hW e55_main_arg0 e55_main_arg1 e55_main_v29 W55
  -- 57: main_v30
  refine Final.step fun W57 hW => ?_
  have e57_main_v30 : W57 (Proc.devRef .tc main_v30) = ReadP.val_main_v30 (F := F) x0 x1 := by
    have t := binary_step hW e56_main_v29 e56_main_cst_5
    exact t
  have e57_main_arg0 : W57 (Proc.devRef .tc main_arg0) = x0 := binary_keep hW (by decide) e56_main_arg0
  have e57_main_arg1 : W57 (Proc.devRef .tc main_arg1) = x1 := binary_keep hW (by decide) e56_main_arg1
  clear hW e56_main_arg0 e56_main_arg1 e56_main_v29 e56_main_cst_5 W56
  -- 58: main_v31
  refine Final.step fun W58 hW => ?_
  have e58_main_v31 : W58 (Proc.devRef .tc main_v31) = ReadP.val_main_v31 (F := F) x0 x1 := by
    have t := unary_step hW e57_main_v30
    exact t
  have e58_main_arg0 : W58 (Proc.devRef .tc main_arg0) = x0 := unary_keep hW (by decide) e57_main_arg0
  have e58_main_arg1 : W58 (Proc.devRef .tc main_arg1) = x1 := unary_keep hW (by decide) e57_main_arg1
  clear hW e57_main_arg0 e57_main_arg1 e57_main_v30 W57
  exact ⟨e58_main_v31, e58_main_arg0, e58_main_arg1⟩

/-! ### The run -/

/-- On every device, from any memory with zero counters: every weakly fair execution of the reference program
    terminates with the result buffer at its named value of the two argument buffers' launch contents, and the
    argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = Cert.ReferenceIdeal.ReadP.val_main_v31 (F := F) (m ((c.tc : Thread nD τ).loc main_arg0))
              (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => by
      have hf := final_after (F := F) (launchContents m c) (m ((c.tc : Thread nD τ).loc main_arg0))
        (m ((c.tc : Thread nD τ).loc main_arg1)) rfl rfl
      exact ⟨(h c main_v31).trans hf.1, (h c main_arg0).trans hf.2.1, (h c main_arg1).trans hf.2.2⟩)
    (run_seq scopedRefs_eq scopedSems_eq defs main (fun _ => ops) main_eq (fun _ => ops_sub) m ρ)

end Cert.ReferenceIdeal.RunByStages

end
-- ==== Proof.RefSide.lean ====
/-
  The reference program's result, read one operation at a time, is the loss `refLoss` of the two argument matrices:
  the stacked rows, their scaling by the larger of the Euclidean norm and the floor, the logits (inner products of
  scaled rows divided by one half), each row's maximum, the log-softmax, the entry of each row at its label column
  (the gather, whose start indices are the row number and the row number modulo 4096), and minus the mean of those
  entries over the rows.
-/
import proofs.«163665_j75909251990177_2_alg».proof.Proof.Spec
import proofs.«163665_j75909251990177_2_alg».proof.Proof.RefReadP
import proofs.«163665_j75909251990177_2_alg».proof.Proof.LibRowReads
import Idealize.ShloMosaic.Lib.ValueIdx
import Idealize.ShloMosaic.Lib.DynamicIndex
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open Cert.NTXent

/-- The stacked argument matrices, read at row `r`, column `k`. -/
theorem v0_apply (x0 x1 : (⟨S4096x512, .f32⟩ : BufTy).Contents (Elt Ideal)) (r : Fin 8192) (k : Fin 512) :
    val_main_v0 (F := Ideal) x0 x1 (ix2 r k)
      = stack (fun a b => x0 (ix2 a b)) (fun a b => x1 (ix2 a b)) r k := by
  unfold val_main_v0 stack
  by_cases h : r.val < 4096
  · rw [dif_pos h]
    exact concatenate_pair_apply_left 0 x0 x1 concatenates_S4096x512_S4096x512_S8192x512_d0 (ix2 r k) rfl
      (ix2 ⟨r.val, h⟩ k) (fun b => by match b with | ⟨0, _⟩ => rfl | ⟨1, _⟩ => rfl)
  · rw [dif_neg h]
    exact concatenate_pair_apply_right 0 x0 x1 concatenates_S4096x512_S4096x512_S8192x512_d0 (ix2 r k) rfl rfl
      (ix2 ⟨r.val - 4096, by omega⟩ k)
      (fun b hb => by
        match b, hb with
        | ⟨0, _⟩, hb => exact absurd rfl hb
        | ⟨1, _⟩, _ => rfl)
      (by show r.val - 4096 + 4096 = r.val; omega)

variable (x0 x1 : (⟨S4096x512, .f32⟩ : BufTy).Contents (Elt Ideal))

/-- The two argument matrices by coordinates. -/
local notation "X0" => (fun (a : Fin 4096) (b : Fin 512) => x0 (ix2 a b))
local notation "X1" => (fun (a : Fin 4096) (b : Fin 512) => x1 (ix2 a b))

/-- A row's sum of squares. -/
theorem call0_v1_at (r : Fin 8192) :
    val_main_call0_v1 (F := Ideal) x0 x1 (ix1 r) = ∑ k' : Fin 512, stack X0 X1 r k' * stack X0 X1 r k' := by
  rw [val_main_call0_v1_apply]
  show Ideal.ofBits .f32 0x00000000#32 + _ = _
  rw [Ideal.ofBits_zero_f32, zero_add]
  refine Finset.sum_congr rfl fun k _ => ?_
  have e : idx_main_call0_v1 (ix1 r) k = ix2 r k :=
    funext fun a => Fin.ext (by match a with | ⟨0, _⟩ => rfl | ⟨1, _⟩ => rfl)
  rw [e, val_main_call0_v0_apply, v0_apply]
  rfl

/-- The scaled matrix at row `r`, column `k`. -/
theorem v5_at (r : Fin 8192) (k : Fin 512) :
    val_main_v5 (F := Ideal) x0 x1 (ix2 r k) = U X0 X1 r k := by
  have e : idx_main_call0_v2 (idx_main_v4 (ix2 r k)) = ix1 r :=
    funext fun a => Fin.ext (by match a with | ⟨0, _⟩ => rfl)
  rw [val_main_v5_apply, val_main_v4_apply, val_main_v3_apply, val_main_v1_apply, val_main_call0_v2_apply,
    val_main_v2_apply, val_main_cst_apply, e, call0_v1_at, v0_apply]
  rfl

/-- The logits at row `r`, column `j`. -/
theorem v9_at (r j : Fin 8192) :
    val_main_v9 (F := Ideal) x0 x1 (ix2 r j) = refLogit X0 X1 r j := by
  rw [val_main_v9_apply, val_main_v7_apply, val_main_v8_apply, val_main_cst_0_apply]
  show Ideal.div (∑ k : Fin 512, _) half = Ideal.div (gram X0 X1 r j) half
  refine congrArg (fun s => Ideal.div s half) (Finset.sum_congr rfl fun k _ => ?_)
  have el : lidx_main_v7 (ix2 r j) k = ix2 r k :=
    funext fun a => Fin.ext (by match a with | ⟨0, _⟩ => rfl | ⟨1, _⟩ => rfl)
  have er : idx_main_v6 (ridx_main_v7 (ix2 r j) k) = ix2 j k :=
    funext fun a => Fin.ext (by match a with | ⟨0, _⟩ => rfl | ⟨1, _⟩ => rfl)
  rw [val_main_v6_apply, el, er, v5_at, v5_at]

theorem reduces_S8192x8192_S8192_d1 : S8192x8192.Reduces [1] S8192 := by decide

/-- The row maximum the reference subtracts: the fold of `max` from minus infinity, joined with minus infinity. -/
theorem call1_v2_at (r : Fin 8192) :
    val_main_call1_v2 (F := Ideal) x0 x1 (ix1 r) = rowMax (refLogit X0 X1 r) := by
  rw [val_main_call1_v2_apply, val_main_call1_v1_apply, val_main_call1_cst_0_apply]
  unfold val_main_call1_v0
  rw [Cert.RowReads.hostRowMax_apply (val_main_v9 (F := Ideal) x0 x1) (val_main_call1_cst (F := Ideal))
    reducesTo_S8192x8192_S8192_d1 reduces_S8192x8192_S8192_d1 h_S_ r]
  have e : (fun k : Fin 8192 => val_main_v9 (F := Ideal) x0 x1 (ix2 r k)) = refLogit X0 X1 r :=
    funext fun k => v9_at x0 x1 r k
  rw [e]
  rfl

/-- The shifted logits. -/
theorem call1_v5_at (r j : Fin 8192) :
    val_main_call1_v5 (F := Ideal) x0 x1 (ix2 r j) = refLogit X0 X1 r j - rowMax (refLogit X0 X1 r) := by
  have e : idx_main_call1_v3 (idx_main_call1_v4 (ix2 r j)) = ix1 r :=
    funext fun a => Fin.ext (by match a with | ⟨0, _⟩ => rfl)
  rw [val_main_call1_v5_apply, val_main_call1_v4_apply, val_main_call1_v3_apply, e, call1_v2_at, v9_at]
  rfl

/-- A row's sum of exponentials of the shifted logits. -/
theorem call1_v7_at (r : Fin 8192) :
    val_main_call1_v7 (F := Ideal) x0 x1 (ix1 r)
      = ∑ j' : Fin 8192, Ideal.exp (refLogit X0 X1 r j' - rowMax (refLogit X0 X1 r)) := by
  rw [val_main_call1_v7_apply]
  show Ideal.ofBits .f32 0x00000000#32 + _ = _
  rw [Ideal.ofBits_zero_f32, zero_add]
  refine Finset.sum_congr rfl fun k _ => ?_
  have e : idx_main_call1_v7 (ix1 r) k = ix2 r k :=
    funext fun a => Fin.ext (by match a with | ⟨0, _⟩ => rfl | ⟨1, _⟩ => rfl)
  rw [e, val_main_call1_v6_apply, call1_v5_at]
  rfl

/-- The log-softmax of the logits at row `r`, column `j`. -/
theorem v13_at (r j : Fin 8192) :
    val_main_v13 (F := Ideal) x0 x1 (ix2 r j)
      = (refLogit X0 X1 r j - rowMax (refLogit X0 X1 r))
        - Ideal.log (∑ j' : Fin 8192, Ideal.exp (refLogit X0 X1 r j' - rowMax (refLogit X0 X1 r))) := by
  have e : idx_main_call1_v8 (idx_main_call1_v10 (ix2 r j)) = ix1 r :=
    funext fun a => Fin.ext (by match a with | ⟨0, _⟩ => rfl)
  rw [val_main_v13_apply, val_main_call1_v10_apply, val_main_call1_v9_apply, val_main_call1_v8_apply, e,
    call1_v7_at, call1_v5_at]
  rfl

/-! ## The gather's dimension numbers read at a row -/

/-- The gather's dimension numbers: both operand axes collapsed, both named by the start index, which lies along
    axis 1 of the index array. -/
abbrev gd : GatherDims S8192x8192 S8192x2 S8192 := gather_S8192x8192_S8192x2_S8192_n_01_n_n_01_1_11

/-- Operand axis 0 of the gather at row `r`: word 0 of the row's start index, read signed and clamped. -/
theorem gather_coord0 {w : Nat} (idx : IVec S8192x2 w) (r : Fin 8192) :
    gd.start (ix1 r) idx (0 : Fin 2) + gd.batchCoord (ix1 r) (0 : Fin 2) + gd.offCoord (ix1 r) (0 : Fin 2)
      = min (idx (ix2 r (0 : Fin 2))).toInt.toNat 8191 := by
  rw [GatherDims.batchCoord_eq_zero _ _ _ List.not_mem_nil,
    GatherDims.offCoord_eq_zero _ _ _ (fun h => ((GatherDims.mem_sKept _ _).mp h).1 (List.mem_cons_self ..))]
  simp only [Nat.add_zero]
  unfold GatherDims.start
  rw [dif_pos (show (0 : Fin 2) ∈ gd.startIndexMap from List.mem_cons_self ..)]
  have hsi : gd.siIdx (ix1 r) ⟨List.idxOf (0 : Fin 2) gd.startIndexMap,
      List.idxOf_lt_length_iff.2 (List.mem_cons_self ..)⟩ = ix2 r (0 : Fin 2) := by
    funext b; refine Fin.ext ?_
    match b with
    | ⟨0, _⟩ => rfl
    | ⟨1, _⟩ => rfl
  rw [hsi]
  rfl

/-- Operand axis 1 of the gather at row `r`: word 1 of the row's start index, read signed and clamped. -/
theorem gather_coord1 {w : Nat} (idx : IVec S8192x2 w) (r : Fin 8192) :
    gd.start (ix1 r) idx (1 : Fin 2) + gd.batchCoord (ix1 r) (1 : Fin 2) + gd.offCoord (ix1 r) (1 : Fin 2)
      = min (idx (ix2 r (1 : Fin 2))).toInt.toNat 8191 := by
  rw [GatherDims.batchCoord_eq_zero _ _ _ List.not_mem_nil,
    GatherDims.offCoord_eq_zero _ _ _ (fun h => ((GatherDims.mem_sKept _ _).mp h).1
      (List.mem_cons_of_mem _ (List.mem_cons_self ..)))]
  simp only [Nat.add_zero]
  unfold GatherDims.start
  rw [dif_pos (show (1 : Fin 2) ∈ gd.startIndexMap from List.mem_cons_of_mem _ (List.mem_cons_self ..))]
  have hsi : gd.siIdx (ix1 r) ⟨List.idxOf (1 : Fin 2) gd.startIndexMap,
      List.idxOf_lt_length_iff.2 (List.mem_cons_of_mem _ (List.mem_cons_self ..))⟩ = ix2 r (1 : Fin 2) := by
    funext b; refine Fin.ext ?_
    match b with
    | ⟨0, _⟩ => rfl
    | ⟨1, _⟩ => rfl
  rw [hsi]
  rfl

/-- The gather read at row `r`: the operand at the two start-index words of row `r`, read signed and clamped. -/
theorem gather_at {α : Type} {w : Nat} (x : S8192x8192.Idx → α) (idx : IVec S8192x2 w) (r : Fin 8192) :
    Host.gather gd x idx (ix1 r)
      = x (ix2 (⟨min (idx (ix2 r (0 : Fin 2))).toInt.toNat 8191, by omega⟩ : Fin 8192)
          (⟨min (idx (ix2 r (1 : Fin 2))).toInt.toNat 8191, by omega⟩ : Fin 8192)) := by
  unfold Host.gather
  refine congrArg x (funext fun a => Fin.ext ?_)
  match a with
  | ⟨0, _⟩ => exact gather_coord0 idx r
  | ⟨1, _⟩ => exact gather_coord1 idx r

/-! ## The index array -/

/-- The wrap of a negative index leaves a non-negative word alone. -/
theorem select_wrap_of_nonneg (x d : BitVec 32) (h : 0 ≤ x.toInt) :
    Scalar.select (IntOp.cmpi .slt x 0#32) (IntOp.addi x d) x = x := by
  have hlt : x.slt 0#32 = false := by
    simp only [BitVec.slt, BitVec.toInt_zero, decide_eq_false_iff_not, Int.not_lt]
    exact h
  show (if BitVec.ofBool (x.slt 0#32) = 1 then _ else _) = _
  rw [hlt]
  rfl

/-- A row number as a word is non-negative read signed. -/
theorem toInt_row {n : ℕ} (hn : n < 8192) : (BitVec.ofNat 32 n).toInt = n :=
  toInt_ofNat_of_lt (by omega)

/-- The two ranges `0 .. 4095` laid end to end, at row `r`: `r mod 4096`. -/
theorem v12_at (r : Fin 8192) : val_main_v12 (F := Ideal) (ix1 r) = BitVec.ofNat 32 (r.val % 4096) := by
  unfold val_main_v12
  by_cases h : r.val < 4096
  · rw [concatenate_pair_apply_left 0 _ _ concatenates_S4096_S4096_S8192_d0 (ix1 r) rfl (ix1 ⟨r.val, h⟩)
      (fun b => by match b with | ⟨0, _⟩ => rfl)]
    show BitVec.ofNat 32 r.val = _
    rw [Nat.mod_eq_of_lt h]
  · rw [concatenate_pair_apply_right 0 _ _ concatenates_S4096_S4096_S8192_d0 (ix1 r) rfl rfl
      (ix1 ⟨r.val - 4096, by omega⟩)
      (fun b hb => by match b, hb with | ⟨0, _⟩, hb => exact absurd rfl hb)
      (by show r.val - 4096 + 4096 = r.val; omega)]
    show BitVec.ofNat 32 (r.val - 4096) = _
    refine congrArg (BitVec.ofNat 32) ?_
    omega

/-- Column 0 of the index array at row `r` is `r`. -/
theorem v27_at0 (r : Fin 8192) : val_main_v27 (F := Ideal) (ix2 r (0 : Fin 2)) = BitVec.ofNat 32 r.val := by
  unfold val_main_v27
  rw [concatenate_pair_apply_left 1 _ _ concatenates_S8192x1_S8192x1_S8192x2_d1 (ix2 r (0 : Fin 2)) rfl
    (ix2 r (0 : Fin 1)) (fun b => by match b with | ⟨0, _⟩ => rfl | ⟨1, _⟩ => rfl)]
  have e : idx_main_v25 (ix2 r (0 : Fin 1)) = ix1 r := funext fun a => Fin.ext (by match a with | ⟨0, _⟩ => rfl)
  rw [val_main_v25_apply, e, val_main_v19_apply, val_main_v16_apply, val_main_v18_apply, val_main_v15_apply,
    val_main_c_apply, val_main_v14_apply]
  exact select_wrap_of_nonneg _ _ (by rw [toInt_row r.isLt]; exact Int.natCast_nonneg _)

/-- Column 1 of the index array at row `r` is `r mod 4096`. -/
theorem v27_at1 (r : Fin 8192) : val_main_v27 (F := Ideal) (ix2 r (1 : Fin 2)) = BitVec.ofNat 32 (r.val % 4096) := by
  unfold val_main_v27
  rw [concatenate_pair_apply_right 1 _ _ concatenates_S8192x1_S8192x1_S8192x2_d1 (ix2 r (1 : Fin 2)) rfl rfl
    (ix2 r (0 : Fin 1))
    (fun b hb => by
      match b, hb with
      | ⟨0, _⟩, _ => rfl
      | ⟨1, _⟩, hb => exact absurd rfl hb)
    rfl]
  have e : idx_main_v26 (ix2 r (0 : Fin 1)) = ix1 r := funext fun a => Fin.ext (by match a with | ⟨0, _⟩ => rfl)
  rw [val_main_v26_apply, e, val_main_v24_apply, val_main_v21_apply, val_main_v23_apply, val_main_v20_apply,
    val_main_c_2_apply, v12_at]
  exact select_wrap_of_nonneg _ _ (by rw [toInt_row (by omega)]; exact Int.natCast_nonneg _)

/-- The gathered entries: row `r` of the log-softmax at the row's label column. -/
theorem v28_at (r : Fin 8192) :
    val_main_v28 (F := Ideal) x0 x1 (ix1 r) = val_main_v13 (F := Ideal) x0 x1 (ix2 r (lab r)) := by
  unfold val_main_v28
  refine (gather_at (val_main_v13 (F := Ideal) x0 x1) (val_main_v27 (F := Ideal)) r).trans ?_
  refine congrArg (val_main_v13 (F := Ideal) x0 x1) (funext fun a => Fin.ext ?_)
  match a with
  | ⟨0, _⟩ =>
    show min (val_main_v27 (F := Ideal) (ix2 r (0 : Fin 2))).toInt.toNat 8191 = r.val
    rw [v27_at0, toInt_row r.isLt, Int.toNat_natCast]
    omega
  | ⟨1, _⟩ =>
    show min (val_main_v27 (F := Ideal) (ix2 r (1 : Fin 2))).toInt.toNat 8191 = r.val % 4096
    rw [v27_at1, toInt_row (by omega), Int.toNat_natCast]
    omega

/-- Rows as rank-1 indices. -/
def rowEquiv : Fin 8192 ≃ S8192.Idx where
  toFun := ix1
  invFun j := j 0
  left_inv _ := rfl
  right_inv j := (eq_ix1 j).symm

/-- THE REFERENCE'S VALUE: minus the mean over the rows of the label's log-softmax entry. -/
theorem ref_value (i : S_.Idx) :
    val_main_v31 (F := Ideal) x0 x1 i = refLoss (fun r k => x0 (ix2 r k)) (fun r k => x1 (ix2 r k)) := by
  rw [val_main_v31_apply, val_main_v30_apply, val_main_v29_apply, val_main_cst_5_apply]
  show -(Ideal.div (Ideal.ofBits .f32 0x00000000#32 + ∑ j : S8192.Idx, val_main_v28 (F := Ideal) x0 x1 j) cnt) = _
  rw [Ideal.ofBits_zero_f32, zero_add]
  unfold refLoss
  refine congrArg (fun s => -(Ideal.div s cnt)) ?_
  rw [← Equiv.sum_comp rowEquiv]
  refine Finset.sum_congr rfl fun r _ => ?_
  show val_main_v28 (F := Ideal) x0 x1 (ix1 r) = _
  rw [v28_at, v13_at]

end Cert.ReferenceIdeal.RefValue

end
-- ==== Proof.LibRealOps.lean ====
import Idealize.ShloMosaic.PureOps.Ideal
import Idealize.ShloMosaic.PureOps.Ideal.Laws
import Idealize.ShloMosaic.PureOps.IdealRules

/-!
# Real-valued arrays are closed under the whole-array operations

At the ideal instance a float array is a function into the extended reals. An array is
*all real* when every entry is (the image of) a real number. This file shows that the
elementwise arithmetic, the re-indexings (broadcast, gather), the finite sums (scatter-add,
dot products) and the quotient 1 / max(y, 1) keep an array all real: a finite sum or a
product of reals is a real, the maximum of two reals is a real, and a quotient of reals with a
nonzero denominator is a real.
-/

open Idealize Idealize.ShloMosaic

namespace Cert.Proof.RealOps

/-- Every entry of the array is a real number. -/
def AllReal {ι : Type*} (f : ι → EReal) : Prop := ∀ i, ∃ r : ℝ, f i = (r : EReal)

/-! ### Scalars: sums, products, maxima and finite sums of reals are reals -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb
  exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb
  exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

theorem real_max {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb
  exact ⟨max x y, (EReal.coe_strictMono.monotone.map_max).symm⟩

/-- A finite sum of reals is a real: by induction on the index set, one summand at a time. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by rw [Finset.sum_empty, EReal.coe_zero]⟩
  | insert a t ha ih =>
    rw [Finset.sum_insert ha]
    exact real_add (h a (Finset.mem_insert_self a t)) (ih fun i hi => h i (Finset.mem_insert_of_mem hi))

/-! ### 1. Elementwise arithmetic -/

theorem AllReal.addf {s : Shape} {x y : FVec Ideal s .f32} (hx : AllReal x) (hy : AllReal y) :
    AllReal (ShloMosaic.addf x y) := fun i => real_add (hx i) (hy i)

theorem AllReal.subf {s : Shape} {x y : FVec Ideal s .f32} (hx : AllReal x) (hy : AllReal y) :
    AllReal (ShloMosaic.subf x y) := fun i => real_sub (hx i) (hy i)

theorem AllReal.mulf {s : Shape} {x y : FVec Ideal s .f32} (hx : AllReal x) (hy : AllReal y) :
    AllReal (ShloMosaic.mulf x y) := fun i => real_mul (hx i) (hy i)

theorem AllReal.maximumf {s : Shape} {x y : FVec Ideal s .f32} (hx : AllReal x) (hy : AllReal y) :
    AllReal (ShloMosaic.maximumf x y) := fun i => real_max (hx i) (hy i)

/-! ### 2. Re-indexings: the result reads the operand at some index -/

theorem AllReal.broadcastInDim {s t : Shape} (dims : Fin s.rank → Fin t.rank) (h : s.BroadcastsInDim t dims)
    {x : FVec Ideal s .f32} (hx : AllReal x) : AllReal (ShloMosaic.broadcastInDim t dims h x) :=
  fun _ => hx _

theorem AllReal.gather {s si t : Shape} {w : Nat} (d : GatherDims s si t) {x : FVec Ideal s .f32} (idx : IVec si w)
    (hx : AllReal x) : AllReal (Host.gather d x idx) :=
  fun _ => hx _

/-! ### 3. Scatter-add: the operand's entry plus a finite sum of update entries -/

theorem AllReal.scatterAdd {s si u : Shape} {w : Nat} (d : ScatterDims s si u) {x : FVec Ideal s .f32}
    (idx : IVec si w) {upd : FVec Ideal u .f32} (hx : AllReal x) (hu : AllReal upd) :
    AllReal (Host.scatterAdd (F := Ideal) d x idx upd) := by
  intro i
  unfold Host.scatterAdd
  rw [Ideal.hostScatterAdd_def]
  unfold Ideal.hostScatterAdd
  exact real_add (hx i) (real_sum _ _ fun j _ => hu j)

/-! ### 4. Dot products: a finite sum of products -/

theorem AllReal.dotGeneral {sl sr so : Shape} (d : DotDims sl sr so) (prec : Option ContractPrecision)
    {l : FVec Ideal sl .f32} {r : FVec Ideal sr .f32} (hl : AllReal l) (hr : AllReal r) :
    AllReal (Host.dotGeneral (F := Ideal) d prec l r) := by
  intro j
  show ∃ q : ℝ, FloatOps.dotGeneral d prec .single l r j = (q : EReal)
  rw [Ideal.dotGeneral_apply]
  exact real_sum _ _ fun k _ => real_mul (hl _) (hr _)

/-- With any all-real accumulator. -/
theorem AllReal.matmul_acc {sl sr so : Shape} (d : DotDims sl sr so) (prec : Option ContractPrecision)
    {l : FVec Ideal sl .f32} {r : FVec Ideal sr .f32} {acc : FVec Ideal so .f32}
    (hl : AllReal l) (hr : AllReal r) (hacc : AllReal acc) :
    AllReal (FloatOps.matmul d prec l r acc) := by
  intro j
  rw [Ideal.matmul_apply]
  exact real_add (hacc j) (real_sum _ _ fun k _ => real_mul (hl _) (hr _))

theorem AllReal.matmul {sl sr so : Shape} (d : DotDims sl sr so) (prec : Option ContractPrecision)
    {l : FVec Ideal sl .f32} {r : FVec Ideal sr .f32} (hl : AllReal l) (hr : AllReal r) :
    AllReal (FloatOps.matmul d prec l r (constant so .f32 0x00000000#32)) := by
  intro j
  rw [Ideal.matmul_constant_zero_apply]
  exact real_sum _ _ fun k _ => real_mul (hl _) (hr _)

/-! ### 5. The constants 0 and 1 -/

/-- The pattern of the float 1.0 denotes the extended real 1. -/
theorem ofBits_one_f32 : Ideal.ofBits .f32 0x3F800000#32 = 1 := IdealRules.sign_bit.ideal_onePat .f32

theorem constant_zero_apply (S : Shape) (i : S.Idx) : constant (F := Ideal) S .f32 0x00000000#32 i = 0 :=
  Ideal.ofBits_zero_f32

theorem constant_one_apply (S : Shape) (i : S.Idx) : constant (F := Ideal) S .f32 0x3F800000#32 i = 1 :=
  ofBits_one_f32

theorem AllReal.constant_zero (S : Shape) : AllReal (constant (F := Ideal) S .f32 0x00000000#32) :=
  fun i => ⟨0, by rw [constant_zero_apply, EReal.coe_zero]⟩

theorem AllReal.constant_one (S : Shape) : AllReal (constant (F := Ideal) S .f32 0x3F800000#32) :=
  fun i => ⟨1, by rw [constant_one_apply, EReal.coe_one]⟩

/-! ### 6. The reciprocal degree 1 / max(y, 1) -/

/-- A quotient of reals with a nonzero denominator is a real. -/
theorem real_div {a b : EReal} (ha : ∃ r : ℝ, a = (r : EReal)) (hb : ∃ r : ℝ, b = (r : EReal)) (h0 : b ≠ 0) :
    ∃ r : ℝ, Ideal.div a b = (r : EReal) := by
  obtain ⟨x, rfl⟩ := ha; obtain ⟨y, rfl⟩ := hb
  have hy : y ≠ 0 := fun h => h0 (by rw [h, EReal.coe_zero])
  exact ⟨x * (1 / y), by rw [Ideal.div_coe hy, EReal.coe_mul]⟩

/-- Elementwise division by an all-real array with no zero entry. -/
theorem AllReal.hostDivf {s : Shape} {x y : FVec Ideal s .f32} (hx : AllReal x) (hy : AllReal y)
    (h0 : ∀ i, y i ≠ 0) : AllReal (Host.divf (F := Ideal) x y) :=
  fun i => real_div (hx i) (hy i) (h0 i)

/-- For a real r the maximum of r and 1 is the real max r 1, which is at least 1 and so not zero:
    the quotient 1 / max(r, 1) is the real 1 / max r 1. -/
theorem div_one_max_one (r : ℝ) : Ideal.div 1 (max (r : EReal) 1) = ((1 / max r 1 : ℝ) : EReal) := by
  have h1 : max (r : EReal) 1 = ((max r 1 : ℝ) : EReal) := by
    rw [← EReal.coe_one]; exact (EReal.coe_strictMono.monotone.map_max).symm
  have hne : max r 1 ≠ 0 := ne_of_gt (lt_of_lt_of_le one_pos (le_max_right r 1))
  rw [h1, Ideal.div_coe hne, one_mul]

/-- The value of the reciprocal degree at an index where y is the real r. -/
theorem recipDeg_apply {s0 s : Shape} (dims : Fin s0.rank → Fin s.rank) (hb : s0.BroadcastsInDim s dims)
    (y : FVec Ideal s .f32) (i : s.Idx) {r : ℝ} (hr : y i = (r : EReal)) :
    Host.divf (F := Ideal) (ShloMosaic.broadcastInDim s dims hb (constant s0 .f32 0x3F800000#32))
        (ShloMosaic.maximumf y (ShloMosaic.broadcastInDim s dims hb (constant s0 .f32 0x3F800000#32))) i
      = ((1 / max r 1 : ℝ) : EReal) := by
  show Ideal.div (Ideal.ofBits .f32 0x3F800000#32) (max (y i) (Ideal.ofBits .f32 0x3F800000#32)) = _
  rw [ofBits_one_f32, hr, div_one_max_one]

theorem AllReal.recipDeg {s0 s : Shape} (dims : Fin s0.rank → Fin s.rank) (hb : s0.BroadcastsInDim s dims)
    {y : FVec Ideal s .f32} (hy : AllReal y) :
    AllReal (Host.divf (F := Ideal) (ShloMosaic.broadcastInDim s dims hb (constant s0 .f32 0x3F800000#32))
      (ShloMosaic.maximumf y (ShloMosaic.broadcastInDim s dims hb (constant s0 .f32 0x3F800000#32)))) := by
  intro i
  obtain ⟨r, hr⟩ := hy i
  exact ⟨1 / max r 1, recipDeg_apply dims hb y i hr⟩

/-- The literal instance: the scalar 1 broadcast from the rank-zero shape. -/
example {s : Shape} (hb : (⟨0, ![]⟩ : Shape).BroadcastsInDim s ![]) {y : FVec Ideal s .f32} (hy : AllReal y) :
    AllReal (Host.divf (F := Ideal) (ShloMosaic.broadcastInDim s ![] hb (constant (⟨0, ![]⟩ : Shape) .f32 0x3F800000#32))
      (ShloMosaic.maximumf y (ShloMosaic.broadcastInDim s ![] hb (constant (⟨0, ![]⟩ : Shape) .f32 0x3F800000#32)))) := by
  apply AllReal.recipDeg; exact hy

/-! ### 7. The log-softmax identity on reals

For real entries a k, the row maximum M (a fold of max from ⊥ over a nonempty index set) is a
real, the sum S of the exponentials exp (a k - M) is a positive real, so log S is a real; and on
reals  x - (M + L) = (x - M) - L,  while max ⊥ M = M. -/

/-- The coercion of a finite sum of reals is the sum of the coercions. -/
theorem coe_sum_real {ι : Type*} (t : Finset ι) (g : ι → ℝ) :
    ∑ i ∈ t, ((g i : ℝ) : EReal) = ((∑ i ∈ t, g i : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- The fold of max from ⊥ over a nonempty finite set of reals is a real: the first element
    absorbs ⊥, and each further step is a maximum of two reals. -/
theorem real_fold_max {ι : Type*} (t : Finset ι) (f : ι → EReal) (h : ∀ i ∈ t, ∃ r : ℝ, f i = (r : EReal))
    (ht : t.Nonempty) : ∃ r : ℝ, t.fold max (⊥ : EReal) f = (r : EReal) := by
  classical
  induction t using Finset.induction_on with
  | empty => exact absurd ht Finset.not_nonempty_empty
  | insert a s ha ih =>
    rw [Finset.fold_insert ha]
    rcases s.eq_empty_or_nonempty with rfl | hs
    · rw [Finset.fold_empty, max_bot_right]; exact h a (Finset.mem_insert_self a _)
    · exact real_max (h a (Finset.mem_insert_self a _)) (ih (fun i hi => h i (Finset.mem_insert_of_mem hi)) hs)

/-- The logarithm of a positive real is a real. -/
theorem log_coe_of_pos {σ : ℝ} (h : 0 < σ) : Ideal.log (σ : EReal) = ((Real.log σ : ℝ) : EReal) := by
  rw [Ideal.log_coe, if_neg (not_le.mpr h)]

/-- On reals, subtracting a sum is subtracting twice; and ⊥ is neutral for max. -/
theorem sub_add_eq_sub_max_bot_sub {x m l : EReal} (hx : ∃ r : ℝ, x = (r : EReal)) (hm : ∃ r : ℝ, m = (r : EReal))
    (hl : ∃ r : ℝ, l = (r : EReal)) : x - (m + l) = (x - max ⊥ m) - l := by
  obtain ⟨x, rfl⟩ := hx; obtain ⟨m, rfl⟩ := hm; obtain ⟨l, rfl⟩ := hl
  rw [max_bot_left, ← EReal.coe_add, ← EReal.coe_sub, ← EReal.coe_sub, ← EReal.coe_sub, sub_add_eq_sub_sub]

section LogSoftmax
variable {ι : Type*} [Fintype ι] [Nonempty ι]

/-- The row maximum is a real. -/
theorem real_rowMax {a : ι → EReal} (ha : AllReal a) :
    ∃ m : ℝ, Finset.univ.fold max (⊥ : EReal) a = (m : EReal) :=
  real_fold_max Finset.univ a (fun i _ => ha i) Finset.univ_nonempty

/-- The sum of the exponentials of the entries shifted by a real is a positive real. -/
theorem real_sumExp_pos {a : ι → EReal} (ha : AllReal a) {M : EReal} (hM : ∃ m : ℝ, M = (m : EReal)) :
    ∃ σ : ℝ, 0 < σ ∧ ∑ k, Ideal.exp (a k - M) = (σ : EReal) := by
  obtain ⟨m, rfl⟩ := hM
  choose r hr using ha
  refine ⟨∑ k, Real.exp (r k - m), Finset.sum_pos (fun k _ => Real.exp_pos _) Finset.univ_nonempty, ?_⟩
  rw [← coe_sum_real]
  exact Finset.sum_congr rfl fun k _ => by rw [hr k, ← EReal.coe_sub, Ideal.exp_coe]

/-- Its logarithm is a real. -/
theorem real_logSumExp {a : ι → EReal} (ha : AllReal a) {M : EReal} (hM : ∃ m : ℝ, M = (m : EReal)) :
    ∃ l : ℝ, Ideal.log (∑ k, Ideal.exp (a k - M)) = (l : EReal) := by
  obtain ⟨σ, hσ, hS⟩ := real_sumExp_pos ha hM
  exact ⟨Real.log σ, by rw [hS, log_coe_of_pos hσ]⟩

/-- The log-softmax identity, with the row maximum and the sum of exponentials spelled out. -/
theorem logSoftmax_eq {a : ι → EReal} (ha : AllReal a) (j : ι) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  sub_add_eq_sub_max_bot_sub (ha j) (real_rowMax ha) (real_logSumExp ha (real_rowMax ha))

end LogSoftmax

/-- The instance at rows of 47 entries. -/
example (a : Fin 47 → EReal) (ha : AllReal a) (j : Fin 47) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  logSoftmax_eq ha j

/-! ### The lemmas fire by apply on the forms a program states -/

example {s si u : Shape} {w : Nat} (d : ScatterDims s si u) (x : FVec Ideal s .f32) (idx : IVec si w)
    (upd : FVec Ideal u .f32) (hx : AllReal x) (hu : AllReal upd) : AllReal (Host.scatterAdd d x idx upd) := by
  apply AllReal.scatterAdd <;> assumption

example {sl sr so : Shape} (d : DotDims sl sr so) (l : FVec Ideal sl .f32) (r : FVec Ideal sr .f32)
    (hl : AllReal l) (hr : AllReal r) : AllReal (Host.dotGeneral d none l r) := by
  apply AllReal.dotGeneral <;> assumption

example {sl sr so : Shape} (d : DotDims sl sr so) (l : FVec Ideal sl .f32) (r : FVec Ideal sr .f32)
    (hl : AllReal l) (hr : AllReal r) : AllReal (ShloMosaic.matmul d none l r (constant so .f32 0x00000000#32)) := by
  apply AllReal.matmul <;> assumption

example {s : Shape} (hb : (⟨0, ![]⟩ : Shape).BroadcastsInDim s ![]) :
    AllReal (ShloMosaic.broadcastInDim s ![] hb (constant (F := Ideal) (⟨0, ![]⟩ : Shape) .f32 0x00000000#32)) := by
  apply AllReal.broadcastInDim; apply AllReal.constant_zero

example {s si t : Shape} {w : Nat} (d : GatherDims s si t) (x y : FVec Ideal s .f32) (idx : IVec si w)
    (hx : AllReal x) (hy : AllReal y) : AllReal (Host.gather d (ShloMosaic.mulf (ShloMosaic.addf x y) (ShloMosaic.maximumf x y)) idx) := by
  apply AllReal.gather; apply AllReal.mulf
  · exact AllReal.addf hx hy
  · exact AllReal.maximumf hx hy

end Cert.Proof.RealOps
-- ==== Proof.LossAlgebra.lean ====
/-
  On real inputs the two arrangements of the loss agree.

  Every scaled entry is a real number: a finite sum of squares of reals is a real, its square root is a real or
  the bottom element, the larger of that and the positive floor is a positive real, and a real divided by a
  non-zero real is a real.  Hence every inner product of scaled rows is a real, and so is every logit.  Dividing by
  one half is multiplying by two.  For a row of real logits a and any real shift c,
    log (sum_j exp (a j - c)) = log (sum_j exp (a j)) - c,
  so  a l - (c + log (sum_j exp (a j - c)))  and  (a l - c) - log (sum_j exp (a j - c))  are both
  a l - log (sum_j exp (a j)),  whatever c is: the fixed constant or the row's maximum.
-/
import proofs.«163665_j75909251990177_2_alg».proof.Proof.Spec
import proofs.«163665_j75909251990177_2_alg».proof.Proof.LibRealOps

noncomputable section

namespace Cert.NTXent

open Idealize.ShloMosaic Cert.Proof.RealOps

/-! ### The binary words -/

/-- The floor is a positive real. -/
theorem eps_pos_real : ∃ r : ℝ, 0 < r ∧ eps = (r : EReal) := by
  refine ⟨(11258999 : ℝ) * (2 : ℝ) ^ (-50 : ℤ), by positivity, ?_⟩
  simp [eps, Ideal.ofBits, Ideal.ieee, -EReal.coe_mul]

theorem two_eq : two = ((2 : ℝ) : EReal) := by
  simp [two, Ideal.ofBits, Ideal.ieee, -EReal.coe_mul]; norm_num

theorem half_eq : half = ((1 / 2 : ℝ) : EReal) := by
  simp [half, Ideal.ofBits, Ideal.ieee, -EReal.coe_mul]; norm_num

theorem negInf_eq : negInf = ⊥ := by
  simp [negInf, Ideal.ofBits, Ideal.ieee]

/-! ### Every scaled entry and every inner product is a real -/

/-- The larger of the square root of a real and the floor is a positive real. -/
theorem real_denom {S : EReal} (hS : ∃ r : ℝ, S = (r : EReal)) :
    ∃ d : ℝ, 0 < d ∧ max (Ideal.sqrt S) eps = (d : EReal) := by
  obtain ⟨s, rfl⟩ := hS
  obtain ⟨e, he, hE⟩ := eps_pos_real
  rw [hE, Ideal.sqrt_coe]
  by_cases hs : s < 0
  · rw [if_pos hs]; exact ⟨e, he, max_bot_left _⟩
  · rw [if_neg hs]
    exact ⟨max (Real.sqrt s) e, lt_max_of_lt_right he, (EReal.coe_strictMono.monotone.map_max).symm⟩

/-- A real row scaled is a real row. -/
theorem real_unitRow {x : Fin 512 → EReal} (hx : ∀ k, ∃ r : ℝ, x k = (r : EReal)) (k : Fin 512) :
    ∃ r : ℝ, unitRow x k = (r : EReal) := by
  obtain ⟨d, hd, hD⟩ := real_denom (real_sum Finset.univ (fun k' => x k' * x k') fun k' _ => real_mul (hx k') (hx k'))
  unfold unitRow
  refine real_div (hx k) ⟨d, hD⟩ ?_
  rw [hD]
  intro h0
  rw [← EReal.coe_zero, EReal.coe_eq_coe_iff] at h0
  exact hd.ne' h0

theorem real_stack {x1 x2 : Fin 4096 → Fin 512 → EReal} (h1 : ∀ i k, ∃ r : ℝ, x1 i k = (r : EReal))
    (h2 : ∀ i k, ∃ r : ℝ, x2 i k = (r : EReal)) (i : Fin 8192) (k : Fin 512) :
    ∃ r : ℝ, stack x1 x2 i k = (r : EReal) := by
  unfold stack
  by_cases h : i.val < 4096
  · rw [dif_pos h]; exact h1 _ k
  · rw [dif_neg h]; exact h2 _ k

theorem real_U {x1 x2 : Fin 4096 → Fin 512 → EReal} (h1 : ∀ i k, ∃ r : ℝ, x1 i k = (r : EReal))
    (h2 : ∀ i k, ∃ r : ℝ, x2 i k = (r : EReal)) (i : Fin 8192) (k : Fin 512) :
    ∃ r : ℝ, U x1 x2 i k = (r : EReal) :=
  real_unitRow (real_stack h1 h2 i) k

theorem real_gram {x1 x2 : Fin 4096 → Fin 512 → EReal} (h1 : ∀ i k, ∃ r : ℝ, x1 i k = (r : EReal))
    (h2 : ∀ i k, ∃ r : ℝ, x2 i k = (r : EReal)) (i j : Fin 8192) :
    ∃ r : ℝ, gram x1 x2 i j = (r : EReal) :=
  real_sum _ _ fun k _ => real_mul (real_U h1 h2 i k) (real_U h1 h2 j k)

/-- Dividing by one half is multiplying by two. -/
theorem refLogit_eq (x1 x2 : Fin 4096 → Fin 512 → EReal) (i j : Fin 8192) :
    refLogit x1 x2 i j = gram x1 x2 i j * two := by
  unfold refLogit
  rw [half_eq, two_eq, Ideal.div_coe (by norm_num)]
  norm_num

/-! ### The shift cancels -/

section Shift
variable {ι : Type*} [Fintype ι] [Nonempty ι]

/-- The logarithm of the sum of the exponentials of a real row shifted by c is that of the unshifted row, minus c. -/
theorem logSumExp_shift (r : ι → ℝ) (c : ℝ) :
    Ideal.log (∑ j, Ideal.exp (((r j : ℝ) : EReal) - (c : EReal)))
      = ((Real.log (∑ j, Real.exp (r j)) - c : ℝ) : EReal) := by
  have h : ∑ j, Ideal.exp (((r j : ℝ) : EReal) - (c : EReal)) = ((∑ j, Real.exp (r j - c) : ℝ) : EReal) := by
    rw [← coe_sum_real]
    exact Finset.sum_congr rfl fun j _ => by rw [← EReal.coe_sub, Ideal.exp_coe]
  have hpos : 0 < ∑ j, Real.exp (r j) := Finset.sum_pos (fun j _ => Real.exp_pos _) Finset.univ_nonempty
  have hfac : ∑ j, Real.exp (r j - c) = Real.exp (-c) * ∑ j, Real.exp (r j) := by
    rw [Finset.mul_sum]
    exact Finset.sum_congr rfl fun j _ => by rw [← Real.exp_add]; congr 1; ring
  have hpos' : 0 < ∑ j, Real.exp (r j - c) := by rw [hfac]; exact mul_pos (Real.exp_pos _) hpos
  rw [h, log_coe_of_pos hpos', hfac, Real.log_mul (Real.exp_pos _).ne' hpos.ne', Real.log_exp]
  congr 1; ring

/-- The two arrangements of one row: shifted by the row's maximum, or by any real constant. -/
theorem row_eq {a : ι → EReal} (ha : AllReal a) (c : ℝ) (l : ι) :
    (a l - max ⊥ (Finset.univ.fold max (⊥ : EReal) a))
        - Ideal.log (∑ j, Ideal.exp (a j - max ⊥ (Finset.univ.fold max (⊥ : EReal) a)))
      = a l - ((c : EReal) + Ideal.log (∑ j, Ideal.exp (a j - (c : EReal)))) := by
  obtain ⟨m, hm⟩ := real_rowMax ha
  choose r hr using ha
  rw [hm, max_bot_left]
  simp only [hr]
  rw [logSumExp_shift r m, logSumExp_shift r c, ← EReal.coe_sub, ← EReal.coe_sub, ← EReal.coe_add, ← EReal.coe_sub]
  congr 1; ring

end Shift

/-! ### The two losses -/

theorem refLoss_eq_kerLoss (x1 x2 : Fin 4096 → Fin 512 → EReal) (h1 : ∀ i k, ∃ r : ℝ, x1 i k = (r : EReal))
    (h2 : ∀ i k, ∃ r : ℝ, x2 i k = (r : EReal)) : refLoss x1 x2 = kerLoss x1 x2 := by
  unfold refLoss kerLoss
  refine congrArg (fun s => -(Ideal.div s cnt)) (Finset.sum_congr rfl fun i _ => ?_)
  have hfun : refLogit x1 x2 i = fun j => gram x1 x2 i j * two := funext fun j => refLogit_eq x1 x2 i j
  have hreal : AllReal (fun j => gram x1 x2 i j * two) := fun j =>
    real_mul (real_gram h1 h2 i j) ⟨2, two_eq⟩
  rw [hfun, rowMax, negInf_eq]
  exact row_eq hreal (21 / 10) (lab i)

end Cert.NTXent

end
-- ==== Proof.FiniteInputs.lean ====
/-
  The printed predicate "every entry of both matrices has absolute value below plus infinity" read back:
  every entry of both matrices is a real number.

  The predicate is the conjunction of two reductions by "and" over all axes, each of the elementwise comparison
  |x| < +infinity.  A conjunction that is 1 has both sides 1; a reduction by "and" over all axes that is 1 had a 1
  at every entry; and an extended real x with max x (-x) < +infinity is neither infinity, so it is a real.
-/
import proofs.«163665_j75909251990177_2_alg».proof.Pre_finite_inputs
import proofs.«163665_j75909251990177_2_alg».proof.Proof.Gen.Pre_finite_inputs
import Idealize.ShloMosaic.Lib.ReduceAll
import Idealize.ShloMosaic.Lib.ValueIdx

noncomputable section

namespace Cert.NTXent.Finite

open Idealize.ShloMosaic Cert.Pre_finite_inputs

/-- The rank-zero shape has one index. -/
instance : Subsingleton S_.Idx := ⟨fun a b => funext fun d => d.elim0⟩

/-- An extended real whose absolute value compares below plus infinity is a real. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- Under the printed predicate every entry of both matrices is a real. -/
theorem real_of_pre [hF : Cert.Pre_finite_inputs.Facts] (a0 a1 : FVec Ideal Cert.Pre_finite_inputs.S4096x512 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨hl, hr⟩ := IntOp.andi_eq_one.mp h0
  refine ⟨fun i => ?_, fun i => ?_⟩
  · exact real_of_abs_lt_top _ (Host.reduce_andi_all _ _ _ _ _ hl i)
  · exact real_of_abs_lt_top _ (Host.reduce_andi_all _ _ _ _ _ hr i)

end Cert.NTXent.Finite

end
-- ==== Proof.lean ====
/-
  The certificate of a contrastive (NT-Xent) loss kernel against its jnp reference, over the extended reals.

  The kernel program normalizes the rows of two [4096, 512] feature matrices in two pipelined calls, concatenates the
  half-precision copies, computes per row of the stacked matrix the log of the sum of exponentials of doubled inner
  products against every row — in a tiled call that accumulates over column blocks with ONE fixed shift of the logits —,
  and reduces the label logits minus that column to minus their mean.  The reference builds the whole 8192 × 8192 logit
  matrix, applies a log-softmax that shifts each row by its own maximum, gathers the label column and takes minus the mean.

  frame_Kernel, frame_KernelIdeal — each program is launched as five segments (three calls, two stretches of host
    operations); every call's body is run at a generic grid point, the log-sum-exp call's in its three control cases with
    the scratch accumulator carried by the call's invariant; the argument arrays are read back unchanged at the end.
  frame_ReferenceIdeal — the reference's 58 host operations run one after the other.
  preserves_Kernel_KernelIdeal — the two sites where the fixed shift 2.1 was named 21/10.
  algebraic_KernelIdeal_ReferenceIdeal — the kernel's result is the loss in its fixed-shift arrangement, the reference's
    the loss in its row-maximum arrangement; on finite inputs every scaled entry, inner product and logit is a real
    number, and on real rows the two arrangements agree because the shift cancels inside the log of the sum.
-/
import proofs.«163665_j75909251990177_2_alg».proof.Defs
import proofs.«163665_j75909251990177_2_alg».proof.Proof.Gen.Kernel
import proofs.«163665_j75909251990177_2_alg».proof.Proof.Gen.KernelIdeal
import proofs.«163665_j75909251990177_2_alg».proof.Proof.Gen.ReferenceIdeal
import proofs.«163665_j75909251990177_2_alg».proof.Proof.Gen.Pre_finite_inputs
import proofs.«163665_j75909251990177_2_alg».proof.Proof.KRunB
import proofs.«163665_j75909251990177_2_alg».proof.Proof.KernelValueI
import proofs.«163665_j75909251990177_2_alg».proof.Proof.RefRun
import proofs.«163665_j75909251990177_2_alg».proof.Proof.RefSide
import proofs.«163665_j75909251990177_2_alg».proof.Proof.LossAlgebra
import proofs.«163665_j75909251990177_2_alg».proof.Proof.FiniteInputs
import Idealize.ShloMosaic.PureOps.IdealRules

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunByStages.run (F := Ideal) m ρ)

/-- The ledger's two entries: the table gives the name the value 21/10, and the printed constant is that value. -/
theorem preserves : Cert.preserves_Kernel_KernelIdeal :=
  ⟨IdealRules.named_const.statement Cert.KernelIdeal.κ "c_21_10" .f32 0x40066666#32 ((21 / 10 : ℝ) : EReal) rfl,
   IdealRules.named_const.statement Cert.KernelIdeal.κ "c_21_10" .f32 0x40066666#32 ((21 / 10 : ℝ) : EReal) rfl⟩

/-- Both programs end at the loss of the two argument matrices: the kernel in its fixed-shift arrangement, the reference
    in its row-maximum arrangement, equal because the finite inputs make every row real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.NTXent.kerLoss (Cert.KernelIdeal.Hand.X0 m c) (Cert.KernelIdeal.Hand.X1 m c), ?_, ?_⟩
  · exact (θ_run Cert.KernelIdeal.defs _ _).mono
      (fun _ h c => ⟨(h c).1.trans (funext fun i => Cert.KernelIdeal.Hand.kernel_value m ρ c i), (h c).2⟩)
      (Cert.KernelIdeal.Hand.run_value (F := Ideal) m ρ)
  · refine (θ_run Cert.ReferenceIdeal.defs _ _).mono (fun _ h c => ⟨(h c).1.trans (funext fun i => ?_), (h c).2⟩)
      (Cert.ReferenceIdeal.RunByStages.run (F := Ideal) m' ρ')
    obtain ⟨h0, h1⟩ := Cert.NTXent.Finite.real_of_pre _ _ (hpre c)
    rw [Cert.ReferenceIdeal.RefValue.ref_value, (hagree c).1, (hagree c).2]
    exact Cert.NTXent.refLoss_eq_kerLoss _ _ (fun a b => h0 (ix2 a b)) (fun a b => h1 (ix2 a b))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
